-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x4096x1024 .f32) (main_arg1 : FVec F S1024x1024 .f32) (main_arg2 : FVec F S1024x1024 .f32) (main_arg3 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x4096x1024 : Shape := ⟨3, ![8, 4096, 1024]⟩
abbrev S1024x1024 : Shape := ⟨2, ![1024, 1024]⟩
abbrev S8x1024x1024 : Shape := ⟨3, ![8, 1024, 1024]⟩
abbrev S8x1x1024 : Shape := ⟨3, ![8, 1, 1024]⟩
abbrev S1x256x1024 : Shape := ⟨3, ![1, 256, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S256x1024 : Shape := ⟨2, ![256, 1024]⟩
abbrev S1024 : Shape := ⟨1, ![1024]⟩
abbrev S8x1024x4096 : Shape := ⟨3, ![8, 1024, 4096]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 11
  | .vmem => 21
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S8x4096x1024, .bf16⟩
  | .hbm, ⟨8, _⟩ => ⟨S8x1024x1024, .f32⟩
  | .hbm, ⟨9, _⟩ => ⟨S8x1x1024, .f32⟩
  | .hbm, ⟨10, _⟩ => ⟨S8x1024x4096, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .f32⟩
  | .local _ .vmem, ⟨12, _⟩ => ⟨S1x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x512x1024, .bf16⟩
  | .local _ .vmem, ⟨18, _⟩ => ⟨S1x512x1024, .bf16⟩
  | .local _ .vmem, ⟨19, _⟩ => ⟨S1x1024x512, .f32⟩
  | .local _ .vmem, ⟨20, _⟩ => ⟨S1x1024x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_28 : BitVec 32 := 0#32
  let v44 : BitVec 1 := Scalar.cmpi .ne v43 c0_i32_28
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  reduces_S256x1024_S1024 : S256x1024.Reduces [0] S1024
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  broadcasts_S1x1024_S1024x1024 : S1x1024.Broadcasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S256x1024_S1024x1024_S256x1024_1_0_0_1_n_n_wf : DotDims.WF S256x1024 S1024x1024 S256x1024 [1] [0] [0] [1] [] []
  dot_S256x1024_S256x1024_S1024x1024_0_0_1_1_n_n_wf : DotDims.WF S256x1024 S256x1024 S1024x1024 [0] [0] [1] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x4096x1024.size a
  hwx0_0 : ∀ i : grid0.Coords, EltTy.bits .f32 = 32 ∨ (Rect.block (s := S8x4096x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S8x4096x1024.size a
  hwx0_4 : ∀ i : grid0.Coords, EltTy.bits .bf16 = 32 ∨ (Rect.block (s := S8x4096x1024) S1x256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S8x1024x1024.size a
  hwx0_5 : ∀ i : grid0.Coords, EltTy.bits .f32 = 32 ∨ (Rect.block (s := S8x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x1024x1024.size a
  hwx1_0 : ∀ i : grid1.Coords, EltTy.bits .f32 = 32 ∨ (Rect.block (s := S8x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024.size a ≤ S8x1x1024.size a
  hwx1_1 : ∀ i : grid1.Coords, EltTy.bits .f32 = 32 ∨ (Rect.block (s := S8x1x1024) S1x1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x4096x1024.size a
  hwx1_2 : ∀ i : grid1.Coords, EltTy.bits .bf16 = 32 ∨ (Rect.block (s := S8x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x512.size a ≤ S8x1024x4096.size a
  hwx1_3 : ∀ i : grid1.Coords, EltTy.bits .f32 = 32 ∨ (Rect.block (s := S8x1024x4096) S1x1024x512.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v3_1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_2) S1x1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S_ : Shape := ⟨0, ![]⟩
abbrev S8x1024x1024 : Shape := ⟨3, ![8, 1024, 1024]⟩
abbrev S8x1024 : Shape := ⟨2, ![8, 1024]⟩
abbrev S8x1x1024 : Shape := ⟨3, ![8, 1, 1024]⟩
abbrev S8x1024x4096 : Shape := ⟨3, ![8, 1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S_, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S8x1024x1024, .f32⟩
  | .hbm, ⟨20, _⟩ => ⟨S_, .f32⟩
  | .hbm, ⟨21, _⟩ => ⟨S8x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x1024x1024, .f32⟩
  | .hbm, ⟨27, _⟩ => ⟨S8x1024x1024, .f32⟩
  | .hbm, ⟨28, _⟩ => ⟨S8x1024x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_call1_cst : Ref sig .tc := ⟨.hbm, 13, rfl⟩
abbrev main_call1_v0 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  reducesTo_S8x4096x1024_S8x1024_d1 : S8x4096x1024.ReducesTo [1] S8x1024
  h_S_ : 0 < S_.numel
  bcast_S8x1024_S8x1x1024_0_2 : S8x1024.BroadcastsInDim S8x1x1024 (![0, 2] : Fin 2 → Fin S8x1x1024.rank)
  bcast_S_S8x1x1024 : S_.BroadcastsInDim S8x1x1024 (![] : Fin 0 → Fin S8x1x1024.rank)
  bcast_S8x1x1024_S8x1024x1024_0_1_2 : S8x1x1024.BroadcastsInDim S8x1024x1024 (![0, 1, 2] : Fin 3 → Fin S8x1024x1024.rank)
  dot_S8x4096x1024_S1024x1024_S8x4096x1024_2_0_01_1_n_n_wf : DotDims.WF S8x4096x1024 S1024x1024 S8x4096x1024 [2] [0] [0, 1] [1] [] []
  dot_S8x4096x1024_S8x4096x1024_S8x1024x1024_1_1_2_2_0_0_wf : DotDims.WF S8x4096x1024 S8x4096x1024 S8x1024x1024 [1] [1] [2] [2] [0] [0]
  dot_S8x1024x1024_S8x4096x1024_S8x1024x4096_2_2_1_1_0_0_wf : DotDims.WF S8x1024x1024 S8x4096x1024 S8x1024x4096 [2] [2] [1] [1] [0] [0]

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x1024x1024_S8x4096x1024_S8x1024x4096_2_2_1_1_0_0 : DotDims S8x1024x1024 S8x4096x1024 S8x1024x4096 where
  lhsContracting := [2]
  rhsContracting := [2]
  lhsNonContracting := [1]
  rhsNonContracting := [1]
  lhsBatch := [0]
  rhsBatch := [0]
  wf := dot_S8x1024x1024_S8x4096x1024_S8x1024x4096_2_2_1_1_0_0_wf

class Facts : Prop extends Facts₀ where

variable [Facts]
-- ==== Proof.K.StatsCases.lean ====
/-
  The statistics call (the first of the two kernel calls) at one grid point: which of its two branches run there.

  Its grid is 8 batch entries by 16 tiles of 256 sequence positions, walked batch entry by batch entry, so point t is
  batch entry t / 16 and tile t % 16.  The body clears its two accumulators (the running K-transpose-times-V matrix and the
  running column sums of K) at a batch entry's first tile, adds the tile's contribution at every tile, and copies the
  accumulators out into the numerator and denominator blocks at the batch entry's last tile.  Those two blocks are
  therefore untouched at the other fifteen tiles and written back only after the last.
-/
import proofs.«176170_j9431748182266_1_alg».proof.Proof.Gen.Kernel.Launch
import proofs.«176170_j9431748182266_1_alg».proof.Proof.Gen.Kernel.Skeleton
import proofs.«176170_j9431748182266_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The accumulators are cleared: the tile coordinate is 0 (the body's integer chain on the coordinate). -/
abbrev atFirstTile (i : grid0.Coords) : Prop :=
  (Scalar.cmpi .ne (Scalar.extui (Scalar.cmpi .eq (BitVec.ofNat 32 (i 1).val) 0#32)) 0#32) = 1#1
/-- That is the points whose number is a multiple of 16. -/
theorem atFirstTile_iff : ∀ t : Fin cfg0.N, atFirstTile (grid0.coords t) ↔ t.val % 16 = 0 :=
  (by decide +kernel : ∀ t : Fin grid0.N, atFirstTile (grid0.coords t) ↔ t.val % 16 = 0)

/-- The accumulators are copied out: the tile coordinate is 15. -/
abbrev atLastTile (i : grid0.Coords) : Prop := k0_cond2 i = 1#1
/-- That is the points whose number is 15 modulo 16. -/
theorem atLastTile_iff : ∀ t : Fin cfg0.N, atLastTile (grid0.coords t) ↔ t.val % 16 = 15 :=
  (by decide +kernel : ∀ t : Fin grid0.N, atLastTile (grid0.coords t) ↔ t.val % 16 = 15)

/-! ## Where the numerator and denominator blocks are left alone -/

/-- Away from a last tile the body stores nothing into the numerator block, and the block is not written back. -/
theorem num_idle : ∀ t : Fin cfg0.N, ¬atLastTile (grid0.coords t) → cfg0.idle 5 (grid0.coords t) = true := by decide +kernel
theorem num_kept : ∀ t : Fin cfg0.N, ¬atLastTile (grid0.coords t) → (cfg0.win 5).flush t = false := by decide +kernel
/-- At a last tile it is stored. -/
theorem num_live : ∀ t : Fin cfg0.N, atLastTile (grid0.coords t) → cfg0.idle 5 (grid0.coords t) = false := by decide +kernel
/-- The same for the denominator block. -/
theorem den_idle : ∀ t : Fin cfg0.N, ¬atLastTile (grid0.coords t) → cfg0.idle 6 (grid0.coords t) = true := by decide +kernel
theorem den_kept : ∀ t : Fin cfg0.N, ¬atLastTile (grid0.coords t) → (cfg0.win 6).flush t = false := by decide +kernel
theorem den_live : ∀ t : Fin cfg0.N, atLastTile (grid0.coords t) → cfg0.idle 6 (grid0.coords t) = false := by decide +kernel

/-! ## The buffers the body is called with at a point -/

/-- The tile of x, the three weight matrices, the tile of queries, the numerator and denominator blocks: each window's
    current staging buffer at point t, as the pipeline passes it, with its wholeness. -/
abbrev bX (t : Fin cfg0.N) : Memref sig .tc .vmem S1x256x1024 .f32 := win0_0.stage (cfg0.slots t 0)
abbrev hX (t : Fin cfg0.N) : (bX t).IsWhole := hstage0_0 ((cfg0.slots t 0).cast nbuf0_0)
abbrev bWq (t : Fin cfg0.N) : Memref sig .tc .vmem S1024x1024 .bf16 := win0_1.stage (cfg0.slots t 1)
abbrev hWq (t : Fin cfg0.N) : (bWq t).IsWhole := hstage0_1 ((cfg0.slots t 1).cast nbuf0_1)
abbrev bWk (t : Fin cfg0.N) : Memref sig .tc .vmem S1024x1024 .bf16 := win0_2.stage (cfg0.slots t 2)
abbrev hWk (t : Fin cfg0.N) : (bWk t).IsWhole := hstage0_2 ((cfg0.slots t 2).cast nbuf0_2)
abbrev bWv (t : Fin cfg0.N) : Memref sig .tc .vmem S1024x1024 .bf16 := win0_3.stage (cfg0.slots t 3)
abbrev hWv (t : Fin cfg0.N) : (bWv t).IsWhole := hstage0_3 ((cfg0.slots t 3).cast nbuf0_3)
abbrev bQ (t : Fin cfg0.N) : Memref sig .tc .vmem S1x256x1024 .bf16 := win0_4.stage (cfg0.slots t 4)
abbrev hQ (t : Fin cfg0.N) : (bQ t).IsWhole := hstage0_4 ((cfg0.slots t 4).cast nbuf0_4)
abbrev bNum (t : Fin cfg0.N) : Memref sig .tc .vmem S1x1024x1024 .f32 := win0_5.stage (cfg0.slots t 5)
abbrev hNum (t : Fin cfg0.N) : (bNum t).IsWhole := hstage0_5 ((cfg0.slots t 5).cast nbuf0_5)
abbrev bDen (t : Fin cfg0.N) : Memref sig .tc .vmem S1x1x1024 .f32 := win0_6.stage (cfg0.slots t 6)
abbrev hDen (t : Fin cfg0.N) : (bDen t).IsWhole := hstage0_6 ((cfg0.slots t 6).cast nbuf0_6)

/-- The two accumulators, whole buffers of the call's own: the running matrix and the running row of column sums. -/
abbrev accM : Memref sig .tc .vmem S1024x1024 .f32 := Memref.whole cc0_scratch0
abbrev accR : Memref sig .tc .vmem S1x1024 .f32 := Memref.whole cc0_scratch1
/-- What they hold is stated through their views. -/
abbrev accMv : View sig .tc .vmem S1024x1024 .f32 := accM.view
abbrev accRv : View sig .tc .vmem S1x1024 .f32 := accR.view

/-- The other call's staging buffers, which this call never touches, each at some contents. -/
def elsewhere (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the pipeline hands the body beside the windows: the two accumulators owned at some contents, the other call's
    buffers, and the generator register at some state. -/
theorem scoped_open (c : Dev nD) :
    (Pipeline.ΦA spec0 c : sProp 𝕄)
      = iprop(iprop((∃ d, owns (c : Thread nD τ) accM fullShare d) ∗ (∃ d, owns (c : Thread nD τ) accR fullShare d) ∗ elsewhere c) ∗ (∃ r, prngReg c r)) := by
  unfold Pipeline.ΦA elsewhere; rw [scopedRest0_eq]; simp only [accM, accR, owns_whole]; try rfl

end Cert.Kernel.Frm

end
-- ==== Proof.K.StatsFirst.lean ====
/-
  The statistics body at the first tile of a batch entry: both accumulators are cleared, then the tile's contribution is
  added, so each accumulator ends at zero plus its contribution whatever it held before; the tile of queries is stored;
  the numerator and denominator blocks are not touched.
-/
import proofs.«176170_j9431748182266_1_alg».proof.Proof.Gen.Kernel.Launch
import proofs.«176170_j9431748182266_1_alg».proof.Proof.Gen.Kernel.Skeleton
import proofs.«176170_j9431748182266_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.K.StatsCases

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a first tile that is not a last one: on whole buffers, the four inputs at their contents, the tile of queries and both accumulators at anything, the numerator and denominator blocks at contents handed back untouched, the body runs to the continuation with the inputs as they were and the three written buffers holding the pieces the run finds (last store first). -/
noncomputable def runFirst (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : atFirstTile i) (hl : ¬atLastTile i)
    (x0 : Vec F S1x256x1024 .f32) (x1 x2 x3 : Vec F S1024x1024 .bf16) :
    Σ' (LQ : List (View.Piece (Elt F) S1x256x1024 .bf16)) (LM : List (View.Piece (Elt F) S1024x1024 .f32)),
      { LR : List (View.Piece (Elt F) S1x1024 .f32) //
        ∀ (n0 : Vec F S1x1024x1024 .f32) (d0 : Vec F S1x1x1024 .f32) (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ owns (c : Thread nD τ) arg7 fullShare n0 ∗ owns (c : Thread nD τ) arg8 fullShare d0
              ∗ (∃ d, owns (c : Thread nD τ) arg9 fullShare d) ∗ (∃ d, owns (c : Thread nD τ) arg10 fullShare d)
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ owns (c : Thread nD τ) arg7 fullShare n0 ∗ owns (c : Thread nD τ) arg8 fullShare d0
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, fun n0 d0 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg7.eq_unread hf5
    obtain rfl := harg8.eq_unread hf6
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.Kernel.Frm

end
-- ==== Proof.K.StatsMid.lean ====
/-
  The statistics body at a tile that is neither the first nor the last of its batch entry: the tile's contribution is added to
  the accumulators as the tile before left them; the tile of queries is stored; the numerator and denominator blocks are
  not touched.
-/
import proofs.«176170_j9431748182266_1_alg».proof.Proof.Gen.Kernel.Launch
import proofs.«176170_j9431748182266_1_alg».proof.Proof.Gen.Kernel.Skeleton
import proofs.«176170_j9431748182266_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.K.StatsCases

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a tile neither first nor last: as at a first tile, but the accumulators arrive at the contents the point before left and are added to. -/
noncomputable def runMid (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : ¬atFirstTile i) (hl : ¬atLastTile i)
    (x0 : Vec F S1x256x1024 .f32) (x1 x2 x3 : Vec F S1024x1024 .bf16) (am : Vec F S1024x1024 .f32) (ar : Vec F S1x1024 .f32) :
    Σ' (LQ : List (View.Piece (Elt F) S1x256x1024 .bf16)) (LM : List (View.Piece (Elt F) S1024x1024 .f32)),
      { LR : List (View.Piece (Elt F) S1x1024 .f32) //
        ∀ (n0 : Vec F S1x1024x1024 .f32) (d0 : Vec F S1x1x1024 .f32) (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ owns (c : Thread nD τ) arg7 fullShare n0 ∗ owns (c : Thread nD τ) arg8 fullShare d0
              ∗ owns (c : Thread nD τ) arg9 fullShare am ∗ owns (c : Thread nD τ) arg10 fullShare ar
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ owns (c : Thread nD τ) arg7 fullShare n0 ∗ owns (c : Thread nD τ) arg8 fullShare d0
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, fun n0 d0 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg7.eq_unread hf5
    obtain rfl := harg8.eq_unread hf6
    obtain rfl := harg9.eq_unread hf7
    obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.Kernel.Frm

end
-- ==== Proof.K.StatsLast.lean ====
/-
  The statistics body at the last tile of a batch entry: the tile's contribution is added to the accumulators as the tile
  before left them, the tile of queries is stored, and the accumulators are copied out into the numerator and denominator
  blocks.
-/
import proofs.«176170_j9431748182266_1_alg».proof.Proof.Gen.Kernel.Launch
import proofs.«176170_j9431748182266_1_alg».proof.Proof.Gen.Kernel.Skeleton
import proofs.«176170_j9431748182266_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.K.StatsCases

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a last tile (never a first one: a batch entry has sixteen): the accumulators arrive at the contents the point before left, are added to, and the two output blocks, arriving at anything, end holding the pieces the run finds. -/
noncomputable def runLast (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : ¬atFirstTile i) (hl : atLastTile i)
    (x0 : Vec F S1x256x1024 .f32) (x1 x2 x3 : Vec F S1024x1024 .bf16) (am : Vec F S1024x1024 .f32) (ar : Vec F S1x1024 .f32) :
    Σ' (LQ : List (View.Piece (Elt F) S1x256x1024 .bf16)) (LN : List (View.Piece (Elt F) S1x1024x1024 .f32)) (LD : List (View.Piece (Elt F) S1x1x1024 .f32)) (LM : List (View.Piece (Elt F) S1024x1024 .f32)),
      { LR : List (View.Piece (Elt F) S1x1024 .f32) //
        ∀ (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ (∃ d, owns (c : Thread nD τ) arg7 fullShare d) ∗ (∃ d, owns (c : Thread nD τ) arg8 fullShare d)
              ∗ owns (c : Thread nD τ) arg9 fullShare am ∗ owns (c : Thread nD τ) arg10 fullShare ar
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ (∃ f, arg7.view.loc (c : Thread nD τ) ↦[arg7.view.set]{fullShare} arg7.view.writes (Elt F) f LN) ∗ (∃ f, arg8.view.loc (c : Thread nD τ) ↦[arg8.view.set]{fullShare} arg8.view.writes (Elt F) f LD)
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg9.eq_unread hf7
    obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Frm

end
-- ==== Proof.K.Stats.lean ====
/-
  The statistics call, point by point: what each buffer holds after the body at every grid point, the invariant that carries
  the two accumulators from one point to the next, the pipeline's proof data, and the body obligation.

  After point t the matrix accumulator holds the sum, over the tiles of t's batch entry up to t's own, of the tile's
  K-transpose-times-V, started from zero at the batch entry's first tile; the row accumulator the same for the column sums
  of K.  Here that is stated by recursion on the point, each step the case's run at that point over what the point before
  left.  The numerator and denominator blocks are meaningful only after a last tile, where they are the two accumulators.
-/
import proofs.«176170_j9431748182266_1_alg».proof.Proof.K.StatsFirst
import proofs.«176170_j9431748182266_1_alg».proof.Proof.K.StatsMid
import proofs.«176170_j9431748182266_1_alg».proof.Proof.K.StatsLast

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

theorem first_of (t : Fin cfg0.N) (h : t.val % 16 = 0) : atFirstTile (grid0.coords t) := (atFirstTile_iff t).mpr h
theorem notFirst_of (t : Fin cfg0.N) (h : ¬t.val % 16 = 0) : ¬atFirstTile (grid0.coords t) := fun hf => h ((atFirstTile_iff t).mp hf)
theorem last_of (t : Fin cfg0.N) (h : t.val % 16 = 15) : atLastTile (grid0.coords t) := (atLastTile_iff t).mpr h
theorem notLast_of (t : Fin cfg0.N) (h : ¬t.val % 16 = 15) : ¬atLastTile (grid0.coords t) := fun hl => h ((atLastTile_iff t).mp hl)
/-- A first tile is not a last one: a batch entry has sixteen tiles. -/
theorem notLast_of_first (t : Fin cfg0.N) (h : t.val % 16 = 0) : ¬atLastTile (grid0.coords t) :=
  notLast_of t (by omega)

/-- The views through which the three written windows' contents are stated (any of a window's buffers would do). -/
abbrev vQ : View sig .tc .vmem S1x256x1024 .bf16 := (Memref.whole cc0_stg4_0 : Memref sig .tc .vmem S1x256x1024 .bf16).view
abbrev vN : View sig .tc .vmem S1x1024x1024 .f32 := (Memref.whole cc0_stg5_0 : Memref sig .tc .vmem S1x1024x1024 .f32).view
abbrev vD : View sig .tc .vmem S1x1x1024 .f32 := (Memref.whole cc0_stg6_0 : Memref sig .tc .vmem S1x1x1024 .f32).view

section
-- the TensorCore's buffer contents when the call is entered
variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the weights are fetched once;
    their block index never moves), for any proof data over V whose body leaves the block in place. -/
theorem found_x {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found_wq {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found_wk {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found_wv {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## Each case's run at a point -/

/-- The first-tile run at point t: on the point's own buffers and input blocks. -/
def firstRun (c : Dev nD) (t : Fin cfg0.N) (h : t.val % 16 = 0) :=
  runFirst (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (first_of t h) (notLast_of_first t h) (blk0 V c 0 t) (blk0 V c 1 t) (blk0 V c 2 t) (blk0 V c 3 t)
/-- The run at a tile neither first nor last, over accumulators am, ar. -/
def midRun (c : Dev nD) (t : Fin cfg0.N) (h0 : ¬t.val % 16 = 0) (h15 : ¬t.val % 16 = 15) (am : Vec F S1024x1024 .f32) (ar : Vec F S1x1024 .f32) :=
  runMid (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (notFirst_of t h0) (notLast_of t h15) (blk0 V c 0 t) (blk0 V c 1 t) (blk0 V c 2 t) (blk0 V c 3 t) am ar
/-- The last-tile run, over accumulators am, ar. -/
def lastRun (c : Dev nD) (t : Fin cfg0.N) (h0 : ¬t.val % 16 = 0) (h15 : t.val % 16 = 15) (am : Vec F S1024x1024 .f32) (ar : Vec F S1x1024 .f32) :=
  runLast (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (notFirst_of t h0) (last_of t h15) (blk0 V c 0 t) (blk0 V c 1 t) (blk0 V c 2 t) (blk0 V c 3 t) am ar

/-- Each run's stores cover the buffers they write: one whole-buffer store last in each list. -/
theorem firstQ_cover (c : Dev nD) (t : Fin cfg0.N) (h : t.val % 16 = 0) (y : S1x256x1024.Idx) : ∃ pc ∈ (firstRun V c t h).1, y ∈ pc.1.set :=
  View.cover_of_tiledL (firstRun V c t h).1 S1x256x1024.size (by sl_kernel_rfl) y
theorem firstM_cover (c : Dev nD) (t : Fin cfg0.N) (h : t.val % 16 = 0) (y : S1024x1024.Idx) : ∃ pc ∈ (firstRun V c t h).2.1, y ∈ pc.1.set :=
  View.cover_of_tiledL (firstRun V c t h).2.1 S1024x1024.size (by sl_kernel_rfl) y
theorem firstR_cover (c : Dev nD) (t : Fin cfg0.N) (h : t.val % 16 = 0) (y : S1x1024.Idx) : ∃ pc ∈ (firstRun V c t h).2.2.1, y ∈ pc.1.set :=
  View.cover_of_tiledL (firstRun V c t h).2.2.1 S1x1024.size (by sl_kernel_rfl) y
theorem midQ_cover (c : Dev nD) (t : Fin cfg0.N) (h0 : ¬t.val % 16 = 0) (h15 : ¬t.val % 16 = 15) (am : Vec F S1024x1024 .f32) (ar : Vec F S1x1024 .f32) (y : S1x256x1024.Idx) :
    ∃ pc ∈ (midRun V c t h0 h15 am ar).1, y ∈ pc.1.set :=
  View.cover_of_tiledL (midRun V c t h0 h15 am ar).1 S1x256x1024.size (by sl_kernel_rfl) y
theorem midM_cover (c : Dev nD) (t : Fin cfg0.N) (h0 : ¬t.val % 16 = 0) (h15 : ¬t.val % 16 = 15) (am : Vec F S1024x1024 .f32) (ar : Vec F S1x1024 .f32) (y : S1024x1024.Idx) :
    ∃ pc ∈ (midRun V c t h0 h15 am ar).2.1, y ∈ pc.1.set :=
  View.cover_of_tiledL (midRun V c t h0 h15 am ar).2.1 S1024x1024.size (by sl_kernel_rfl) y
theorem midR_cover (c : Dev nD) (t : Fin cfg0.N) (h0 : ¬t.val % 16 = 0) (h15 : ¬t.val % 16 = 15) (am : Vec F S1024x1024 .f32) (ar : Vec F S1x1024 .f32) (y : S1x1024.Idx) :
    ∃ pc ∈ (midRun V c t h0 h15 am ar).2.2.1, y ∈ pc.1.set :=
  View.cover_of_tiledL (midRun V c t h0 h15 am ar).2.2.1 S1x1024.size (by sl_kernel_rfl) y
theorem lastQ_cover (c : Dev nD) (t : Fin cfg0.N) (h0 : ¬t.val % 16 = 0) (h15 : t.val % 16 = 15) (am : Vec F S1024x1024 .f32) (ar : Vec F S1x1024 .f32) (y : S1x256x1024.Idx) :
    ∃ pc ∈ (lastRun V c t h0 h15 am ar).1, y ∈ pc.1.set :=
  View.cover_of_tiledL (lastRun V c t h0 h15 am ar).1 S1x256x1024.size (by sl_kernel_rfl) y
theorem lastN_cover (c : Dev nD) (t : Fin cfg0.N) (h0 : ¬t.val % 16 = 0) (h15 : t.val % 16 = 15) (am : Vec F S1024x1024 .f32) (ar : Vec F S1x1024 .f32) (y : S1x1024x1024.Idx) :
    ∃ pc ∈ (lastRun V c t h0 h15 am ar).2.1, y ∈ pc.1.set :=
  View.cover_of_tiledL (lastRun V c t h0 h15 am ar).2.1 S1x1024x1024.size (by sl_kernel_rfl) y
theorem lastD_cover (c : Dev nD) (t : Fin cfg0.N) (h0 : ¬t.val % 16 = 0) (h15 : t.val % 16 = 15) (am : Vec F S1024x1024 .f32) (ar : Vec F S1x1024 .f32) (y : S1x1x1024.Idx) :
    ∃ pc ∈ (lastRun V c t h0 h15 am ar).2.2.1, y ∈ pc.1.set :=
  View.cover_of_tiledL (lastRun V c t h0 h15 am ar).2.2.1 S1x1x1024.size (by sl_kernel_rfl) y
theorem lastM_cover (c : Dev nD) (t : Fin cfg0.N) (h0 : ¬t.val % 16 = 0) (h15 : t.val % 16 = 15) (am : Vec F S1024x1024 .f32) (ar : Vec F S1x1024 .f32) (y : S1024x1024.Idx) :
    ∃ pc ∈ (lastRun V c t h0 h15 am ar).2.2.2.1, y ∈ pc.1.set :=
  View.cover_of_tiledL (lastRun V c t h0 h15 am ar).2.2.2.1 S1024x1024.size (by sl_kernel_rfl) y
theorem lastR_cover (c : Dev nD) (t : Fin cfg0.N) (h0 : ¬t.val % 16 = 0) (h15 : t.val % 16 = 15) (am : Vec F S1024x1024 .f32) (ar : Vec F S1x1024 .f32) (y : S1x1024.Idx) :
    ∃ pc ∈ (lastRun V c t h0 h15 am ar).2.2.2.2.1, y ∈ pc.1.set :=
  View.cover_of_tiledL (lastRun V c t h0 h15 am ar).2.2.2.2.1 S1x1024.size (by sl_kernel_rfl) y

/-! ## What the buffers hold after each point -/

/-- The query tile, the numerator block, the denominator block, the matrix accumulator and the row accumulator. -/
abbrev Held (F : FTy → Type) [FloatOps F] : Type :=
  Vec F S1x256x1024 .bf16 × Vec F S1x1024x1024 .f32 × Vec F S1x1x1024 .f32 × Vec F S1024x1024 .f32 × Vec F S1x1024 .f32

/-- After a first tile: the run's pieces read back; the two output blocks are not written (a placeholder nobody reads). -/
def atFirst (c : Dev nD) (t : Fin cfg0.N) (h : t.val % 16 = 0) : Held F :=
  (vQ.read (Elt F) (vQ.writes (Elt F) vQ.junk (firstRun V c t h).1),
   vN.read (Elt F) vN.junk, vD.read (Elt F) vD.junk,
   accMv.read (Elt F) (accMv.writes (Elt F) accMv.junk (firstRun V c t h).2.1),
   accRv.read (Elt F) (accRv.writes (Elt F) accRv.junk (firstRun V c t h).2.2.1))
/-- After a tile neither first nor last, over the accumulators the point before left. -/
def atMid (c : Dev nD) (t : Fin cfg0.N) (h0 : ¬t.val % 16 = 0) (h15 : ¬t.val % 16 = 15) (am : Vec F S1024x1024 .f32) (ar : Vec F S1x1024 .f32) : Held F :=
  (vQ.read (Elt F) (vQ.writes (Elt F) vQ.junk (midRun V c t h0 h15 am ar).1),
   vN.read (Elt F) vN.junk, vD.read (Elt F) vD.junk,
   accMv.read (Elt F) (accMv.writes (Elt F) accMv.junk (midRun V c t h0 h15 am ar).2.1),
   accRv.read (Elt F) (accRv.writes (Elt F) accRv.junk (midRun V c t h0 h15 am ar).2.2.1))
/-- After a last tile: all five are written. -/
def atLast (c : Dev nD) (t : Fin cfg0.N) (h0 : ¬t.val % 16 = 0) (h15 : t.val % 16 = 15) (am : Vec F S1024x1024 .f32) (ar : Vec F S1x1024 .f32) : Held F :=
  (vQ.read (Elt F) (vQ.writes (Elt F) vQ.junk (lastRun V c t h0 h15 am ar).1),
   vN.read (Elt F) (vN.writes (Elt F) vN.junk (lastRun V c t h0 h15 am ar).2.1),
   vD.read (Elt F) (vD.writes (Elt F) vD.junk (lastRun V c t h0 h15 am ar).2.2.1),
   accMv.read (Elt F) (accMv.writes (Elt F) accMv.junk (lastRun V c t h0 h15 am ar).2.2.2.1),
   accRv.read (Elt F) (accRv.writes (Elt F) accRv.junk (lastRun V c t h0 h15 am ar).2.2.2.2.1))

/-- THE ACCUMULATION, by recursion on the point: a first tile starts over; any other tile continues from the accumulators
    the point before left. -/
def heldAfter (c : Dev nD) : (n : ℕ) → n < cfg0.N → Held F
  | 0, hn => atFirst V c ⟨0, hn⟩ (Nat.zero_mod 16)
  | n + 1, hn =>
    if h0 : (n + 1) % 16 = 0 then atFirst V c ⟨n + 1, hn⟩ h0
    else if h15 : (n + 1) % 16 = 15 then
      atLast V c ⟨n + 1, hn⟩ h0 h15 (heldAfter c n (Nat.lt_of_succ_lt hn)).2.2.2.1 (heldAfter c n (Nat.lt_of_succ_lt hn)).2.2.2.2
    else
      atMid V c ⟨n + 1, hn⟩ h0 h15 (heldAfter c n (Nat.lt_of_succ_lt hn)).2.2.2.1 (heldAfter c n (Nat.lt_of_succ_lt hn)).2.2.2.2

theorem heldAfter_first (c : Dev nD) (t : Fin cfg0.N) (h : t.val % 16 = 0) : heldAfter V c t.val t.isLt = atFirst V c t h := by
  obtain ⟨n, hn⟩ := t
  cases n with
  | zero => rfl
  | succ n => exact dif_pos h
theorem heldAfter_mid (c : Dev nD) (t : Fin cfg0.N) (h0 : ¬t.val % 16 = 0) (h15 : ¬t.val % 16 = 15) :
    heldAfter V c t.val t.isLt = atMid V c t h0 h15 (heldAfter V c (t.val - 1) (Nat.lt_of_le_of_lt (Nat.sub_le _ _) t.isLt)).2.2.2.1
      (heldAfter V c (t.val - 1) (Nat.lt_of_le_of_lt (Nat.sub_le _ _) t.isLt)).2.2.2.2 := by
  obtain ⟨n, hn⟩ := t
  cases n with
  | zero => exact absurd (Nat.zero_mod 16) h0
  | succ n => exact (dif_neg h0).trans ((dif_neg h15).trans rfl)
theorem heldAfter_last (c : Dev nD) (t : Fin cfg0.N) (h0 : ¬t.val % 16 = 0) (h15 : t.val % 16 = 15) :
    heldAfter V c t.val t.isLt = atLast V c t h0 h15 (heldAfter V c (t.val - 1) (Nat.lt_of_le_of_lt (Nat.sub_le _ _) t.isLt)).2.2.2.1
      (heldAfter V c (t.val - 1) (Nat.lt_of_le_of_lt (Nat.sub_le _ _) t.isLt)).2.2.2.2 := by
  obtain ⟨n, hn⟩ := t
  cases n with
  | zero => exact absurd (Nat.zero_mod 16) h0
  | succ n => exact (dif_neg h0).trans ((dif_pos h15).trans rfl)

/-! ## The invariant between points -/

/-- Before the first point: what the pipeline hands over (both accumulators at anything).  After point n: the accumulators
    at what point n left, the other call's buffers and the generator register riding along. -/
def between (c : Dev nD) : (n : ℕ) → n ≤ cfg0.N → sProp 𝕄
  | 0, _ => Pipeline.ΦA spec0 c
  | n + 1, hn => iprop(iprop(owns (c : Thread nD τ) accM fullShare (heldAfter V c n hn).2.2.2.1
      ∗ owns (c : Thread nD τ) accR fullShare (heldAfter V c n hn).2.2.2.2 ∗ elsewhere c) ∗ (∃ r, prngReg c r))

theorem between_zero (c : Dev nD) (n : ℕ) (h : n ≤ cfg0.N) (hz : n = 0) : between V c n h = Pipeline.ΦA spec0 c := by
  subst hz; rfl
theorem between_succ (c : Dev nD) (n : ℕ) (hn : n < cfg0.N) :
    between V c (n + 1) hn = iprop(iprop(owns (c : Thread nD τ) accM fullShare (heldAfter V c n hn).2.2.2.1
      ∗ owns (c : Thread nD τ) accR fullShare (heldAfter V c n hn).2.2.2.2 ∗ elsewhere c) ∗ (∃ r, prngReg c r)) := rfl
theorem between_pos (c : Dev nD) (n : ℕ) (h : n ≤ cfg0.N) (hz : n ≠ 0) :
    between V c n h = iprop(iprop(owns (c : Thread nD τ) accM fullShare (heldAfter V c (n - 1) (by omega)).2.2.2.1
      ∗ owns (c : Thread nD τ) accR fullShare (heldAfter V c (n - 1) (by omega)).2.2.2.2 ∗ elsewhere c) ∗ (∃ r, prngReg c r)) := by
  cases n with
  | zero => exact absurd rfl hz
  | succ n => rfl

/-! ## The proof data -/

/-- The arrays as the call finds them; after the body each input's buffer at its block and the written buffers at
    heldAfter's components; the invariant between; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => (heldAfter V c t.val t.isLt).1
    | ⟨5, _⟩ => (heldAfter V c t.val t.isLt).2.1
    | ⟨6, _⟩ => (heldAfter V c t.val t.isLt).2.2.1
  Φ t := between V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi_at (c : Dev nD) (t : Fin cfg0.N) : (dat0 V c).Φ t.castSucc = between V c t.val (Nat.le_of_lt t.isLt) := by
  dsimp only [dat0]; simp only [Fin.coe_castSucc]
theorem after0_x (c : Dev nD) (t : Fin cfg0.N) : (dat0 V c).after 0 t = blk0 V c 0 t := by dsimp only [dat0]
theorem after0_wq (c : Dev nD) (t : Fin cfg0.N) : (dat0 V c).after 1 t = blk0 V c 1 t := by dsimp only [dat0]
theorem after0_wk (c : Dev nD) (t : Fin cfg0.N) : (dat0 V c).after 2 t = blk0 V c 2 t := by dsimp only [dat0]
theorem after0_wv (c : Dev nD) (t : Fin cfg0.N) : (dat0 V c).after 3 t = blk0 V c 3 t := by dsimp only [dat0]
theorem after0_q (c : Dev nD) (t : Fin cfg0.N) : (dat0 V c).after 4 t = (heldAfter V c t.val t.isLt).1 := by dsimp only [dat0]
theorem after0_n (c : Dev nD) (t : Fin cfg0.N) : (dat0 V c).after 5 t = (heldAfter V c t.val t.isLt).2.1 := by dsimp only [dat0]
theorem after0_d (c : Dev nD) (t : Fin cfg0.N) : (dat0 V c).after 6 t = (heldAfter V c t.val t.isLt).2.2.1 := by dsimp only [dat0]

theorem before0_x (c : Dev nD) (t : Fin cfg0.N) (d) : (dat0 V c).before 0 t d = blk0 V c 0 t := found_x V (dat0 V c) (A_eq0 V c 0) (after0_x V c) t d
theorem before0_wq (c : Dev nD) (t : Fin cfg0.N) (d) : (dat0 V c).before 1 t d = blk0 V c 1 t := found_wq V (dat0 V c) (A_eq0 V c 1) (after0_wq V c) t d
theorem before0_wk (c : Dev nD) (t : Fin cfg0.N) (d) : (dat0 V c).before 2 t d = blk0 V c 2 t := found_wk V (dat0 V c) (A_eq0 V c 2) (after0_wk V c) t d
theorem before0_wv (c : Dev nD) (t : Fin cfg0.N) (d) : (dat0 V c).before 3 t d = blk0 V c 3 t := found_wv V (dat0 V c) (A_eq0 V c 3) (after0_wv V c) t d

end

end Cert.Kernel.Frm

end
-- ==== Proof.K.StatsBody.lean ====
/-
  The statistics call's body obligation: at every grid point, from the invariant and each window's current buffer at what it
  then holds, the body runs to the invariant at the next point and each buffer at what the proof data says it leaves; and
  how the invariant is entered from, and gives back, what the pipeline hands a call.
-/
import proofs.«176170_j9431748182266_1_alg».proof.Proof.K.Stats

-- membership in a rectangle of full extent is decided structurally, once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the pipeline hands the call is the invariant before the first point. -/
theorem enter0 (c : Dev nD) : Pipeline.ΦA spec0 c ⊢ (dat0 V c).Φ 0 := by
  rw [show (dat0 V c).Φ 0 = between V c 0 (Nat.zero_le _) from rfl, between_zero V c 0 _ rfl]
  try exact Idealize.SL.BI.Entails.refl _

/-- After any point the invariant gives that back: what the accumulators hold is forgotten. -/
theorem forget0 (c : Dev nD) (t : Fin (cfg0.N + 1)) (ht : t.val ≠ 0) : (dat0 V c).Φ t ⊢ Pipeline.ΦA spec0 c := by
  rw [show (dat0 V c).Φ t = between V c t.val (Nat.le_of_lt_succ t.isLt) from rfl, between_pos V c _ _ ht, scoped_open]
  iintro ⟨⟨HM, HR, He⟩, Hg⟩
  isplitl [HM HR He]
  · isplitl [HM]; · iexists _; iexact HM
    isplitl [HR]; · iexists _; iexact HR
    iexact He
  iexact Hg

/-- In particular after the last point. -/
theorem leave0 (c : Dev nD) : (dat0 V c).Φ (Fin.last cfg0.N) ⊢ Pipeline.ΦA spec0 c :=
  forget0 V c _ (by rw [Fin.val_last]; have : cfg0.N = 128 := N_0; omega)

/-- What the body is called with at point t: the invariant, what the core owes (nothing), and each window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (bX t) fullShare ((dat0 V c).before 0 t d))
    ∗ (∃ d, owns (c : Thread nD τ) (bWq t) fullShare ((dat0 V c).before 1 t d))
    ∗ (∃ d, owns (c : Thread nD τ) (bWk t) fullShare ((dat0 V c).before 2 t d))
    ∗ (∃ d, owns (c : Thread nD τ) (bWv t) fullShare ((dat0 V c).before 3 t d))
    ∗ (∃ d, owns (c : Thread nD τ) (bQ t) fullShare ((dat0 V c).before 4 t d))
    ∗ (∃ d, owns (c : Thread nD τ) (bNum t) fullShare ((dat0 V c).before 5 t d))
    ∗ (∃ d, owns (c : Thread nD τ) (bDen t) fullShare ((dat0 V c).before 6 t d)))

/-- And what it returns: the invariant at the next point, and each buffer at what the body leaves there. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- The four inputs are left in place and the tile of queries is stored at every point. -/
theorem leaves_x (c : Dev nD) (t : Fin cfg0.N) : (dat0 V c).leavesExact 0 t = owns (c : Thread nD τ) (bX t) fullShare (blk0 V c 0 t) := by
  unfold Dat.leavesExact; rw [after0_x]
theorem leaves_wq (c : Dev nD) (t : Fin cfg0.N) : (dat0 V c).leavesExact 1 t = owns (c : Thread nD τ) (bWq t) fullShare (blk0 V c 1 t) := by
  unfold Dat.leavesExact; rw [after0_wq]
theorem leaves_wk (c : Dev nD) (t : Fin cfg0.N) : (dat0 V c).leavesExact 2 t = owns (c : Thread nD τ) (bWk t) fullShare (blk0 V c 2 t) := by
  unfold Dat.leavesExact; rw [after0_wk]
theorem leaves_wv (c : Dev nD) (t : Fin cfg0.N) : (dat0 V c).leavesExact 3 t = owns (c : Thread nD τ) (bWv t) fullShare (blk0 V c 3 t) := by
  unfold Dat.leavesExact; rw [after0_wv]
theorem leaves_q (c : Dev nD) (t : Fin cfg0.N) : (dat0 V c).leavesExact 4 t = owns (c : Thread nD τ) (bQ t) fullShare (heldAfter V c t.val t.isLt).1 := by
  unfold Dat.leavesExact; rw [after0_q]
/-- At a last tile the two output blocks are stored too. -/
theorem leaves_n (c : Dev nD) (t : Fin cfg0.N) (h : atLastTile (grid0.coords t)) :
    (dat0 V c).leavesExact 5 t = owns (c : Thread nD τ) (bNum t) fullShare (heldAfter V c t.val t.isLt).2.1 := by
  unfold Dat.leavesExact; rw [num_live t h, after0_n]
theorem leaves_d (c : Dev nD) (t : Fin cfg0.N) (h : atLastTile (grid0.coords t)) :
    (dat0 V c).leavesExact 6 t = owns (c : Thread nD τ) (bDen t) fullShare (heldAfter V c t.val t.isLt).2.2.1 := by
  unfold Dat.leavesExact; rw [den_live t h, after0_d]

set_option maxHeartbeats 4800000 in
/-- The body at any point.  The inputs' buffers hold their blocks; the point's number modulo 16 says which case it is in; the
    invariant hands the body the accumulators at what the point before left (at anything before the first point) and takes
    them back at this point's contents, each written buffer read back through the cover of its stores; the two output
    blocks are handed back as found away from a last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x, before0_wq, before0_wk, before0_wv]
  rw [show (dat0 V c).owesAt () t.succ = (dat0 V c).owesAt () t.castSucc from rfl]
  rw [show (dat0 V c).Φ t.succ = between V c (t.val + 1) t.isLt from rfl, between_succ]
  rw [leaves_x, leaves_wq, leaves_wk, leaves_wv, leaves_q]
  have hN : t.val < 128 := lt_of_lt_of_eq t.isLt (show cfg0.N = 128 from N_0)
  by_cases h0 : t.val % 16 = 0
  · -- a first tile: the accumulators restart
    have hl := notLast_of_first t h0
    rw [Dat.leavesExact_idle (dat0 V c) 5 t (num_idle t hl) (num_kept t hl), Dat.leavesExact_idle (dat0 V c) 6 t (den_idle t hl) (den_kept t hl)]
    rw [heldAfter_first V c t h0]
    unfold atFirst; (try dsimp only)
    by_cases hz : t.val = 0
    · rw [Phi_at V c t, between_zero V c _ _ hz, scoped_open]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun V c t h0).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HR]; · iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (firstM_cover V c t h0)
          isplitl [HR]
          · unfold owns; iexists _; isplitr
            swap; · iexact HR
            ipureintro; exact View.read_writes_of_cover _ _ _ _ _ (firstR_cover V c t h0)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (firstQ_cover V c t h0)
      isplitl [H5]; · iexists _; iexact H5
      iexists _; iexact H6
    · rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun V c t h0).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexists _; iexact HM
      isplitl [HR]; · iexists _; iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (firstM_cover V c t h0)
          isplitl [HR]
          · unfold owns; iexists _; isplitr
            swap; · iexact HR
            ipureintro; exact View.read_writes_of_cover _ _ _ _ _ (firstR_cover V c t h0)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (firstQ_cover V c t h0)
      isplitl [H5]; · iexists _; iexact H5
      iexists _; iexact H6
  · have hz : t.val ≠ 0 := fun h => h0 (by rw [h])
    by_cases h15 : t.val % 16 = 15
    · -- a last tile: the accumulators are added to and copied out
      have hl := last_of t h15
      rw [leaves_n V c t hl, leaves_d V c t hl]
      rw [heldAfter_last V c t h0 h15]
      unfold atLast; (try dsimp only)
      rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((lastRun V c t h0 h15 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HM]; · iexact HM
      isplitl [HR]; · iexact HR
      iintro ⟨H0, H1, H2, H3, ⟨%e4, H4⟩, ⟨%e5, H5⟩, ⟨%e6, H6⟩, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (lastM_cover V c t h0 h15 _ _)
          isplitl [HR]
          · unfold owns; iexists _; isplitr
            swap; · iexact HR
            ipureintro; exact View.read_writes_of_cover _ _ _ _ _ (lastR_cover V c t h0 h15 _ _)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (lastQ_cover V c t h0 h15 _ _)
      isplitl [H5]
      · unfold owns; iexists _; isplitr
        swap; · iexact H5
        ipureintro; exact View.read_writes_of_cover _ _ _ _ _ (lastN_cover V c t h0 h15 _ _)
      unfold owns; iexists _; isplitr
      swap; · iexact H6
      ipureintro; exact View.read_writes_of_cover _ _ _ _ _ (lastD_cover V c t h0 h15 _ _)
    · -- a tile neither first nor last: the accumulators are added to
      have hl := notLast_of t h15
      rw [Dat.leavesExact_idle (dat0 V c) 5 t (num_idle t hl) (num_kept t hl), Dat.leavesExact_idle (dat0 V c) 6 t (den_idle t hl) (den_kept t hl)]
      rw [heldAfter_mid V c t h0 h15]
      unfold atMid; (try dsimp only)
      rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((midRun V c t h0 h15 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HR]; · iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (midM_cover V c t h0 h15 _ _)
          isplitl [HR]
          · unfold owns; iexists _; isplitr
            swap; · iexact HR
            ipureintro; exact View.read_writes_of_cover _ _ _ _ _ (midR_cover V c t h0 h15 _ _)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (midQ_cover V c t h0 h15 _ _)
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Frm

end
-- ==== Proof.K.OutKernel.lean ====
import proofs.«176170_j9431748182266_1_alg».proof.Proof.Gen.Kernel.Launch
import proofs.«176170_j9431748182266_1_alg».proof.Proof.Gen.Kernel.Skeleton
import proofs.«176170_j9431748182266_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-!
# The output kernel of the linear-attention program, one grid point at a time

The program's second kernel call walks a grid of 8 × 8 points (batch entry, query tile).  At a point it is
handed three input blocks: the 1024 × 1024 numerator matrix of the batch entry, the 1 × 1024 row of
denominators of the batch entry, and a 512 × 1024 tile of queries.  It writes ONE block of the result,
the 1024 × 512 tile

    (numerator / (denominator + ε)) · queriesᵀ ,

the division taken column by column (the denominator row is broadcast down the rows), the product a
contraction over the shared axis of length 1024.  Nothing else is touched: no scratch, no branch on the
grid position, and the old contents of the result block are read but never used.

This module records, for ANY contents \`V\` of the buffers on entry to the region, what each window's
staging buffer holds around the body at each grid point, and proves that the body keeps that promise.
It is generic in the number format.
-/

-- membership of an index in a whole-block rectangle recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffer contents on entry to the region; everything below is a function of them
variable (V : (c : Dev nD) → (b : Ref sig .tc) → Buf (Elt F) ((c : Thread nD τ).loc b))

/-! ## The blocks the windows select -/

/-- The block of window \`w\` at grid point \`t\`: the part of the window's array, as found on entry, that the
    window's index map selects at \`t\`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The numerator window is refetched only when the batch entry changes (every eighth point); in between its
    index does not move, so the buffer still holds the block of the CURRENT point.  Hence at every point the
    body finds the current numerator block, for any proof data over the entry contents that leaves the block in
    place. -/
theorem num_block_held_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the denominator row, which moves with the batch entry too. -/
theorem den_block_held_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- And for the query tile, which is fetched afresh at every point. -/
theorem qry_block_held_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes through: each is its whole block -/

abbrev outK_rNum : Rect S1x1024x1024 := Rect.unit (s := S1x1024x1024) ![0, 0, 0] S1x1024x1024.size inb_S1x1024x1024_S1x1024x1024_0_0_0
abbrev outK_rDen : Rect S1x1x1024 := Rect.unit (s := S1x1x1024) ![0, 0, 0] S1x1x1024.size inb_S1x1x1024_S1x1x1024_0_0_0
abbrev outK_rQry : Rect S1x512x1024 := Rect.unit (s := S1x512x1024) ![0, 0, 0] S1x512x1024.size inb_S1x512x1024_S1x512x1024_0_0_0
abbrev outK_rOut : Rect S1x1024x512 := Rect.unit (s := S1x1024x512) ![0, 0, 0] S1x1024x512.size inb_S1x1024x512_S1x1024x512_0_0_0

/-! ## What the body leaves in the result block -/

/-- The result block after the body, as a function of the three input blocks: the body's single store, of the
    quotient-times-queries payload of what its three loads read, laid over whatever the block held. -/
def outTile (x0 : Vec F S1x1024x1024 .f32) (x1 : Vec F S1x1x1024 .f32) (x2 : Vec F S1x512x1024 .bf16) : Vec F S1x1024x512 .f32 :=
  View.canon [⟨outK_rOut, Gen.k1_pay1 (View.ld x0 outK_rNum) (View.ld x1 outK_rDen) (View.ld x2 outK_rQry)⟩]

/-- The store's rectangle is the whole block, so it covers every index of it. -/
theorem outTile_cover (p : Vec F S1x1024x512 .f32) (y : S1x1024x512.Idx) :
    ∃ pc ∈ ([⟨outK_rOut, p⟩] : List (View.Piece (Elt F) S1x1024x512 .f32)), y ∈ pc.1.set :=
  View.cover_of_tiled [⟨outK_rOut, p⟩] S1x1024x512.size (by rfl) y

/-- All three offsets are zero. -/
theorem outK_offsets_zero : (![0, 0, 0] : Fin 3 → Nat) = fun _ => 0 := funext fun a => by fin_cases a <;> rfl

/-- A whole-block store leaves exactly its payload and a whole-block load reads exactly the contents: the result
    block is the payload of the three input blocks themselves. -/
theorem outTile_eq (x0 : Vec F S1x1024x1024 .f32) (x1 : Vec F S1x1x1024 .f32) (x2 : Vec F S1x512x1024 .bf16) :
    outTile x0 x1 x2 = Gen.k1_pay1 x0 x1 x2 := by
  unfold outTile
  rw [View.canon_unit_zero outK_offsets_zero]
  rw [View.ld_unit_zero (S := S1x1024x1024) outK_offsets_zero, View.ld_unit_zero (S := S1x1x1024) outK_offsets_zero,
    View.ld_unit_zero (S := S1x512x1024) outK_offsets_zero]

/-! ## The body's triple -/

set_option maxHeartbeats 1000000 in
/-- The body, run on whole staging buffers: the three inputs at contents \`x0\`, \`x1\`, \`x2\` and the result block at
    anything.  It ends with the inputs as they were and the result block at \`outTile x0 x1 x2\`. -/
theorem outK_triple (c : Dev nD) (E : Set ℕ) (i : grid1.Coords)
    (arg2 : Memref sig .tc .vmem S1x1024x1024 .f32) (harg2 : arg2.IsWhole)
    (arg3 : Memref sig .tc .vmem S1x1x1024 .f32) (harg3 : arg3.IsWhole)
    (arg4 : Memref sig .tc .vmem S1x512x1024 .bf16) (harg4 : arg4.IsWhole)
    (arg5 : Memref sig .tc .vmem S1x1024x512 .f32) (harg5 : arg5.IsWhole)
    (x0 : Vec F S1x1024x1024 .f32) (x1 : Vec F S1x1x1024 .f32) (x2 : Vec F S1x512x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (outTile x0 x1 x2)) -∗ K ⟨⟩))
      ⊢ wp frame (wpE (defs₀ (F := F)) Variants.none c none) E (cc1__output_kernel i arg2 harg2 arg3 harg3 arg4 harg4 arg5 harg5) K := by
  simp only [cc1__output_kernel_eq_skeleton]; unfold cc1__output_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

/-! ## The proof data of the pipeline -/

/-- The proof data on core \`c\`: the arrays are the entry contents; after the body at point \`t\` each input's buffer
    still holds its block and the result's buffer holds \`outTile\` of the three input blocks; the invariant is
    "everything the region does not stage is untouched"; nothing is owed; every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outTile (blk1 V c 0 t) (blk1 V c 1 t) (blk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = outTile (blk1 V c 0 t) (blk1 V c 1 t) (blk1 V c 2 t) := by dsimp only [dat1]

/-- What the body finds in each input's buffer: the block of the current point. -/
theorem num_block_held (c : Dev nD) (t : Fin cfg1.N) (d) : (dat1 V c).before 0 t d = blk1 V c 0 t :=
  num_block_held_of V (dat1 V c) (A_eq1 V c 0) (after1_0 V c) t d
theorem den_block_held (c : Dev nD) (t : Fin cfg1.N) (d) : (dat1 V c).before 1 t d = blk1 V c 1 t :=
  den_block_held_of V (dat1 V c) (A_eq1 V c 1) (after1_1 V c) t d
theorem qry_block_held (c : Dev nD) (t : Fin cfg1.N) (d) : (dat1 V c).before 2 t d = blk1 V c 2 t :=
  qry_block_held_of V (dat1 V c) (A_eq1 V c 2) (after1_2 V c) t d

/-! ## The body obligation, at a generic point -/

/-- What the body is called with at point \`t\`: the invariant, what the core owes, and the four current staging
    buffers at what the pipeline left in them, -/
def outK_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def outK_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their current blocks, so the body's triple applies; the
    invariant and the debt pass through unread. -/
theorem outK_body (c : Dev nD) (t : Fin cfg1.N) :
    outK_pre V c t ⊢ wp frame (wpE (defs₀ (F := F)) Variants.none c none) Set.univ (bodyAt1 t) (fun _ => outK_post V c t) := by
  unfold outK_pre outK_post bodyAt1
  simp only [num_block_held, den_block_held, qry_block_held]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (outK_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact outK_body V c t

end Region

end Cert.Kernel.Frm

end
-- ==== Proof.K.Whole.lean ====
import proofs.«176170_j9431748182266_1_alg».proof.Proof.K.StatsBody
import proofs.«176170_j9431748182266_1_alg».proof.Proof.K.OutKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole program: three conversions, the statistics call, the output call

The program converts the three weight matrices to half precision, runs the statistics call over them and the
input (leaving the query tiles, the numerator matrices and the denominator rows), and then runs the output call
over those three, leaving the result array.  This module follows the contents of every buffer through those three
steps as a chain of four valuations, starting from the launch memory:

* at launch;
* after the conversions (only the three converted matrices differ);
* after the statistics call (only its three result arrays differ: each holds what the call's write-backs leave);
* after the output call (only the result array differs).

From the two calls' body obligations it proves that the program terminates without a fault and ends with every buffer
at the last valuation; reading that valuation back gives the four argument arrays unchanged and the result array
as the output call's write-backs leave it.  It is generic in the number format.
-/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each step -/

/-- A core's buffers at launch. -/
abbrev W0 : Dev nD → Valuation τ sig (Elt F) := fun c b => (s₀ m ρ).mem ((c : Dev nD), b)
/-- After the three conversions: what the statistics call is entered with. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the statistics call: each of its arrays at what its write-backs leave (an input: as entered), every other
    buffer as entered.  This is what the output call is entered with. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
/-- The two facts that put the statistics call's arrays back among the other buffers at its exit. -/
theorem stats_arrays_left (c : Dev nD) (w : Fin cfg0.W) : (dat0 (V1 m ρ) c).arrAt w cfg0.N = V2 m ρ c (Pipeline.arrRef spec0 w) :=
  (W2_arr m ρ c w).symm
theorem stats_rest_kept (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the output call: each of its arrays at what its write-backs leave, every other buffer as entered.  This is
    what the program ends with. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
theorem out_arrays_left (c : Dev nD) (w : Fin cfg1.W) : (dat1 (V2 m ρ) c).arrAt w cfg1.N = V3 m ρ c (Pipeline.arrRef spec1 w) :=
  (W3_arr m ρ c w).symm
theorem out_rest_kept (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the chain back -/

/-- The conversions write only the three converted matrices: any other buffer is as launched. -/
theorem W1_of_not_converted (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The input array is only read (it is the statistics call's first window, an input; the output call does not see
    it): it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_converted m ρ c main_arg0 (by decide) (by decide) (by decide)
    _ = m ((c : Thread nD τ).loc main_arg0) := rfl

/-- The three weight matrices are read by the conversions only; neither call has them as a window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_converted m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_converted m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_converted m ρ c main_arg3 (by decide) (by decide) (by decide)
    _ = m ((c : Thread nD τ).loc main_arg3) := rfl

/-- The result array ends at what the output call's write-backs leave in its fourth window. -/
theorem W3_result (c : Dev nD) : W3 m ρ c (Proc.devRef .tc main_v4) = (dat1 (V2 m ρ) c).arrAt 3 cfg1.N :=
  W3_arr m ρ c 3

/-- What the output call finds in its three inputs: what the statistics call's write-backs left in its sixth, seventh
    and fifth windows (numerators, denominators, query tiles). -/
theorem V2_num (c : Dev nD) : V2 m ρ c main_v3_1 = (dat0 (V1 m ρ) c).arrAt 5 cfg0.N := W2_arr m ρ c 5
theorem V2_den (c : Dev nD) : V2 m ρ c main_v3_2 = (dat0 (V1 m ρ) c).arrAt 6 cfg0.N := W2_arr m ρ c 6
theorem V2_q (c : Dev nD) : V2 m ρ c main_v3_0 = (dat0 (V1 m ρ) c).arrAt 4 cfg0.N := W2_arr m ρ c 4

/-- What the statistics call finds: the input as launched, -/
theorem V1_x (c : Dev nD) : V1 m ρ c main_arg0 = m ((c : Thread nD τ).loc main_arg0) :=
  (W1_of_not_converted m ρ c main_arg0 (by decide) (by decide) (by decide)).trans rfl

/-- and each weight matrix converted to half precision. -/
theorem V1_wq (c : Dev nD) : V1 m ρ c main_v0 = truncf .bf16 (m ((c : Thread nD τ).loc main_arg1)) bitsLt_bf16_f32 := by
  show StableHlo.after hostOps0 (W0 m ρ c) (Proc.devRef .tc main_v0) = _
  dsimp only [hostOps0]
  after_results
theorem V1_wk (c : Dev nD) : V1 m ρ c main_v1 = truncf .bf16 (m ((c : Thread nD τ).loc main_arg2)) bitsLt_bf16_f32 := by
  show StableHlo.after hostOps0 (W0 m ρ c) (Proc.devRef .tc main_v1) = _
  dsimp only [hostOps0]
  after_results
theorem V1_wv (c : Dev nD) : V1 m ρ c main_v2 = truncf .bf16 (m ((c : Thread nD τ).loc main_arg3)) bitsLt_bf16_f32 := by
  show StableHlo.after hostOps0 (W0 m ρ c) (Proc.devRef .tc main_v2) = _
  dsimp only [hostOps0]
  after_results

/-! ## The proof data of the two calls and the state that rides between them -/

/-- Neither call has a prefetched table. -/
abbrev noTables : (p : Fin 2) → (pcfgs (F := F) p).Adm := fun p => (cfgs p).toPCfg_adm
/-- The proof data of each call, at the contents it is entered with. -/
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
/-- No core ever owes another anything, so no level is assigned. -/
abbrev noLevels : GSem nD τ sig → Finset Unit := fun _ => ∅
abbrev levelZero : GSem nD τ sig → Unit → ℕ := fun _ _ => 0
/-- What a core holds beside its buffers from one step to the next: its generator register, at some state, and the
    record that it owes nothing. -/
abbrev riders (c : Dev nD) : sProp 𝕄 := iprop((∃ r, prngReg c r) ∗ ∃ W, owes (c : Thread nD τ) (0 : CellTallies nD τ sig Unit) W)
/-- The conversions as one step from the contents \`W\`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riders

/-- No conversion allocates a buffer. -/
theorem conversions_fresh : (hostOps0 : List (HloOp τ sig (Elt F))).Forall fun op => op.fresh = ∅ := by
  simp only [List.Forall]; repeat' constructor
/-- A reference of the core that is not scoped to a call is among those the state between steps holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the record of debts: every unscoped buffer at the last contents, the generator register
    at some state. -/
abbrev endState (c : Dev nD) : sProp 𝕄 := iprop(StableHlo.held (c : Thread nD τ) (Pipeline.ucRefs τ sig) (W3 m ρ c) ∗ ∃ r, prngReg c r)

/-! ## The two calls as steps -/

set_option backward.isDefEq.respectTransparency.types false in
/-- The statistics call: entered with every unscoped buffer at \`W1\`, left with them at \`W2\`.  Its arrays are split
    out of the unscoped buffers on entry and put back, at what the write-backs left, on exit; the generator register
    goes into the call's invariant and comes back; nothing is owed.  Its invariant between points also holds the two
    accumulators, which it takes from, and gives back to, the buffers scoped to the call. -/
def reg0 : Pipeline.RegionSeg (pcfgs (F := F)) noTables (pdats m ρ) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelZero 0 fun _ _ => rfl
  pre c := iprop(StableHlo.held (c : Thread nD τ) (Pipeline.ucRefs τ sig) (W1 m ρ c) ∗ riders c)
  post c := iprop(StableHlo.held (c : Thread nD τ) (Pipeline.ucRefs τ sig) (W2 m ρ c) ∗ riders c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V1 m ρ) c)
    unfold Pipeline.ΦA
    iintro ⟨Hp, -, Hr⟩
    isplitl [Hr]; · iexact Hr
    iexact Hp
  hout c := by
    rw [Pipeline.ownSems0_none]
    refine BIBase.Entails.trans (leave0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (stats_arrays_left m ρ c) (stats_rest_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output call: entered with every unscoped buffer at \`W2\`, left with them at \`W3\`, which is what the program
    ends with.  Its invariant is only "what the call does not stage is untouched, and the generator register". -/
def reg1 : Pipeline.RegionSeg (pcfgs (F := F)) noTables (pdats m ρ) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noLevels levelZero 1 fun _ _ => rfl
  pre c := iprop(StableHlo.held (c : Thread nD τ) (Pipeline.ucRefs τ sig) (W2 m ρ c) ∗ riders c)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (out_arrays_left m ρ c) (out_rest_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three steps, and its run -/

/-- The program's steps in order: the conversions from the launch contents, then the two calls. -/
abbrev segs : List (Pipeline.Seg (pcfgs (F := F)) noTables (pdats m ρ) () defs₀ Variants.none noLevels levelZero) :=
  [ .host (hostStep hostOps0 hostOps0_sub conversions_fresh (W0 m ρ)),
    .region (reg0 m ρ),
    .region (reg1 m ρ) ]
/-- The program is the run of its steps. -/
theorem main_run (c : Dev nD) : main (F := F) c = Pipeline.Seg.run (segs m ρ) := (main_chain c).trans (by chain_rfl)

set_option backward.isDefEq.respectTransparency.types false in
/-- From any memory with every counter at zero, every weakly fair execution of the program on the cores terminates
    without a fault, and in every final state each core's unscoped buffers hold the last contents \`W3\`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) noTables (pdats m ρ) () cellOf_inj emb₁ defs₀ Variants.none noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riders c)) (Tₙ := endState m ρ)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_unscoped main_arg0 (by decide))).trans (W3_main_arg0 m ρ c),
     (h c _ (mem_unscoped main_arg1 (by decide))).trans (W3_main_arg1 m ρ c),
     (h c _ (mem_unscoped main_arg2 (by decide))).trans (W3_main_arg2 m ρ c),
     (h c _ (mem_unscoped main_arg3 (by decide))).trans (W3_main_arg3 m ρ c)⟩) (run_all m ρ)

/-- The run with the result named: the result array ends at what the output call's write-backs leave, and the four
    argument arrays end as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_unscoped main_v4 (by decide))).trans (W3_result m ρ c),
     (h c _ (mem_unscoped main_arg0 (by decide))).trans (W3_main_arg0 m ρ c),
     (h c _ (mem_unscoped main_arg1 (by decide))).trans (W3_main_arg1 m ρ c),
     (h c _ (mem_unscoped main_arg2 (by decide))).trans (W3_main_arg2 m ρ c),
     (h c _ (mem_unscoped main_arg3 (by decide))).trans (W3_main_arg3 m ρ c)⟩) (run_all m ρ)

end Cert.Kernel.Frm

end
-- ==== Proof.KI.StatsCases.lean ====
/-
  The statistics call (the first of the two kernel calls) at one grid point: which of its two branches run there.

  Its grid is 8 batch entries by 16 tiles of 256 sequence positions, walked batch entry by batch entry, so point t is
  batch entry t / 16 and tile t % 16.  The body clears its two accumulators (the running K-transpose-times-V matrix and the
  running column sums of K) at a batch entry's first tile, adds the tile's contribution at every tile, and copies the
  accumulators out into the numerator and denominator blocks at the batch entry's last tile.  Those two blocks are
  therefore untouched at the other fifteen tiles and written back only after the last.
-/
import proofs.«176170_j9431748182266_1_alg».proof.Proof.Gen.KernelIdeal.Launch
import proofs.«176170_j9431748182266_1_alg».proof.Proof.Gen.KernelIdeal.Skeleton
import proofs.«176170_j9431748182266_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The accumulators are cleared: the tile coordinate is 0 (the body's integer chain on the coordinate). -/
abbrev atFirstTile (i : grid0.Coords) : Prop :=
  (Scalar.cmpi .ne (Scalar.extui (Scalar.cmpi .eq (BitVec.ofNat 32 (i 1).val) 0#32)) 0#32) = 1#1
/-- That is the points whose number is a multiple of 16. -/
theorem atFirstTile_iff : ∀ t : Fin cfg0.N, atFirstTile (grid0.coords t) ↔ t.val % 16 = 0 :=
  (by decide +kernel : ∀ t : Fin grid0.N, atFirstTile (grid0.coords t) ↔ t.val % 16 = 0)

/-- The accumulators are copied out: the tile coordinate is 15. -/
abbrev atLastTile (i : grid0.Coords) : Prop := k0_cond2 i = 1#1
/-- That is the points whose number is 15 modulo 16. -/
theorem atLastTile_iff : ∀ t : Fin cfg0.N, atLastTile (grid0.coords t) ↔ t.val % 16 = 15 :=
  (by decide +kernel : ∀ t : Fin grid0.N, atLastTile (grid0.coords t) ↔ t.val % 16 = 15)

/-! ## Where the numerator and denominator blocks are left alone -/

/-- Away from a last tile the body stores nothing into the numerator block, and the block is not written back. -/
theorem num_idle : ∀ t : Fin cfg0.N, ¬atLastTile (grid0.coords t) → cfg0.idle 5 (grid0.coords t) = true := by decide +kernel
theorem num_kept : ∀ t : Fin cfg0.N, ¬atLastTile (grid0.coords t) → (cfg0.win 5).flush t = false := by decide +kernel
/-- At a last tile it is stored. -/
theorem num_live : ∀ t : Fin cfg0.N, atLastTile (grid0.coords t) → cfg0.idle 5 (grid0.coords t) = false := by decide +kernel
/-- The same for the denominator block. -/
theorem den_idle : ∀ t : Fin cfg0.N, ¬atLastTile (grid0.coords t) → cfg0.idle 6 (grid0.coords t) = true := by decide +kernel
theorem den_kept : ∀ t : Fin cfg0.N, ¬atLastTile (grid0.coords t) → (cfg0.win 6).flush t = false := by decide +kernel
theorem den_live : ∀ t : Fin cfg0.N, atLastTile (grid0.coords t) → cfg0.idle 6 (grid0.coords t) = false := by decide +kernel

/-! ## The buffers the body is called with at a point -/

/-- The tile of x, the three weight matrices, the tile of queries, the numerator and denominator blocks: each window's
    current staging buffer at point t, as the pipeline passes it, with its wholeness. -/
abbrev bX (t : Fin cfg0.N) : Memref sig .tc .vmem S1x256x1024 .f32 := win0_0.stage (cfg0.slots t 0)
abbrev hX (t : Fin cfg0.N) : (bX t).IsWhole := hstage0_0 ((cfg0.slots t 0).cast nbuf0_0)
abbrev bWq (t : Fin cfg0.N) : Memref sig .tc .vmem S1024x1024 .bf16 := win0_1.stage (cfg0.slots t 1)
abbrev hWq (t : Fin cfg0.N) : (bWq t).IsWhole := hstage0_1 ((cfg0.slots t 1).cast nbuf0_1)
abbrev bWk (t : Fin cfg0.N) : Memref sig .tc .vmem S1024x1024 .bf16 := win0_2.stage (cfg0.slots t 2)
abbrev hWk (t : Fin cfg0.N) : (bWk t).IsWhole := hstage0_2 ((cfg0.slots t 2).cast nbuf0_2)
abbrev bWv (t : Fin cfg0.N) : Memref sig .tc .vmem S1024x1024 .bf16 := win0_3.stage (cfg0.slots t 3)
abbrev hWv (t : Fin cfg0.N) : (bWv t).IsWhole := hstage0_3 ((cfg0.slots t 3).cast nbuf0_3)
abbrev bQ (t : Fin cfg0.N) : Memref sig .tc .vmem S1x256x1024 .bf16 := win0_4.stage (cfg0.slots t 4)
abbrev hQ (t : Fin cfg0.N) : (bQ t).IsWhole := hstage0_4 ((cfg0.slots t 4).cast nbuf0_4)
abbrev bNum (t : Fin cfg0.N) : Memref sig .tc .vmem S1x1024x1024 .f32 := win0_5.stage (cfg0.slots t 5)
abbrev hNum (t : Fin cfg0.N) : (bNum t).IsWhole := hstage0_5 ((cfg0.slots t 5).cast nbuf0_5)
abbrev bDen (t : Fin cfg0.N) : Memref sig .tc .vmem S1x1x1024 .f32 := win0_6.stage (cfg0.slots t 6)
abbrev hDen (t : Fin cfg0.N) : (bDen t).IsWhole := hstage0_6 ((cfg0.slots t 6).cast nbuf0_6)

/-- The two accumulators, whole buffers of the call's own: the running matrix and the running row of column sums. -/
abbrev accM : Memref sig .tc .vmem S1024x1024 .f32 := Memref.whole cc0_scratch0
abbrev accR : Memref sig .tc .vmem S1x1024 .f32 := Memref.whole cc0_scratch1
/-- What they hold is stated through their views. -/
abbrev accMv : View sig .tc .vmem S1024x1024 .f32 := accM.view
abbrev accRv : View sig .tc .vmem S1x1024 .f32 := accR.view

/-- The other call's staging buffers, which this call never touches, each at some contents. -/
def elsewhere (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the pipeline hands the body beside the windows: the two accumulators owned at some contents, the other call's
    buffers, and the generator register at some state. -/
theorem scoped_open (c : Dev nD) :
    (Pipeline.ΦA spec0 c : sProp 𝕄)
      = iprop(iprop((∃ d, owns (c : Thread nD τ) accM fullShare d) ∗ (∃ d, owns (c : Thread nD τ) accR fullShare d) ∗ elsewhere c) ∗ (∃ r, prngReg c r)) := by
  unfold Pipeline.ΦA elsewhere; rw [scopedRest0_eq]; simp only [accM, accR, owns_whole]; try rfl

end Cert.KernelIdeal.Frm

end
-- ==== Proof.KI.StatsFirst.lean ====
/-
  The statistics body at the first tile of a batch entry: both accumulators are cleared, then the tile's contribution is
  added, so each accumulator ends at zero plus its contribution whatever it held before; the tile of queries is stored;
  the numerator and denominator blocks are not touched.
-/
import proofs.«176170_j9431748182266_1_alg».proof.Proof.Gen.KernelIdeal.Launch
import proofs.«176170_j9431748182266_1_alg».proof.Proof.Gen.KernelIdeal.Skeleton
import proofs.«176170_j9431748182266_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.KI.StatsCases

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a first tile that is not a last one: on whole buffers, the four inputs at their contents, the tile of queries and both accumulators at anything, the numerator and denominator blocks at contents handed back untouched, the body runs to the continuation with the inputs as they were and the three written buffers holding the pieces the run finds (last store first). -/
noncomputable def runFirst (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : atFirstTile i) (hl : ¬atLastTile i)
    (x0 : Vec F S1x256x1024 .f32) (x1 x2 x3 : Vec F S1024x1024 .bf16) :
    Σ' (LQ : List (View.Piece (Elt F) S1x256x1024 .bf16)) (LM : List (View.Piece (Elt F) S1024x1024 .f32)),
      { LR : List (View.Piece (Elt F) S1x1024 .f32) //
        ∀ (n0 : Vec F S1x1024x1024 .f32) (d0 : Vec F S1x1x1024 .f32) (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ owns (c : Thread nD τ) arg7 fullShare n0 ∗ owns (c : Thread nD τ) arg8 fullShare d0
              ∗ (∃ d, owns (c : Thread nD τ) arg9 fullShare d) ∗ (∃ d, owns (c : Thread nD τ) arg10 fullShare d)
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ owns (c : Thread nD τ) arg7 fullShare n0 ∗ owns (c : Thread nD τ) arg8 fullShare d0
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, fun n0 d0 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg7.eq_unread hf5
    obtain rfl := harg8.eq_unread hf6
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.KernelIdeal.Frm

end
-- ==== Proof.KI.StatsMid.lean ====
/-
  The statistics body at a tile that is neither the first nor the last of its batch entry: the tile's contribution is added to
  the accumulators as the tile before left them; the tile of queries is stored; the numerator and denominator blocks are
  not touched.
-/
import proofs.«176170_j9431748182266_1_alg».proof.Proof.Gen.KernelIdeal.Launch
import proofs.«176170_j9431748182266_1_alg».proof.Proof.Gen.KernelIdeal.Skeleton
import proofs.«176170_j9431748182266_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.KI.StatsCases

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a tile neither first nor last: as at a first tile, but the accumulators arrive at the contents the point before left and are added to. -/
noncomputable def runMid (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : ¬atFirstTile i) (hl : ¬atLastTile i)
    (x0 : Vec F S1x256x1024 .f32) (x1 x2 x3 : Vec F S1024x1024 .bf16) (am : Vec F S1024x1024 .f32) (ar : Vec F S1x1024 .f32) :
    Σ' (LQ : List (View.Piece (Elt F) S1x256x1024 .bf16)) (LM : List (View.Piece (Elt F) S1024x1024 .f32)),
      { LR : List (View.Piece (Elt F) S1x1024 .f32) //
        ∀ (n0 : Vec F S1x1024x1024 .f32) (d0 : Vec F S1x1x1024 .f32) (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ owns (c : Thread nD τ) arg7 fullShare n0 ∗ owns (c : Thread nD τ) arg8 fullShare d0
              ∗ owns (c : Thread nD τ) arg9 fullShare am ∗ owns (c : Thread nD τ) arg10 fullShare ar
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ owns (c : Thread nD τ) arg7 fullShare n0 ∗ owns (c : Thread nD τ) arg8 fullShare d0
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, fun n0 d0 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg7.eq_unread hf5
    obtain rfl := harg8.eq_unread hf6
    obtain rfl := harg9.eq_unread hf7
    obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

end Cert.KernelIdeal.Frm

end
-- ==== Proof.KI.StatsLast.lean ====
/-
  The statistics body at the last tile of a batch entry: the tile's contribution is added to the accumulators as the tile
  before left them, the tile of queries is stored, and the accumulators are copied out into the numerator and denominator
  blocks.
-/
import proofs.«176170_j9431748182266_1_alg».proof.Proof.Gen.KernelIdeal.Launch
import proofs.«176170_j9431748182266_1_alg».proof.Proof.Gen.KernelIdeal.Skeleton
import proofs.«176170_j9431748182266_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«176170_j9431748182266_1_alg».proof.Proof.KI.StatsCases

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the executor's proof term is long; closing the definition walks all of it
set_option maxHeartbeats 1000000 in
/-- At a last tile (never a first one: a batch entry has sixteen): the accumulators arrive at the contents the point before left, are added to, and the two output blocks, arriving at anything, end holding the pieces the run finds. -/
noncomputable def runLast (c : Dev nD) (i : grid0.Coords) (arg2 : Memref sig .tc .vmem S1x256x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x256x1024 .bf16) (harg6 : arg6.IsWhole) (arg7 : Memref sig .tc .vmem S1x1024x1024 .f32) (harg7 : arg7.IsWhole) (arg8 : Memref sig .tc .vmem S1x1x1024 .f32) (harg8 : arg8.IsWhole) (arg9 : Memref sig .tc .vmem S1024x1024 .f32) (harg9 : arg9.IsWhole) (arg10 : Memref sig .tc .vmem S1x1024 .f32) (harg10 : arg10.IsWhole)
    (hf : ¬atFirstTile i) (hl : atLastTile i)
    (x0 : Vec F S1x256x1024 .f32) (x1 x2 x3 : Vec F S1024x1024 .bf16) (am : Vec F S1024x1024 .f32) (ar : Vec F S1x1024 .f32) :
    Σ' (LQ : List (View.Piece (Elt F) S1x256x1024 .bf16)) (LN : List (View.Piece (Elt F) S1x1024x1024 .f32)) (LD : List (View.Piece (Elt F) S1x1x1024 .f32)) (LM : List (View.Piece (Elt F) S1024x1024 .f32)),
      { LR : List (View.Piece (Elt F) S1x1024 .f32) //
        ∀ (E : Set ℕ) (K : PUnit → sProp 𝕄),
          iprop(owns (c : Thread nD τ) arg2 fullShare x0 ∗ owns (c : Thread nD τ) arg3 fullShare x1 ∗ owns (c : Thread nD τ) arg4 fullShare x2 ∗ owns (c : Thread nD τ) arg5 fullShare x3
              ∗ (∃ d, owns (c : Thread nD τ) arg6 fullShare d) ∗ (∃ d, owns (c : Thread nD τ) arg7 fullShare d) ∗ (∃ d, owns (c : Thread nD τ) arg8 fullShare d)
              ∗ owns (c : Thread nD τ) arg9 fullShare am ∗ owns (c : Thread nD τ) arg10 fullShare ar
              ∗ (iprop(owns (c : Thread nD τ) arg2 fullShare x0 ∗ owns (c : Thread nD τ) arg3 fullShare x1 ∗ owns (c : Thread nD τ) arg4 fullShare x2 ∗ owns (c : Thread nD τ) arg5 fullShare x3
                  ∗ (∃ f, arg6.view.loc (c : Thread nD τ) ↦[arg6.view.set]{fullShare} arg6.view.writes (Elt F) f LQ) ∗ (∃ f, arg7.view.loc (c : Thread nD τ) ↦[arg7.view.set]{fullShare} arg7.view.writes (Elt F) f LN) ∗ (∃ f, arg8.view.loc (c : Thread nD τ) ↦[arg8.view.set]{fullShare} arg8.view.writes (Elt F) f LD)
                  ∗ (∃ f, arg9.view.loc (c : Thread nD τ) ↦[arg9.view.set]{fullShare} arg9.view.writes (Elt F) f LM) ∗ (∃ f, arg10.view.loc (c : Thread nD τ) ↦[arg10.view.set]{fullShare} arg10.view.writes (Elt F) f LR)) -∗ K ⟨⟩))
            ⊢ wp frame (wpE (defs₀ (F := F)) Variants.none c none) E (cc0__stats_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg2.eq_unread hf0
    obtain rfl := harg3.eq_unread hf1
    obtain rfl := harg4.eq_unread hf2
    obtain rfl := harg5.eq_unread hf3
    obtain rfl := harg9.eq_unread hf7
    obtain rfl := harg10.eq_unread hf8
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Frm

end
-- ==== Proof.KI.Stats.lean ====
/-
  The statistics call, point by point: what each buffer holds after the body at every grid point, the invariant that carries
  the two accumulators from one point to the next, the pipeline's proof data, and the body obligation.

  After point t the matrix accumulator holds the sum, over the tiles of t's batch entry up to t's own, of the tile's
  K-transpose-times-V, started from zero at the batch entry's first tile; the row accumulator the same for the column sums
  of K.  Here that is stated by recursion on the point, each step the case's run at that point over what the point before
  left.  The numerator and denominator blocks are meaningful only after a last tile, where they are the two accumulators.
-/
import proofs.«176170_j9431748182266_1_alg».proof.Proof.KI.StatsFirst
import proofs.«176170_j9431748182266_1_alg».proof.Proof.KI.StatsMid
import proofs.«176170_j9431748182266_1_alg».proof.Proof.KI.StatsLast

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which case a point is in -/

theorem first_of (t : Fin cfg0.N) (h : t.val % 16 = 0) : atFirstTile (grid0.coords t) := (atFirstTile_iff t).mpr h
theorem notFirst_of (t : Fin cfg0.N) (h : ¬t.val % 16 = 0) : ¬atFirstTile (grid0.coords t) := fun hf => h ((atFirstTile_iff t).mp hf)
theorem last_of (t : Fin cfg0.N) (h : t.val % 16 = 15) : atLastTile (grid0.coords t) := (atLastTile_iff t).mpr h
theorem notLast_of (t : Fin cfg0.N) (h : ¬t.val % 16 = 15) : ¬atLastTile (grid0.coords t) := fun hl => h ((atLastTile_iff t).mp hl)
/-- A first tile is not a last one: a batch entry has sixteen tiles. -/
theorem notLast_of_first (t : Fin cfg0.N) (h : t.val % 16 = 0) : ¬atLastTile (grid0.coords t) :=
  notLast_of t (by omega)

/-- The views through which the three written windows' contents are stated (any of a window's buffers would do). -/
abbrev vQ : View sig .tc .vmem S1x256x1024 .bf16 := (Memref.whole cc0_stg4_0 : Memref sig .tc .vmem S1x256x1024 .bf16).view
abbrev vN : View sig .tc .vmem S1x1024x1024 .f32 := (Memref.whole cc0_stg5_0 : Memref sig .tc .vmem S1x1024x1024 .f32).view
abbrev vD : View sig .tc .vmem S1x1x1024 .f32 := (Memref.whole cc0_stg6_0 : Memref sig .tc .vmem S1x1x1024 .f32).view

section
-- the TensorCore's buffer contents when the call is entered
variable (V : (c : Dev nD) → (b : Ref sig .tc) → Buf (Elt F) ((c : Thread nD τ).loc b))

/-! ## The windows' blocks -/

/-- Window w's block at point t, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not (the weights are fetched once;
    their block index never moves), for any proof data over V whose body leaves the block in place. -/
theorem found_x {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found_wq {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found_wk {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem found_wv {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-! ## Each case's run at a point -/

/-- The first-tile run at point t: on the point's own buffers and input blocks. -/
def firstRun (c : Dev nD) (t : Fin cfg0.N) (h : t.val % 16 = 0) :=
  runFirst (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (first_of t h) (notLast_of_first t h) (blk0 V c 0 t) (blk0 V c 1 t) (blk0 V c 2 t) (blk0 V c 3 t)
/-- The run at a tile neither first nor last, over accumulators am, ar. -/
def midRun (c : Dev nD) (t : Fin cfg0.N) (h0 : ¬t.val % 16 = 0) (h15 : ¬t.val % 16 = 15) (am : Vec F S1024x1024 .f32) (ar : Vec F S1x1024 .f32) :=
  runMid (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (notFirst_of t h0) (notLast_of t h15) (blk0 V c 0 t) (blk0 V c 1 t) (blk0 V c 2 t) (blk0 V c 3 t) am ar
/-- The last-tile run, over accumulators am, ar. -/
def lastRun (c : Dev nD) (t : Fin cfg0.N) (h0 : ¬t.val % 16 = 0) (h15 : t.val % 16 = 15) (am : Vec F S1024x1024 .f32) (ar : Vec F S1x1024 .f32) :=
  runLast (F := F) c (grid0.coords t) (bX t) (hX t) (bWq t) (hWq t) (bWk t) (hWk t) (bWv t) (hWv t) (bQ t) (hQ t) (bNum t) (hNum t) (bDen t) (hDen t) accM (Memref.isWhole_whole _) accR (Memref.isWhole_whole _) (notFirst_of t h0) (last_of t h15) (blk0 V c 0 t) (blk0 V c 1 t) (blk0 V c 2 t) (blk0 V c 3 t) am ar

/-- Each run's stores cover the buffers they write: one whole-buffer store last in each list. -/
theorem firstQ_cover (c : Dev nD) (t : Fin cfg0.N) (h : t.val % 16 = 0) (y : S1x256x1024.Idx) : ∃ pc ∈ (firstRun V c t h).1, y ∈ pc.1.set :=
  View.cover_of_tiledL (firstRun V c t h).1 S1x256x1024.size (by sl_kernel_rfl) y
theorem firstM_cover (c : Dev nD) (t : Fin cfg0.N) (h : t.val % 16 = 0) (y : S1024x1024.Idx) : ∃ pc ∈ (firstRun V c t h).2.1, y ∈ pc.1.set :=
  View.cover_of_tiledL (firstRun V c t h).2.1 S1024x1024.size (by sl_kernel_rfl) y
theorem firstR_cover (c : Dev nD) (t : Fin cfg0.N) (h : t.val % 16 = 0) (y : S1x1024.Idx) : ∃ pc ∈ (firstRun V c t h).2.2.1, y ∈ pc.1.set :=
  View.cover_of_tiledL (firstRun V c t h).2.2.1 S1x1024.size (by sl_kernel_rfl) y
theorem midQ_cover (c : Dev nD) (t : Fin cfg0.N) (h0 : ¬t.val % 16 = 0) (h15 : ¬t.val % 16 = 15) (am : Vec F S1024x1024 .f32) (ar : Vec F S1x1024 .f32) (y : S1x256x1024.Idx) :
    ∃ pc ∈ (midRun V c t h0 h15 am ar).1, y ∈ pc.1.set :=
  View.cover_of_tiledL (midRun V c t h0 h15 am ar).1 S1x256x1024.size (by sl_kernel_rfl) y
theorem midM_cover (c : Dev nD) (t : Fin cfg0.N) (h0 : ¬t.val % 16 = 0) (h15 : ¬t.val % 16 = 15) (am : Vec F S1024x1024 .f32) (ar : Vec F S1x1024 .f32) (y : S1024x1024.Idx) :
    ∃ pc ∈ (midRun V c t h0 h15 am ar).2.1, y ∈ pc.1.set :=
  View.cover_of_tiledL (midRun V c t h0 h15 am ar).2.1 S1024x1024.size (by sl_kernel_rfl) y
theorem midR_cover (c : Dev nD) (t : Fin cfg0.N) (h0 : ¬t.val % 16 = 0) (h15 : ¬t.val % 16 = 15) (am : Vec F S1024x1024 .f32) (ar : Vec F S1x1024 .f32) (y : S1x1024.Idx) :
    ∃ pc ∈ (midRun V c t h0 h15 am ar).2.2.1, y ∈ pc.1.set :=
  View.cover_of_tiledL (midRun V c t h0 h15 am ar).2.2.1 S1x1024.size (by sl_kernel_rfl) y
theorem lastQ_cover (c : Dev nD) (t : Fin cfg0.N) (h0 : ¬t.val % 16 = 0) (h15 : t.val % 16 = 15) (am : Vec F S1024x1024 .f32) (ar : Vec F S1x1024 .f32) (y : S1x256x1024.Idx) :
    ∃ pc ∈ (lastRun V c t h0 h15 am ar).1, y ∈ pc.1.set :=
  View.cover_of_tiledL (lastRun V c t h0 h15 am ar).1 S1x256x1024.size (by sl_kernel_rfl) y
theorem lastN_cover (c : Dev nD) (t : Fin cfg0.N) (h0 : ¬t.val % 16 = 0) (h15 : t.val % 16 = 15) (am : Vec F S1024x1024 .f32) (ar : Vec F S1x1024 .f32) (y : S1x1024x1024.Idx) :
    ∃ pc ∈ (lastRun V c t h0 h15 am ar).2.1, y ∈ pc.1.set :=
  View.cover_of_tiledL (lastRun V c t h0 h15 am ar).2.1 S1x1024x1024.size (by sl_kernel_rfl) y
theorem lastD_cover (c : Dev nD) (t : Fin cfg0.N) (h0 : ¬t.val % 16 = 0) (h15 : t.val % 16 = 15) (am : Vec F S1024x1024 .f32) (ar : Vec F S1x1024 .f32) (y : S1x1x1024.Idx) :
    ∃ pc ∈ (lastRun V c t h0 h15 am ar).2.2.1, y ∈ pc.1.set :=
  View.cover_of_tiledL (lastRun V c t h0 h15 am ar).2.2.1 S1x1x1024.size (by sl_kernel_rfl) y
theorem lastM_cover (c : Dev nD) (t : Fin cfg0.N) (h0 : ¬t.val % 16 = 0) (h15 : t.val % 16 = 15) (am : Vec F S1024x1024 .f32) (ar : Vec F S1x1024 .f32) (y : S1024x1024.Idx) :
    ∃ pc ∈ (lastRun V c t h0 h15 am ar).2.2.2.1, y ∈ pc.1.set :=
  View.cover_of_tiledL (lastRun V c t h0 h15 am ar).2.2.2.1 S1024x1024.size (by sl_kernel_rfl) y
theorem lastR_cover (c : Dev nD) (t : Fin cfg0.N) (h0 : ¬t.val % 16 = 0) (h15 : t.val % 16 = 15) (am : Vec F S1024x1024 .f32) (ar : Vec F S1x1024 .f32) (y : S1x1024.Idx) :
    ∃ pc ∈ (lastRun V c t h0 h15 am ar).2.2.2.2.1, y ∈ pc.1.set :=
  View.cover_of_tiledL (lastRun V c t h0 h15 am ar).2.2.2.2.1 S1x1024.size (by sl_kernel_rfl) y

/-! ## What the buffers hold after each point -/

/-- The query tile, the numerator block, the denominator block, the matrix accumulator and the row accumulator. -/
abbrev Held (F : FTy → Type) [FloatOps F] : Type :=
  Vec F S1x256x1024 .bf16 × Vec F S1x1024x1024 .f32 × Vec F S1x1x1024 .f32 × Vec F S1024x1024 .f32 × Vec F S1x1024 .f32

/-- After a first tile: the run's pieces read back; the two output blocks are not written (a placeholder nobody reads). -/
def atFirst (c : Dev nD) (t : Fin cfg0.N) (h : t.val % 16 = 0) : Held F :=
  (vQ.read (Elt F) (vQ.writes (Elt F) vQ.junk (firstRun V c t h).1),
   vN.read (Elt F) vN.junk, vD.read (Elt F) vD.junk,
   accMv.read (Elt F) (accMv.writes (Elt F) accMv.junk (firstRun V c t h).2.1),
   accRv.read (Elt F) (accRv.writes (Elt F) accRv.junk (firstRun V c t h).2.2.1))
/-- After a tile neither first nor last, over the accumulators the point before left. -/
def atMid (c : Dev nD) (t : Fin cfg0.N) (h0 : ¬t.val % 16 = 0) (h15 : ¬t.val % 16 = 15) (am : Vec F S1024x1024 .f32) (ar : Vec F S1x1024 .f32) : Held F :=
  (vQ.read (Elt F) (vQ.writes (Elt F) vQ.junk (midRun V c t h0 h15 am ar).1),
   vN.read (Elt F) vN.junk, vD.read (Elt F) vD.junk,
   accMv.read (Elt F) (accMv.writes (Elt F) accMv.junk (midRun V c t h0 h15 am ar).2.1),
   accRv.read (Elt F) (accRv.writes (Elt F) accRv.junk (midRun V c t h0 h15 am ar).2.2.1))
/-- After a last tile: all five are written. -/
def atLast (c : Dev nD) (t : Fin cfg0.N) (h0 : ¬t.val % 16 = 0) (h15 : t.val % 16 = 15) (am : Vec F S1024x1024 .f32) (ar : Vec F S1x1024 .f32) : Held F :=
  (vQ.read (Elt F) (vQ.writes (Elt F) vQ.junk (lastRun V c t h0 h15 am ar).1),
   vN.read (Elt F) (vN.writes (Elt F) vN.junk (lastRun V c t h0 h15 am ar).2.1),
   vD.read (Elt F) (vD.writes (Elt F) vD.junk (lastRun V c t h0 h15 am ar).2.2.1),
   accMv.read (Elt F) (accMv.writes (Elt F) accMv.junk (lastRun V c t h0 h15 am ar).2.2.2.1),
   accRv.read (Elt F) (accRv.writes (Elt F) accRv.junk (lastRun V c t h0 h15 am ar).2.2.2.2.1))

/-- THE ACCUMULATION, by recursion on the point: a first tile starts over; any other tile continues from the accumulators
    the point before left. -/
def heldAfter (c : Dev nD) : (n : ℕ) → n < cfg0.N → Held F
  | 0, hn => atFirst V c ⟨0, hn⟩ (Nat.zero_mod 16)
  | n + 1, hn =>
    if h0 : (n + 1) % 16 = 0 then atFirst V c ⟨n + 1, hn⟩ h0
    else if h15 : (n + 1) % 16 = 15 then
      atLast V c ⟨n + 1, hn⟩ h0 h15 (heldAfter c n (Nat.lt_of_succ_lt hn)).2.2.2.1 (heldAfter c n (Nat.lt_of_succ_lt hn)).2.2.2.2
    else
      atMid V c ⟨n + 1, hn⟩ h0 h15 (heldAfter c n (Nat.lt_of_succ_lt hn)).2.2.2.1 (heldAfter c n (Nat.lt_of_succ_lt hn)).2.2.2.2

theorem heldAfter_first (c : Dev nD) (t : Fin cfg0.N) (h : t.val % 16 = 0) : heldAfter V c t.val t.isLt = atFirst V c t h := by
  obtain ⟨n, hn⟩ := t
  cases n with
  | zero => rfl
  | succ n => exact dif_pos h
theorem heldAfter_mid (c : Dev nD) (t : Fin cfg0.N) (h0 : ¬t.val % 16 = 0) (h15 : ¬t.val % 16 = 15) :
    heldAfter V c t.val t.isLt = atMid V c t h0 h15 (heldAfter V c (t.val - 1) (Nat.lt_of_le_of_lt (Nat.sub_le _ _) t.isLt)).2.2.2.1
      (heldAfter V c (t.val - 1) (Nat.lt_of_le_of_lt (Nat.sub_le _ _) t.isLt)).2.2.2.2 := by
  obtain ⟨n, hn⟩ := t
  cases n with
  | zero => exact absurd (Nat.zero_mod 16) h0
  | succ n => exact (dif_neg h0).trans ((dif_neg h15).trans rfl)
theorem heldAfter_last (c : Dev nD) (t : Fin cfg0.N) (h0 : ¬t.val % 16 = 0) (h15 : t.val % 16 = 15) :
    heldAfter V c t.val t.isLt = atLast V c t h0 h15 (heldAfter V c (t.val - 1) (Nat.lt_of_le_of_lt (Nat.sub_le _ _) t.isLt)).2.2.2.1
      (heldAfter V c (t.val - 1) (Nat.lt_of_le_of_lt (Nat.sub_le _ _) t.isLt)).2.2.2.2 := by
  obtain ⟨n, hn⟩ := t
  cases n with
  | zero => exact absurd (Nat.zero_mod 16) h0
  | succ n => exact (dif_neg h0).trans ((dif_pos h15).trans rfl)

/-! ## The invariant between points -/

/-- Before the first point: what the pipeline hands over (both accumulators at anything).  After point n: the accumulators
    at what point n left, the other call's buffers and the generator register riding along. -/
def between (c : Dev nD) : (n : ℕ) → n ≤ cfg0.N → sProp 𝕄
  | 0, _ => Pipeline.ΦA spec0 c
  | n + 1, hn => iprop(iprop(owns (c : Thread nD τ) accM fullShare (heldAfter V c n hn).2.2.2.1
      ∗ owns (c : Thread nD τ) accR fullShare (heldAfter V c n hn).2.2.2.2 ∗ elsewhere c) ∗ (∃ r, prngReg c r))

theorem between_zero (c : Dev nD) (n : ℕ) (h : n ≤ cfg0.N) (hz : n = 0) : between V c n h = Pipeline.ΦA spec0 c := by
  subst hz; rfl
theorem between_succ (c : Dev nD) (n : ℕ) (hn : n < cfg0.N) :
    between V c (n + 1) hn = iprop(iprop(owns (c : Thread nD τ) accM fullShare (heldAfter V c n hn).2.2.2.1
      ∗ owns (c : Thread nD τ) accR fullShare (heldAfter V c n hn).2.2.2.2 ∗ elsewhere c) ∗ (∃ r, prngReg c r)) := rfl
theorem between_pos (c : Dev nD) (n : ℕ) (h : n ≤ cfg0.N) (hz : n ≠ 0) :
    between V c n h = iprop(iprop(owns (c : Thread nD τ) accM fullShare (heldAfter V c (n - 1) (by omega)).2.2.2.1
      ∗ owns (c : Thread nD τ) accR fullShare (heldAfter V c (n - 1) (by omega)).2.2.2.2 ∗ elsewhere c) ∗ (∃ r, prngReg c r)) := by
  cases n with
  | zero => exact absurd rfl hz
  | succ n => rfl

/-! ## The proof data -/

/-- The arrays as the call finds them; after the body each input's buffer at its block and the written buffers at
    heldAfter's components; the invariant between; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => (heldAfter V c t.val t.isLt).1
    | ⟨5, _⟩ => (heldAfter V c t.val t.isLt).2.1
    | ⟨6, _⟩ => (heldAfter V c t.val t.isLt).2.2.1
  Φ t := between V c t.val (Nat.le_of_lt_succ t.isLt)
  q _ := fullShare
  owed _ := 0

theorem A_eq0 (c : Dev nD) (w : Fin cfg0.W) : (dat0 V c).A w = V c (Pipeline.arrRef spec0 w) := by dsimp only [dat0]
theorem Phi_at (c : Dev nD) (t : Fin cfg0.N) : (dat0 V c).Φ t.castSucc = between V c t.val (Nat.le_of_lt t.isLt) := by
  dsimp only [dat0]; simp only [Fin.coe_castSucc]
theorem after0_x (c : Dev nD) (t : Fin cfg0.N) : (dat0 V c).after 0 t = blk0 V c 0 t := by dsimp only [dat0]
theorem after0_wq (c : Dev nD) (t : Fin cfg0.N) : (dat0 V c).after 1 t = blk0 V c 1 t := by dsimp only [dat0]
theorem after0_wk (c : Dev nD) (t : Fin cfg0.N) : (dat0 V c).after 2 t = blk0 V c 2 t := by dsimp only [dat0]
theorem after0_wv (c : Dev nD) (t : Fin cfg0.N) : (dat0 V c).after 3 t = blk0 V c 3 t := by dsimp only [dat0]
theorem after0_q (c : Dev nD) (t : Fin cfg0.N) : (dat0 V c).after 4 t = (heldAfter V c t.val t.isLt).1 := by dsimp only [dat0]
theorem after0_n (c : Dev nD) (t : Fin cfg0.N) : (dat0 V c).after 5 t = (heldAfter V c t.val t.isLt).2.1 := by dsimp only [dat0]
theorem after0_d (c : Dev nD) (t : Fin cfg0.N) : (dat0 V c).after 6 t = (heldAfter V c t.val t.isLt).2.2.1 := by dsimp only [dat0]

theorem before0_x (c : Dev nD) (t : Fin cfg0.N) (d) : (dat0 V c).before 0 t d = blk0 V c 0 t := found_x V (dat0 V c) (A_eq0 V c 0) (after0_x V c) t d
theorem before0_wq (c : Dev nD) (t : Fin cfg0.N) (d) : (dat0 V c).before 1 t d = blk0 V c 1 t := found_wq V (dat0 V c) (A_eq0 V c 1) (after0_wq V c) t d
theorem before0_wk (c : Dev nD) (t : Fin cfg0.N) (d) : (dat0 V c).before 2 t d = blk0 V c 2 t := found_wk V (dat0 V c) (A_eq0 V c 2) (after0_wk V c) t d
theorem before0_wv (c : Dev nD) (t : Fin cfg0.N) (d) : (dat0 V c).before 3 t d = blk0 V c 3 t := found_wv V (dat0 V c) (A_eq0 V c 3) (after0_wv V c) t d

end

end Cert.KernelIdeal.Frm

end
-- ==== Proof.KI.StatsBody.lean ====
/-
  The statistics call's body obligation: at every grid point, from the invariant and each window's current buffer at what it
  then holds, the body runs to the invariant at the next point and each buffer at what the proof data says it leaves; and
  how the invariant is entered from, and gives back, what the pipeline hands a call.
-/
import proofs.«176170_j9431748182266_1_alg».proof.Proof.KI.Stats

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the pipeline hands the call is the invariant before the first point. -/
theorem enter0 (c : Dev nD) : Pipeline.ΦA spec0 c ⊢ (dat0 V c).Φ 0 := by
  rw [show (dat0 V c).Φ 0 = between V c 0 (Nat.zero_le _) from rfl, between_zero V c 0 _ rfl]
  try exact Idealize.SL.BI.Entails.refl _

/-- After any point the invariant gives that back: what the accumulators hold is forgotten. -/
theorem forget0 (c : Dev nD) (t : Fin (cfg0.N + 1)) (ht : t.val ≠ 0) : (dat0 V c).Φ t ⊢ Pipeline.ΦA spec0 c := by
  rw [show (dat0 V c).Φ t = between V c t.val (Nat.le_of_lt_succ t.isLt) from rfl, between_pos V c _ _ ht, scoped_open]
  iintro ⟨⟨HM, HR, He⟩, Hg⟩
  isplitl [HM HR He]
  · isplitl [HM]; · iexists _; iexact HM
    isplitl [HR]; · iexists _; iexact HR
    iexact He
  iexact Hg

/-- In particular after the last point. -/
theorem leave0 (c : Dev nD) : (dat0 V c).Φ (Fin.last cfg0.N) ⊢ Pipeline.ΦA spec0 c :=
  forget0 V c _ (by rw [Fin.val_last]; have : cfg0.N = 128 := N_0; omega)

/-- What the body is called with at point t: the invariant, what the core owes (nothing), and each window's current buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (bX t) fullShare ((dat0 V c).before 0 t d))
    ∗ (∃ d, owns (c : Thread nD τ) (bWq t) fullShare ((dat0 V c).before 1 t d))
    ∗ (∃ d, owns (c : Thread nD τ) (bWk t) fullShare ((dat0 V c).before 2 t d))
    ∗ (∃ d, owns (c : Thread nD τ) (bWv t) fullShare ((dat0 V c).before 3 t d))
    ∗ (∃ d, owns (c : Thread nD τ) (bQ t) fullShare ((dat0 V c).before 4 t d))
    ∗ (∃ d, owns (c : Thread nD τ) (bNum t) fullShare ((dat0 V c).before 5 t d))
    ∗ (∃ d, owns (c : Thread nD τ) (bDen t) fullShare ((dat0 V c).before 6 t d)))

/-- And what it returns: the invariant at the next point, and each buffer at what the body leaves there. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t)

/-- The four inputs are left in place and the tile of queries is stored at every point. -/
theorem leaves_x (c : Dev nD) (t : Fin cfg0.N) : (dat0 V c).leavesExact 0 t = owns (c : Thread nD τ) (bX t) fullShare (blk0 V c 0 t) := by
  unfold Dat.leavesExact; rw [after0_x]
theorem leaves_wq (c : Dev nD) (t : Fin cfg0.N) : (dat0 V c).leavesExact 1 t = owns (c : Thread nD τ) (bWq t) fullShare (blk0 V c 1 t) := by
  unfold Dat.leavesExact; rw [after0_wq]
theorem leaves_wk (c : Dev nD) (t : Fin cfg0.N) : (dat0 V c).leavesExact 2 t = owns (c : Thread nD τ) (bWk t) fullShare (blk0 V c 2 t) := by
  unfold Dat.leavesExact; rw [after0_wk]
theorem leaves_wv (c : Dev nD) (t : Fin cfg0.N) : (dat0 V c).leavesExact 3 t = owns (c : Thread nD τ) (bWv t) fullShare (blk0 V c 3 t) := by
  unfold Dat.leavesExact; rw [after0_wv]
theorem leaves_q (c : Dev nD) (t : Fin cfg0.N) : (dat0 V c).leavesExact 4 t = owns (c : Thread nD τ) (bQ t) fullShare (heldAfter V c t.val t.isLt).1 := by
  unfold Dat.leavesExact; rw [after0_q]
/-- At a last tile the two output blocks are stored too. -/
theorem leaves_n (c : Dev nD) (t : Fin cfg0.N) (h : atLastTile (grid0.coords t)) :
    (dat0 V c).leavesExact 5 t = owns (c : Thread nD τ) (bNum t) fullShare (heldAfter V c t.val t.isLt).2.1 := by
  unfold Dat.leavesExact; rw [num_live t h, after0_n]
theorem leaves_d (c : Dev nD) (t : Fin cfg0.N) (h : atLastTile (grid0.coords t)) :
    (dat0 V c).leavesExact 6 t = owns (c : Thread nD τ) (bDen t) fullShare (heldAfter V c t.val t.isLt).2.2.1 := by
  unfold Dat.leavesExact; rw [den_live t h, after0_d]

set_option maxHeartbeats 4800000 in
/-- The body at any point.  The inputs' buffers hold their blocks; the point's number modulo 16 says which case it is in; the
    invariant hands the body the accumulators at what the point before left (at anything before the first point) and takes
    them back at this point's contents, each written buffer read back through the cover of its stores; the two output
    blocks are handed back as found away from a last tile; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_x, before0_wq, before0_wk, before0_wv]
  rw [show (dat0 V c).owesAt () t.succ = (dat0 V c).owesAt () t.castSucc from rfl]
  rw [show (dat0 V c).Φ t.succ = between V c (t.val + 1) t.isLt from rfl, between_succ]
  rw [leaves_x, leaves_wq, leaves_wk, leaves_wv, leaves_q]
  have hN : t.val < 128 := lt_of_lt_of_eq t.isLt (show cfg0.N = 128 from N_0)
  by_cases h0 : t.val % 16 = 0
  · -- a first tile: the accumulators restart
    have hl := notLast_of_first t h0
    rw [Dat.leavesExact_idle (dat0 V c) 5 t (num_idle t hl) (num_kept t hl), Dat.leavesExact_idle (dat0 V c) 6 t (den_idle t hl) (den_kept t hl)]
    rw [heldAfter_first V c t h0]
    unfold atFirst; (try dsimp only)
    by_cases hz : t.val = 0
    · rw [Phi_at V c t, between_zero V c _ _ hz, scoped_open]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun V c t h0).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HR]; · iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (firstM_cover V c t h0)
          isplitl [HR]
          · unfold owns; iexists _; isplitr
            swap; · iexact HR
            ipureintro; exact View.read_writes_of_cover _ _ _ _ _ (firstR_cover V c t h0)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (firstQ_cover V c t h0)
      isplitl [H5]; · iexists _; iexact H5
      iexists _; iexact H6
    · rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((firstRun V c t h0).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexists _; iexact HM
      isplitl [HR]; · iexists _; iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (firstM_cover V c t h0)
          isplitl [HR]
          · unfold owns; iexists _; isplitr
            swap; · iexact HR
            ipureintro; exact View.read_writes_of_cover _ _ _ _ _ (firstR_cover V c t h0)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (firstQ_cover V c t h0)
      isplitl [H5]; · iexists _; iexact H5
      iexists _; iexact H6
  · have hz : t.val ≠ 0 := fun h => h0 (by rw [h])
    by_cases h15 : t.val % 16 = 15
    · -- a last tile: the accumulators are added to and copied out
      have hl := last_of t h15
      rw [leaves_n V c t hl, leaves_d V c t hl]
      rw [heldAfter_last V c t h0 h15]
      unfold atLast; (try dsimp only)
      rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((lastRun V c t h0 h15 _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HM]; · iexact HM
      isplitl [HR]; · iexact HR
      iintro ⟨H0, H1, H2, H3, ⟨%e4, H4⟩, ⟨%e5, H5⟩, ⟨%e6, H6⟩, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (lastM_cover V c t h0 h15 _ _)
          isplitl [HR]
          · unfold owns; iexists _; isplitr
            swap; · iexact HR
            ipureintro; exact View.read_writes_of_cover _ _ _ _ _ (lastR_cover V c t h0 h15 _ _)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (lastQ_cover V c t h0 h15 _ _)
      isplitl [H5]
      · unfold owns; iexists _; isplitr
        swap; · iexact H5
        ipureintro; exact View.read_writes_of_cover _ _ _ _ _ (lastN_cover V c t h0 h15 _ _)
      unfold owns; iexists _; isplitr
      swap; · iexact H6
      ipureintro; exact View.read_writes_of_cover _ _ _ _ _ (lastD_cover V c t h0 h15 _ _)
    · -- a tile neither first nor last: the accumulators are added to
      have hl := notLast_of t h15
      rw [Dat.leavesExact_idle (dat0 V c) 5 t (num_idle t hl) (num_kept t hl), Dat.leavesExact_idle (dat0 V c) 6 t (den_idle t hl) (den_kept t hl)]
      rw [heldAfter_mid V c t h0 h15]
      unfold atMid; (try dsimp only)
      rw [Phi_at V c t, between_pos V c _ _ hz]
      iintro ⟨⟨⟨HM, HR, He⟩, Hg⟩, Ho, ⟨%d0, H0⟩, ⟨%d1, H1⟩, ⟨%d2, H2⟩, ⟨%d3, H3⟩, ⟨%d4, H4⟩, ⟨%d5, H5⟩, ⟨%d6, H6⟩⟩
      iapply ((midRun V c t h0 h15 _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HM]; · iexact HM
      isplitl [HR]; · iexact HR
      iintro ⟨H0, H1, H2, H3, ⟨%e4, H4⟩, H5, H6, ⟨%eM, HM⟩, ⟨%eR, HR⟩⟩
      isplitl [HM HR He Hg]
      · isplitl [HM HR He]
        · isplitl [HM]
          · unfold owns; iexists _; isplitr
            swap; · iexact HM
            ipureintro; exact View.read_writes_of_cover _ _ _ _ _ (midM_cover V c t h0 h15 _ _)
          isplitl [HR]
          · unfold owns; iexists _; isplitr
            swap; · iexact HR
            ipureintro; exact View.read_writes_of_cover _ _ _ _ _ (midR_cover V c t h0 h15 _ _)
          iexact He
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (midQ_cover V c t h0 h15 _ _)
      isplitl [H5]; · iexists _; iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Frm

end
-- ==== Proof.KI.OutKernel.lean ====
import proofs.«176170_j9431748182266_1_alg».proof.Proof.Gen.KernelIdeal.Launch
import proofs.«176170_j9431748182266_1_alg».proof.Proof.Gen.KernelIdeal.Skeleton
import proofs.«176170_j9431748182266_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-!
# The output kernel of the linear-attention program, one grid point at a time

The program's second kernel call walks a grid of 8 × 8 points (batch entry, query tile).  At a point it is
handed three input blocks: the 1024 × 1024 numerator matrix of the batch entry, the 1 × 1024 row of
denominators of the batch entry, and a 512 × 1024 tile of queries.  It writes ONE block of the result,
the 1024 × 512 tile

    (numerator / (denominator + ε)) · queriesᵀ ,

the division taken column by column (the denominator row is broadcast down the rows), the product a
contraction over the shared axis of length 1024.  Nothing else is touched: no scratch, no branch on the
grid position, and the old contents of the result block are read but never used.

This module records, for ANY contents \`V\` of the buffers on entry to the region, what each window's
staging buffer holds around the body at each grid point, and proves that the body keeps that promise.
It is generic in the number format.
-/

-- membership of an index in a whole-block rectangle recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the buffer contents on entry to the region; everything below is a function of them
variable (V : (c : Dev nD) → (b : Ref sig .tc) → Buf (Elt F) ((c : Thread nD τ).loc b))

/-! ## The blocks the windows select -/

/-- The block of window \`w\` at grid point \`t\`: the part of the window's array, as found on entry, that the
    window's index map selects at \`t\`. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The numerator window is refetched only when the batch entry changes (every eighth point); in between its
    index does not move, so the buffer still holds the block of the CURRENT point.  Hence at every point the
    body finds the current numerator block, for any proof data over the entry contents that leaves the block in
    place. -/
theorem num_block_held_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the denominator row, which moves with the batch entry too. -/
theorem den_block_held_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- And for the query tile, which is fetched afresh at every point. -/
theorem qry_block_held_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## The rectangles the body reads and writes through: each is its whole block -/

abbrev outK_rNum : Rect S1x1024x1024 := Rect.unit (s := S1x1024x1024) ![0, 0, 0] S1x1024x1024.size inb_S1x1024x1024_S1x1024x1024_0_0_0
abbrev outK_rDen : Rect S1x1x1024 := Rect.unit (s := S1x1x1024) ![0, 0, 0] S1x1x1024.size inb_S1x1x1024_S1x1x1024_0_0_0
abbrev outK_rQry : Rect S1x512x1024 := Rect.unit (s := S1x512x1024) ![0, 0, 0] S1x512x1024.size inb_S1x512x1024_S1x512x1024_0_0_0
abbrev outK_rOut : Rect S1x1024x512 := Rect.unit (s := S1x1024x512) ![0, 0, 0] S1x1024x512.size inb_S1x1024x512_S1x1024x512_0_0_0

/-! ## What the body leaves in the result block -/

/-- The result block after the body, as a function of the three input blocks: the body's single store, of the
    quotient-times-queries payload of what its three loads read, laid over whatever the block held. -/
def outTile (x0 : Vec F S1x1024x1024 .f32) (x1 : Vec F S1x1x1024 .f32) (x2 : Vec F S1x512x1024 .bf16) : Vec F S1x1024x512 .f32 :=
  View.canon [⟨outK_rOut, Gen.k1_pay1 (View.ld x0 outK_rNum) (View.ld x1 outK_rDen) (View.ld x2 outK_rQry)⟩]

/-- The store's rectangle is the whole block, so it covers every index of it. -/
theorem outTile_cover (p : Vec F S1x1024x512 .f32) (y : S1x1024x512.Idx) :
    ∃ pc ∈ ([⟨outK_rOut, p⟩] : List (View.Piece (Elt F) S1x1024x512 .f32)), y ∈ pc.1.set :=
  View.cover_of_tiled [⟨outK_rOut, p⟩] S1x1024x512.size (by rfl) y

/-- All three offsets are zero. -/
theorem outK_offsets_zero : (![0, 0, 0] : Fin 3 → Nat) = fun _ => 0 := funext fun a => by fin_cases a <;> rfl

/-- A whole-block store leaves exactly its payload and a whole-block load reads exactly the contents: the result
    block is the payload of the three input blocks themselves. -/
theorem outTile_eq (x0 : Vec F S1x1024x1024 .f32) (x1 : Vec F S1x1x1024 .f32) (x2 : Vec F S1x512x1024 .bf16) :
    outTile x0 x1 x2 = Gen.k1_pay1 x0 x1 x2 := by
  unfold outTile
  rw [View.canon_unit_zero outK_offsets_zero]
  rw [View.ld_unit_zero (S := S1x1024x1024) outK_offsets_zero, View.ld_unit_zero (S := S1x1x1024) outK_offsets_zero,
    View.ld_unit_zero (S := S1x512x1024) outK_offsets_zero]

/-! ## The body's triple -/

set_option maxHeartbeats 1000000 in
/-- The body, run on whole staging buffers: the three inputs at contents \`x0\`, \`x1\`, \`x2\` and the result block at
    anything.  It ends with the inputs as they were and the result block at \`outTile x0 x1 x2\`. -/
theorem outK_triple (c : Dev nD) (E : Set ℕ) (i : grid1.Coords)
    (arg2 : Memref sig .tc .vmem S1x1024x1024 .f32) (harg2 : arg2.IsWhole)
    (arg3 : Memref sig .tc .vmem S1x1x1024 .f32) (harg3 : arg3.IsWhole)
    (arg4 : Memref sig .tc .vmem S1x512x1024 .bf16) (harg4 : arg4.IsWhole)
    (arg5 : Memref sig .tc .vmem S1x1024x512 .f32) (harg5 : arg5.IsWhole)
    (x0 : Vec F S1x1024x1024 .f32) (x1 : Vec F S1x1x1024 .f32) (x2 : Vec F S1x512x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (outTile x0 x1 x2)) -∗ K ⟨⟩))
      ⊢ wp frame (wpE (defs₀ (F := F)) Variants.none c none) E (cc1__output_kernel i arg2 harg2 arg3 harg3 arg4 harg4 arg5 harg5) K := by
  simp only [cc1__output_kernel_eq_skeleton]; unfold cc1__output_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

/-! ## The proof data of the pipeline -/

/-- The proof data on core \`c\`: the arrays are the entry contents; after the body at point \`t\` each input's buffer
    still holds its block and the result's buffer holds \`outTile\` of the three input blocks; the invariant is
    "everything the region does not stage is untouched"; nothing is owed; every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outTile (blk1 V c 0 t) (blk1 V c 1 t) (blk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) :
    (dat1 V c).after 3 t = outTile (blk1 V c 0 t) (blk1 V c 1 t) (blk1 V c 2 t) := by dsimp only [dat1]

/-- What the body finds in each input's buffer: the block of the current point. -/
theorem num_block_held (c : Dev nD) (t : Fin cfg1.N) (d) : (dat1 V c).before 0 t d = blk1 V c 0 t :=
  num_block_held_of V (dat1 V c) (A_eq1 V c 0) (after1_0 V c) t d
theorem den_block_held (c : Dev nD) (t : Fin cfg1.N) (d) : (dat1 V c).before 1 t d = blk1 V c 1 t :=
  den_block_held_of V (dat1 V c) (A_eq1 V c 1) (after1_1 V c) t d
theorem qry_block_held (c : Dev nD) (t : Fin cfg1.N) (d) : (dat1 V c).before 2 t d = blk1 V c 2 t :=
  qry_block_held_of V (dat1 V c) (A_eq1 V c 2) (after1_2 V c) t d

/-! ## The body obligation, at a generic point -/

/-- What the body is called with at point \`t\`: the invariant, what the core owes, and the four current staging
    buffers at what the pipeline left in them, -/
def outK_pre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def outK_post (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their current blocks, so the body's triple applies; the
    invariant and the debt pass through unread. -/
theorem outK_body (c : Dev nD) (t : Fin cfg1.N) :
    outK_pre V c t ⊢ wp frame (wpE (defs₀ (F := F)) Variants.none c none) Set.univ (bodyAt1 t) (fun _ => outK_post V c t) := by
  unfold outK_pre outK_post bodyAt1
  simp only [num_block_held, den_block_held, qry_block_held]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (outK_triple c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact outK_body V c t

end Region

end Cert.KernelIdeal.Frm

end
-- ==== Proof.KI.Whole.lean ====
import proofs.«176170_j9431748182266_1_alg».proof.Proof.KI.StatsBody
import proofs.«176170_j9431748182266_1_alg».proof.Proof.KI.OutKernel
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The whole program: three conversions, the statistics call, the output call

The program converts the three weight matrices to half precision, runs the statistics call over them and the
input (leaving the query tiles, the numerator matrices and the denominator rows), and then runs the output call
over those three, leaving the result array.  This module follows the contents of every buffer through those three
steps as a chain of four valuations, starting from the launch memory:

* at launch;
* after the conversions (only the three converted matrices differ);
* after the statistics call (only its three result arrays differ: each holds what the call's write-backs leave);
* after the output call (only the result array differs).

From the two calls' body obligations it proves that the program terminates without a fault and ends with every buffer
at the last valuation; reading that valuation back gives the four argument arrays unchanged and the result array
as the output call's write-backs leave it.  It is generic in the number format.
-/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each step -/

/-- A core's buffers at launch. -/
abbrev W0 : Dev nD → Valuation τ sig (Elt F) := fun c b => (s₀ m ρ).mem ((c : Dev nD), b)
/-- After the three conversions: what the statistics call is entered with. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the statistics call: each of its arrays at what its write-backs leave (an input: as entered), every other
    buffer as entered.  This is what the output call is entered with. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the core's own references. -/
abbrev V2 : (c : Dev nD) → (b : Ref sig .tc) → Buf (Elt F) ((c : Thread nD τ).loc b) := fun c b => W2 m ρ c b
/-- The two facts that put the statistics call's arrays back among the other buffers at its exit. -/
theorem stats_arrays_left (c : Dev nD) (w : Fin cfg0.W) : (dat0 (V1 m ρ) c).arrAt w cfg0.N = V2 m ρ c (Pipeline.arrRef spec0 w) :=
  (W2_arr m ρ c w).symm
theorem stats_rest_kept (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the output call: each of its arrays at what its write-backs leave, every other buffer as entered.  This is
    what the program ends with. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the core's own references. -/
abbrev V3 : (c : Dev nD) → (b : Ref sig .tc) → Buf (Elt F) ((c : Thread nD τ).loc b) := fun c b => W3 m ρ c b
theorem out_arrays_left (c : Dev nD) (w : Fin cfg1.W) : (dat1 (V2 m ρ) c).arrAt w cfg1.N = V3 m ρ c (Pipeline.arrRef spec1 w) :=
  (W3_arr m ρ c w).symm
theorem out_rest_kept (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## Reading the chain back -/

/-- The conversions write only the three converted matrices: any other buffer is as launched. -/
theorem W1_of_not_converted (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The input array is only read (it is the statistics call's first window, an input; the output call does not see
    it): it ends as launched. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of_not_converted m ρ c main_arg0 (by decide) (by decide) (by decide)
    _ = m ((c : Thread nD τ).loc main_arg0) := rfl

/-- The three weight matrices are read by the conversions only; neither call has them as a window. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of_not_converted m ρ c main_arg1 (by decide) (by decide) (by decide)
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_not_converted m ρ c main_arg2 (by decide) (by decide) (by decide)
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of_not_converted m ρ c main_arg3 (by decide) (by decide) (by decide)
    _ = m ((c : Thread nD τ).loc main_arg3) := rfl

/-- The result array ends at what the output call's write-backs leave in its fourth window. -/
theorem W3_result (c : Dev nD) : W3 m ρ c (Proc.devRef .tc main_v4) = (dat1 (V2 m ρ) c).arrAt 3 cfg1.N :=
  W3_arr m ρ c 3

/-- What the output call finds in its three inputs: what the statistics call's write-backs left in its sixth, seventh
    and fifth windows (numerators, denominators, query tiles). -/
theorem V2_num (c : Dev nD) : V2 m ρ c main_v3_1 = (dat0 (V1 m ρ) c).arrAt 5 cfg0.N := W2_arr m ρ c 5
theorem V2_den (c : Dev nD) : V2 m ρ c main_v3_2 = (dat0 (V1 m ρ) c).arrAt 6 cfg0.N := W2_arr m ρ c 6
theorem V2_q (c : Dev nD) : V2 m ρ c main_v3_0 = (dat0 (V1 m ρ) c).arrAt 4 cfg0.N := W2_arr m ρ c 4

/-- What the statistics call finds: the input as launched, -/
theorem V1_x (c : Dev nD) : V1 m ρ c main_arg0 = m ((c : Thread nD τ).loc main_arg0) :=
  (W1_of_not_converted m ρ c main_arg0 (by decide) (by decide) (by decide)).trans rfl

/-- and each weight matrix converted to half precision. -/
theorem V1_wq (c : Dev nD) : V1 m ρ c main_v0 = truncf .bf16 (m ((c : Thread nD τ).loc main_arg1)) bitsLt_bf16_f32 := by
  show StableHlo.after hostOps0 (W0 m ρ c) (Proc.devRef .tc main_v0) = _
  dsimp only [hostOps0]
  after_results
theorem V1_wk (c : Dev nD) : V1 m ρ c main_v1 = truncf .bf16 (m ((c : Thread nD τ).loc main_arg2)) bitsLt_bf16_f32 := by
  show StableHlo.after hostOps0 (W0 m ρ c) (Proc.devRef .tc main_v1) = _
  dsimp only [hostOps0]
  after_results
theorem V1_wv (c : Dev nD) : V1 m ρ c main_v2 = truncf .bf16 (m ((c : Thread nD τ).loc main_arg3)) bitsLt_bf16_f32 := by
  show StableHlo.after hostOps0 (W0 m ρ c) (Proc.devRef .tc main_v2) = _
  dsimp only [hostOps0]
  after_results

/-! ## The proof data of the two calls and the state that rides between them -/

/-- Neither call has a prefetched table. -/
abbrev noTables : (p : Fin 2) → (pcfgs (F := F) p).Adm := fun p => (cfgs p).toPCfg_adm
/-- The proof data of each call, at the contents it is entered with. -/
def pdats : (p : Fin 2) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
/-- No core ever owes another anything, so no level is assigned. -/
abbrev noLevels : GSem nD τ sig → Finset Unit := fun _ => ∅
abbrev levelZero : GSem nD τ sig → Unit → ℕ := fun _ _ => 0
/-- What a core holds beside its buffers from one step to the next: its generator register, at some state, and the
    record that it owes nothing. -/
abbrev riders (c : Dev nD) : sProp 𝕄 := iprop((∃ r, prngReg c r) ∗ ∃ W, owes (c : Thread nD τ) (0 : CellTallies nD τ sig Unit) W)
/-- The conversions as one step from the contents \`W\`. -/
abbrev hostStep (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLevels levelZero :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riders

/-- No conversion allocates a buffer. -/
theorem conversions_fresh : (hostOps0 : List (HloOp τ sig (Elt F))).Forall fun op => op.fresh = ∅ := by
  simp only [List.Forall]; repeat' constructor
/-- A reference of the core that is not scoped to a call is among those the state between steps holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the record of debts: every unscoped buffer at the last contents, the generator register
    at some state. -/
abbrev endState (c : Dev nD) : sProp 𝕄 := iprop(StableHlo.held (c : Thread nD τ) (Pipeline.ucRefs τ sig) (W3 m ρ c) ∗ ∃ r, prngReg c r)

/-! ## The two calls as steps -/

set_option backward.isDefEq.respectTransparency.types false in
/-- The statistics call: entered with every unscoped buffer at \`W1\`, left with them at \`W2\`.  Its arrays are split
    out of the unscoped buffers on entry and put back, at what the write-backs left, on exit; the generator register
    goes into the call's invariant and comes back; nothing is owed.  Its invariant between points also holds the two
    accumulators, which it takes from, and gives back to, the buffers scoped to the call. -/
def reg0 : Pipeline.RegionSeg (pcfgs (F := F)) noTables (pdats m ρ) () defs₀ Variants.none noLevels levelZero 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLevels levelZero 0 fun _ _ => rfl
  pre c := iprop(StableHlo.held (c : Thread nD τ) (Pipeline.ucRefs τ sig) (W1 m ρ c) ∗ riders c)
  post c := iprop(StableHlo.held (c : Thread nD τ) (Pipeline.ucRefs τ sig) (W2 m ρ c) ∗ riders c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V1 m ρ) c)
    unfold Pipeline.ΦA
    iintro ⟨Hp, -, Hr⟩
    isplitl [Hr]; · iexact Hr
    iexact Hp
  hout c := by
    rw [Pipeline.ownSems0_none]
    refine BIBase.Entails.trans (leave0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (stats_arrays_left m ρ c) (stats_rest_kept m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output call: entered with every unscoped buffer at \`W2\`, left with them at \`W3\`, which is what the program
    ends with.  Its invariant is only "what the call does not stage is untouched, and the generator register". -/
def reg1 : Pipeline.RegionSeg (pcfgs (F := F)) noTables (pdats m ρ) () defs₀ Variants.none noLevels levelZero 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ noLevels levelZero 1 fun _ _ => rfl
  pre c := iprop(StableHlo.held (c : Thread nD τ) (Pipeline.ucRefs τ sig) (W2 m ρ c) ∗ riders c)
  post c := iprop(endState m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (out_arrays_left m ρ c) (out_rest_kept m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its three steps, and its run -/

/-- The program's steps in order: the conversions from the launch contents, then the two calls. -/
abbrev segs : List (Pipeline.Seg (pcfgs (F := F)) noTables (pdats m ρ) () defs₀ Variants.none noLevels levelZero) :=
  [ .host (hostStep hostOps0 hostOps0_sub conversions_fresh (W0 m ρ)),
    .region (reg0 m ρ),
    .region (reg1 m ρ) ]
/-- The program is the run of its steps. -/
theorem main_run (c : Dev nD) : main (F := F) c = Pipeline.Seg.run (segs m ρ) := (main_chain c).trans (by chain_rfl)

set_option backward.isDefEq.respectTransparency.types false in
/-- From any memory with every counter at zero, every weakly fair execution of the program on the cores terminates
    without a fault, and in every final state each core's unscoped buffers hold the last contents \`W3\`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W3 m ρ c b) :=
  Pipeline.θ_run_regions_kit (pcfgs (F := F)) noTables (pdats m ρ) () cellOf_inj emb₁ defs₀ Variants.none noLevels levelZero m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riders c)) (Tₙ := endState m ρ)
    (hch := ⟨fun _ => .rfl, fun _ => .rfl, fun _ => .rfl, fun _ => .rfl⟩)
    (hinit := by
      refine Pipeline.initEach noLevels levelZero fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the program runs, and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_unscoped main_arg0 (by decide))).trans (W3_main_arg0 m ρ c),
     (h c _ (mem_unscoped main_arg1 (by decide))).trans (W3_main_arg1 m ρ c),
     (h c _ (mem_unscoped main_arg2 (by decide))).trans (W3_main_arg2 m ρ c),
     (h c _ (mem_unscoped main_arg3 (by decide))).trans (W3_main_arg3 m ρ c)⟩) (run_all m ρ)

/-- The run with the result named: the result array ends at what the output call's write-backs leave, and the four
    argument arrays end as launched. -/
theorem run_result : θ_run defs (onTc (τ := τ) (main (F := F))) ⟨m, fun _ => 0, ρ⟩ (fun r => ∀ c : Dev nD,
      r.2.mem ((c.tc : Thread nD τ).loc main_v4) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_unscoped main_v4 (by decide))).trans (W3_result m ρ c),
     (h c _ (mem_unscoped main_arg0 (by decide))).trans (W3_main_arg0 m ρ c),
     (h c _ (mem_unscoped main_arg1 (by decide))).trans (W3_main_arg1 m ρ c),
     (h c _ (mem_unscoped main_arg2 (by decide))).trans (W3_main_arg2 m ρ c),
     (h c _ (mem_unscoped main_arg3 (by decide))).trans (W3_main_arg3 m ρ c)⟩) (run_all m ρ)

end Cert.KernelIdeal.Frm

end
-- ==== Proof.KI.StatsOpen.lean ====
/-
  What the statistics body's stores leave, as the body's own arithmetic.

  Every store of the body rewrites a whole buffer, so a written buffer ends holding the payload of its last store; that
  payload is the body's pure arithmetic (the skeleton's payload functions) of the values its loads read: an input's buffer
  reads as the input's block; an accumulator read straight after the clearing store reads as zero, otherwise as what the
  point before left; an accumulator read after the adding store reads as the sum just stored.
-/
import proofs.«176170_j9431748182266_1_alg».proof.Proof.KI.Stats
import Idealize.ShloMosaic.Lib.Pipeline.Value

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, in the two ranks that occur. -/
theorem off2 : (![0, 0] : Fin 2 → ℕ) = fun _ => 0 := by funext a; match a with | ⟨0, _⟩ => rfl | ⟨1, _⟩ => rfl
theorem off3 : (![0, 0, 0] : Fin 3 → ℕ) = fun _ => 0 := by funext a; match a with | ⟨0, _⟩ => rfl | ⟨1, _⟩ => rfl | ⟨2, _⟩ => rfl

section
variable (V : (c : Dev nD) → (b : Ref sig .tc) → Buf (Elt F) ((c : Thread nD τ).loc b))

/-! ## A first tile: from zero -/

/-- The stored tile of queries is the feature-mapped projection of the x tile by Wq. -/
theorem firstQ_eq (c : Dev nD) (t : Fin cfg0.N) (h : t.val % 16 = 0) :
    (atFirst V c t h).1 = k0_pay9 (blk0 V c 0 t) (blk0 V c 1 t) := by
  unfold atFirst; dsimp only
  rw [View.read_writes_eq_canon _ _ _ (firstQ_cover V c t h)]
  unfold firstRun runFirst
  dsimp only
  sl_unfold_words
  rw [View.canon_unit_zero off3]
  simp only [View.readAt_eq_ld, Memref.IsWhole.read_unread, View.ld_unit_zero (S := S1x256x1024) off3, View.ld_unit_zero (S := S1024x1024) off2]

/-- The matrix accumulator: zero plus the tile's K-transpose-times-V. -/
theorem firstM_eq (c : Dev nD) (t : Fin cfg0.N) (h : t.val % 16 = 0) :
    (atFirst V c t h).2.2.2.1 = k0_pay1 (k0_pay10 (blk0 V c 0 t) (blk0 V c 2 t) (blk0 V c 3 t) (k0_pay5 (F := F))) := by
  unfold atFirst; dsimp only
  rw [View.read_writes_eq_canon _ _ _ (firstM_cover V c t h)]
  unfold firstRun runFirst
  dsimp only
  sl_unfold_words
  rw [View.canon_cons_unit_zero off2]
  simp only [View.readAt_eq_ld, Memref.IsWhole.read_unread, View.ld_unit_zero (S := S1x256x1024) off3, View.ld_unit_zero (S := S1024x1024) off2,
    View.readCov_unit_zero accM.view off2]

/-- The row accumulator: zero plus the tile's column sums of K. -/
theorem firstR_eq (c : Dev nD) (t : Fin cfg0.N) (h : t.val % 16 = 0) :
    (atFirst V c t h).2.2.2.2 = k0_pay2 (k0_pay8 (blk0 V c 0 t) (blk0 V c 2 t)) (k0_pay6 (F := F)) := by
  unfold atFirst; dsimp only
  rw [View.read_writes_eq_canon _ _ _ (firstR_cover V c t h)]
  unfold firstRun runFirst
  dsimp only
  sl_unfold_words
  rw [View.canon_cons_unit_zero off2]
  simp only [View.readAt_eq_ld, Memref.IsWhole.read_unread, View.ld_unit_zero (S := S1x256x1024) off3, View.ld_unit_zero (S := S1024x1024) off2,
    View.readCov_unit_zero accR.view off2]

/-! ## A tile neither first nor last: added to what the point before left -/

theorem midQ_eq (c : Dev nD) (t : Fin cfg0.N) (h0 : ¬t.val % 16 = 0) (h15 : ¬t.val % 16 = 15) (am : Vec F S1024x1024 .f32) (ar : Vec F S1x1024 .f32) :
    (atMid V c t h0 h15 am ar).1 = k0_pay9 (blk0 V c 0 t) (blk0 V c 1 t) := by
  unfold atMid; dsimp only
  rw [View.read_writes_eq_canon _ _ _ (midQ_cover V c t h0 h15 am ar)]
  unfold midRun runMid
  dsimp only
  sl_unfold_words
  rw [View.canon_unit_zero off3]
  simp only [View.readAt_eq_ld, Memref.IsWhole.read_unread, View.ld_unit_zero (S := S1x256x1024) off3, View.ld_unit_zero (S := S1024x1024) off2]

theorem midM_eq (c : Dev nD) (t : Fin cfg0.N) (h0 : ¬t.val % 16 = 0) (h15 : ¬t.val % 16 = 15) (am : Vec F S1024x1024 .f32) (ar : Vec F S1x1024 .f32) :
    (atMid V c t h0 h15 am ar).2.2.2.1 = k0_pay1 (k0_pay10 (blk0 V c 0 t) (blk0 V c 2 t) (blk0 V c 3 t) am) := by
  unfold atMid; dsimp only
  rw [View.read_writes_eq_canon _ _ _ (midM_cover V c t h0 h15 am ar)]
  unfold midRun runMid
  dsimp only
  sl_unfold_words
  rw [View.canon_unit_zero off2]
  simp only [View.readAt_eq_ld, Memref.IsWhole.read_unread, View.ld_unit_zero (S := S1x256x1024) off3, View.ld_unit_zero (S := S1024x1024) off2]
  exact congrArg (fun z => k0_pay1 (k0_pay10 (blk0 V c 0 t) (blk0 V c 2 t) (blk0 V c 3 t) z)) (Memref.IsWhole.read_unread (m := accM) (Memref.isWhole_whole _) am)

theorem midR_eq (c : Dev nD) (t : Fin cfg0.N) (h0 : ¬t.val % 16 = 0) (h15 : ¬t.val % 16 = 15) (am : Vec F S1024x1024 .f32) (ar : Vec F S1x1024 .f32) :
    (atMid V c t h0 h15 am ar).2.2.2.2 = k0_pay2 (k0_pay8 (blk0 V c 0 t) (blk0 V c 2 t)) ar := by
  unfold atMid; dsimp only
  rw [View.read_writes_eq_canon _ _ _ (midR_cover V c t h0 h15 am ar)]
  unfold midRun runMid
  dsimp only
  sl_unfold_words
  rw [View.canon_unit_zero off2]
  simp only [View.readAt_eq_ld, Memref.IsWhole.read_unread, View.ld_unit_zero (S := S1x256x1024) off3, View.ld_unit_zero (S := S1024x1024) off2,
    View.ld_unit_zero (S := S1x1024) off2]
  exact congrArg (fun z => k0_pay2 (k0_pay8 (blk0 V c 0 t) (blk0 V c 2 t)) z) (Memref.IsWhole.read_unread (m := accR) (Memref.isWhole_whole _) ar)

/-! ## A last tile: added to, then copied out -/

theorem lastQ_eq (c : Dev nD) (t : Fin cfg0.N) (h0 : ¬t.val % 16 = 0) (h15 : t.val % 16 = 15) (am : Vec F S1024x1024 .f32) (ar : Vec F S1x1024 .f32) :
    (atLast V c t h0 h15 am ar).1 = k0_pay9 (blk0 V c 0 t) (blk0 V c 1 t) := by
  unfold atLast; dsimp only
  rw [View.read_writes_eq_canon _ _ _ (lastQ_cover V c t h0 h15 am ar)]
  unfold lastRun runLast
  dsimp only
  sl_unfold_words
  rw [View.canon_unit_zero off3]
  simp only [View.readAt_eq_ld, Memref.IsWhole.read_unread, View.ld_unit_zero (S := S1x256x1024) off3, View.ld_unit_zero (S := S1024x1024) off2]

theorem lastM_eq (c : Dev nD) (t : Fin cfg0.N) (h0 : ¬t.val % 16 = 0) (h15 : t.val % 16 = 15) (am : Vec F S1024x1024 .f32) (ar : Vec F S1x1024 .f32) :
    (atLast V c t h0 h15 am ar).2.2.2.1 = k0_pay1 (k0_pay10 (blk0 V c 0 t) (blk0 V c 2 t) (blk0 V c 3 t) am) := by
  unfold atLast; dsimp only
  rw [View.read_writes_eq_canon _ _ _ (lastM_cover V c t h0 h15 am ar)]
  unfold lastRun runLast
  dsimp only
  sl_unfold_words
  rw [View.canon_unit_zero off2]
  simp only [View.readAt_eq_ld, Memref.IsWhole.read_unread, View.ld_unit_zero (S := S1x256x1024) off3, View.ld_unit_zero (S := S1024x1024) off2]
  exact congrArg (fun z => k0_pay1 (k0_pay10 (blk0 V c 0 t) (blk0 V c 2 t) (blk0 V c 3 t) z)) (Memref.IsWhole.read_unread (m := accM) (Memref.isWhole_whole _) am)

theorem lastR_eq (c : Dev nD) (t : Fin cfg0.N) (h0 : ¬t.val % 16 = 0) (h15 : t.val % 16 = 15) (am : Vec F S1024x1024 .f32) (ar : Vec F S1x1024 .f32) :
    (atLast V c t h0 h15 am ar).2.2.2.2 = k0_pay2 (k0_pay8 (blk0 V c 0 t) (blk0 V c 2 t)) ar := by
  unfold atLast; dsimp only
  rw [View.read_writes_eq_canon _ _ _ (lastR_cover V c t h0 h15 am ar)]
  unfold lastRun runLast
  dsimp only
  sl_unfold_words
  rw [View.canon_unit_zero off2]
  simp only [View.readAt_eq_ld, Memref.IsWhole.read_unread, View.ld_unit_zero (S := S1x256x1024) off3, View.ld_unit_zero (S := S1024x1024) off2,
    View.ld_unit_zero (S := S1x1024) off2]
  exact congrArg (fun z => k0_pay2 (k0_pay8 (blk0 V c 0 t) (blk0 V c 2 t)) z) (Memref.IsWhole.read_unread (m := accR) (Memref.isWhole_whole _) ar)

/-- The numerator block is the matrix accumulator as just stored. -/
theorem lastN_eq (c : Dev nD) (t : Fin cfg0.N) (h0 : ¬t.val % 16 = 0) (h15 : t.val % 16 = 15) (am : Vec F S1024x1024 .f32) (ar : Vec F S1x1024 .f32) :
    (atLast V c t h0 h15 am ar).2.1 = k0_pay3 (k0_pay1 (k0_pay10 (blk0 V c 0 t) (blk0 V c 2 t) (blk0 V c 3 t) am)) := by
  unfold atLast; dsimp only
  rw [View.read_writes_eq_canon _ _ _ (lastN_cover V c t h0 h15 am ar)]
  unfold lastRun runLast
  dsimp only
  sl_unfold_words
  rw [View.canon_unit_zero off3]
  simp only [View.readAt_eq_ld, Memref.IsWhole.read_unread, View.ld_unit_zero (S := S1x256x1024) off3, View.ld_unit_zero (S := S1024x1024) off2,
    View.readCov_unit_zero accM.view off2]
  exact congrArg (fun z => k0_pay3 (k0_pay1 (k0_pay10 (blk0 V c 0 t) (blk0 V c 2 t) (blk0 V c 3 t) z))) (Memref.IsWhole.read_unread (m := accM) (Memref.isWhole_whole _) am)

/-- The denominator block is the row accumulator as just stored. -/
theorem lastD_eq (c : Dev nD) (t : Fin cfg0.N) (h0 : ¬t.val % 16 = 0) (h15 : t.val % 16 = 15) (am : Vec F S1024x1024 .f32) (ar : Vec F S1x1024 .f32) :
    (atLast V c t h0 h15 am ar).2.2.1 = k0_pay4 (k0_pay2 (k0_pay8 (blk0 V c 0 t) (blk0 V c 2 t)) ar) := by
  unfold atLast; dsimp only
  rw [View.read_writes_eq_canon _ _ _ (lastD_cover V c t h0 h15 am ar)]
  unfold lastRun runLast
  dsimp only
  sl_unfold_words
  rw [View.canon_unit_zero off3]
  simp only [View.readAt_eq_ld, Memref.IsWhole.read_unread, View.ld_unit_zero (S := S1x256x1024) off3, View.ld_unit_zero (S := S1024x1024) off2,
    View.ld_unit_zero (S := S1x1024) off2, View.readCov_unit_zero accR.view off2]
  exact congrArg (fun z => k0_pay4 (k0_pay2 (k0_pay8 (blk0 V c 0 t) (blk0 V c 2 t)) z)) (Memref.IsWhole.read_unread (m := accR) (Memref.isWhole_whole _) ar)

end

end Cert.KernelIdeal.Frm

end
-- ==== Proof.KI.StatsHeld.lean ====
/-
  What the buffers hold after each point of the statistics call, in one statement per buffer.

  The tile of queries is the same arithmetic at every point.  Each accumulator is, at a batch entry's first tile, its
  update from zero, and at every later tile its update from what the point before left: a recurrence along the sixteen
  tiles of a batch entry.  At a last tile the numerator block is the matrix accumulator as just stored, and the denominator
  block the row accumulator.
-/
import proofs.«176170_j9431748182266_1_alg».proof.Proof.KI.StatsOpen

-- membership in a rectangle of full extent is decided structurally, once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The stored tile of queries, at every point. -/
theorem heldQ (c : Dev nD) (t : Fin cfg0.N) :
    (heldAfter V c t.val t.isLt).1 = k0_pay9 (blk0 V c 0 t) (blk0 V c 1 t) := by
  by_cases h0 : t.val % 16 = 0
  · rw [heldAfter_first V c t h0]; exact firstQ_eq V c t h0
  · by_cases h15 : t.val % 16 = 15
    · rw [heldAfter_last V c t h0 h15]; exact lastQ_eq V c t h0 h15 _ _
    · rw [heldAfter_mid V c t h0 h15]; exact midQ_eq V c t h0 h15 _ _

/-- The matrix accumulator after a first tile: from zero. -/
theorem heldM_first (c : Dev nD) (t : Fin cfg0.N) (h0 : t.val % 16 = 0) :
    (heldAfter V c t.val t.isLt).2.2.2.1 = k0_pay1 (k0_pay10 (blk0 V c 0 t) (blk0 V c 2 t) (blk0 V c 3 t) (k0_pay5 (F := F))) := by
  rw [heldAfter_first V c t h0]; exact firstM_eq V c t h0

/-- After any later tile: from what the point before left. -/
theorem heldM_next (c : Dev nD) (t : Fin cfg0.N) (h0 : ¬t.val % 16 = 0) :
    (heldAfter V c t.val t.isLt).2.2.2.1 = k0_pay1 (k0_pay10 (blk0 V c 0 t) (blk0 V c 2 t) (blk0 V c 3 t)
      (heldAfter V c (t.val - 1) (Nat.lt_of_le_of_lt (Nat.sub_le _ _) t.isLt)).2.2.2.1) := by
  by_cases h15 : t.val % 16 = 15
  · rw [heldAfter_last V c t h0 h15]; exact lastM_eq V c t h0 h15 _ _
  · rw [heldAfter_mid V c t h0 h15]; exact midM_eq V c t h0 h15 _ _

/-- The row accumulator after a first tile: from zero. -/
theorem heldR_first (c : Dev nD) (t : Fin cfg0.N) (h0 : t.val % 16 = 0) :
    (heldAfter V c t.val t.isLt).2.2.2.2 = k0_pay2 (k0_pay8 (blk0 V c 0 t) (blk0 V c 2 t)) (k0_pay6 (F := F)) := by
  rw [heldAfter_first V c t h0]; exact firstR_eq V c t h0

/-- After any later tile: from what the point before left. -/
theorem heldR_next (c : Dev nD) (t : Fin cfg0.N) (h0 : ¬t.val % 16 = 0) :
    (heldAfter V c t.val t.isLt).2.2.2.2 = k0_pay2 (k0_pay8 (blk0 V c 0 t) (blk0 V c 2 t))
      (heldAfter V c (t.val - 1) (Nat.lt_of_le_of_lt (Nat.sub_le _ _) t.isLt)).2.2.2.2 := by
  by_cases h15 : t.val % 16 = 15
  · rw [heldAfter_last V c t h0 h15]; exact lastR_eq V c t h0 h15 _ _
  · rw [heldAfter_mid V c t h0 h15]; exact midR_eq V c t h0 h15 _ _

/-- At a last tile the numerator block is the matrix accumulator as just stored. -/
theorem heldN_last (c : Dev nD) (t : Fin cfg0.N) (h15 : t.val % 16 = 15) :
    (heldAfter V c t.val t.isLt).2.1 = k0_pay3 (heldAfter V c t.val t.isLt).2.2.2.1 := by
  have h0 : ¬t.val % 16 = 0 := by omega
  rw [heldAfter_last V c t h0 h15, lastN_eq, lastM_eq]

/-- And the denominator block the row accumulator as just stored. -/
theorem heldD_last (c : Dev nD) (t : Fin cfg0.N) (h15 : t.val % 16 = 15) :
    (heldAfter V c t.val t.isLt).2.2.1 = k0_pay4 (heldAfter V c t.val t.isLt).2.2.2.2 := by
  have h0 : ¬t.val % 16 = 0 := by omega
  rw [heldAfter_last V c t h0 h15, lastD_eq, lastR_eq]

end

end Cert.KernelIdeal.Frm

end
-- ==== Proof.Spec.lean ====
/-
  What both programs compute, as one function of the four argument arrays, on the extended reals.

  Linear attention with the feature map  z ↦ max z 0 + 1.  For a batch entry b, a sequence position s and
  feature indices f, g:
      Q b s g = feat (∑ d, x b s d · Wq d g)          K b s f = feat (∑ d, x b s d · Wk d f)
      V b s g = ∑ d, x b s d · Wv d g
      num b f g = ∑ s, K b s f · V b s g                den b g = ∑ s, K b s g
      ctx b f g = num b f g / (den b g + ε)
      out b f s = ∑ g, ctx b f g · Q b s g
  The denominator is indexed by the LAST feature index g of the numerator: it is a [B, 1, F] array spread along
  the middle axis, which is how both programs divide.  The three literals 0, 1 and ε stay the words the programs
  print, so that the same word on both sides is never evaluated.
-/
import Idealize.ShloMosaic.PureOps.Ideal
import Idealize.ShloMosaic.Lib.ValueIdx

noncomputable section

namespace Cert.LinAttn

open Idealize.ShloMosaic Idealize.ShloMosaic.ValueIdx

/-- The input sequence, [batch, position, model dimension]. -/
abbrev SX : Shape := ⟨3, ![8, 4096, 1024]⟩
/-- A projection matrix, [model dimension, feature]. -/
abbrev SW : Shape := ⟨2, ![1024, 1024]⟩
/-- The result, [batch, feature, position]. -/
abbrev SO : Shape := ⟨3, ![8, 1024, 4096]⟩

/-- The words the programs print for 0, 1 and ε, read as extended reals. -/
abbrev zeroW : EReal := Ideal.ofBits .f32 0x00000000#32
abbrev oneW : EReal := Ideal.ofBits .f32 0x3F800000#32
abbrev epsW : EReal := Ideal.ofBits .f32 0x358637BD#32

/-- One entry of x · W: position (b, s) projected onto feature f. -/
def proj (x : SX.Idx → EReal) (W : SW.Idx → EReal) (b : Fin 8) (s : Fin 4096) (f : Fin 1024) : EReal :=
  ∑ d : Fin 1024, x (ix3 b s d) * W (ix2 d f)

/-- The feature map: the positive part, plus one. -/
def feat (z : EReal) : EReal := max z zeroW + oneW

/-- Queries and keys pass through the feature map; values do not. -/
def qf (x : SX.Idx → EReal) (Wq : SW.Idx → EReal) (b : Fin 8) (s : Fin 4096) (g : Fin 1024) : EReal :=
  feat (proj x Wq b s g)
def kf (x : SX.Idx → EReal) (Wk : SW.Idx → EReal) (b : Fin 8) (s : Fin 4096) (f : Fin 1024) : EReal :=
  feat (proj x Wk b s f)
def vf (x : SX.Idx → EReal) (Wv : SW.Idx → EReal) (b : Fin 8) (s : Fin 4096) (g : Fin 1024) : EReal :=
  proj x Wv b s g

/-- The numerator: keys against values, summed over the whole sequence. -/
def num (x : SX.Idx → EReal) (Wk Wv : SW.Idx → EReal) (b : Fin 8) (f g : Fin 1024) : EReal :=
  ∑ s : Fin 4096, kf x Wk b s f * vf x Wv b s g

/-- The denominator: the keys summed over the whole sequence. -/
def den (x : SX.Idx → EReal) (Wk : SW.Idx → EReal) (b : Fin 8) (g : Fin 1024) : EReal :=
  ∑ s : Fin 4096, kf x Wk b s g

/-- The context matrix: the numerator over the denominator of its LAST index, plus ε. -/
def ctx (x : SX.Idx → EReal) (Wk Wv : SW.Idx → EReal) (b : Fin 8) (f g : Fin 1024) : EReal :=
  Ideal.div (num x Wk Wv b f g) (den x Wk b g + epsW)

/-- One entry of the result: the context row f against the query at position s. -/
def out (x : SX.Idx → EReal) (Wq Wk Wv : SW.Idx → EReal) (b : Fin 8) (f : Fin 1024) (s : Fin 4096) : EReal :=
  ∑ g : Fin 1024, ctx x Wk Wv b f g * qf x Wq b s g

/-- THE SPECIFICATION: the result array as one function of the four argument arrays. -/
def G (x : SX.Idx → EReal) (Wq Wk Wv : SW.Idx → EReal) : SO.Idx → EReal :=
  fun i => out x Wq Wk Wv (i 0) (i 1) (i 2)

theorem G_apply (x : SX.Idx → EReal) (Wq Wk Wv : SW.Idx → EReal) (b : Fin 8) (f : Fin 1024) (s : Fin 4096) :
    G x Wq Wk Wv (ix3 b f s) = out x Wq Wk Wv b f s := rfl

end Cert.LinAttn

end
-- ==== Proof.KI.Payloads.lean ====
/-
  The kernel bodies' stored values, read at one index, at the ideal instance.

  The first kernel streams tiles of 256 sequence positions.  For a tile x it forms the three projections
  x · W (each a [256, 1024] by [1024, 1024] product into a zero accumulator), applies the feature map (positive
  part, plus one) to the query and key projections, stores the query features, and adds to two running
  accumulators: the [1024, 1024] matrix  Σ_p K(p, f) · V(p, g)  (a product contracting the tile's position axis of
  both operands) and the [1, 1024] row  Σ_p K(p, f)  (a sum over the position axis).  At the last tile the
  accumulators are written out under a leading unit axis.  The second kernel divides the accumulated matrix by
  the accumulated row plus ε, the row spread over all rows of the matrix, and contracts the quotient against a
  tile of 512 query-feature rows over the feature axis.

  Every operation other than the three products and the column sum is pointwise or a relabelling of indices
  (a cast that adds or drops a leading unit axis, a cast to the same shape, one row spread over many); a change
  of float format is the identity on extended reals.  So each stored value at an index is a short expression in
  its operands at a few indices, and the lemmas below say which.
-/
import proofs.«176170_j9431748182266_1_alg».proof.Proof.Gen.KernelIdeal.Skeleton
import proofs.«176170_j9431748182266_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Val

open Cert.KernelIdeal Cert.KernelIdeal.Gen Cert.LinAttn Idealize.ShloMosaic Idealize.ShloMosaic.ValueIdx

/-! ## The three products, each into a zero accumulator, as plain sums

A product's entry is the sum over the contracted axis of the left operand times the right operand, each read at
the index that puts the result's coordinate on its free axis and the summation variable on its contracted axis.
For each of the three dimension records: the free coordinates first, then the sum re-indexed by the contracted
axis's one coordinate. -/

section Plain
/-! [256, 1024] by [1024, 1024], contracting the left operand's axis 1 with the right operand's axis 0. -/

theorem plain_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem plain_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (p, g) of l · r is ∑ d, l (p, d) · r (d, g). -/
theorem matmul_plain_at {φ₁ φ₂ : FTy} (l : FVec Ideal S256x1024 φ₁) (r : FVec Ideal S1024x1024 φ₂) (p : Fin 256) (g : Fin 1024) :
    matmul (F := Ideal) dot_S256x1024_S1024x1024_S256x1024_1_0_0_1_n_n none l r (constant (F := Ideal) S256x1024 .f32 0x00000000#32) (ix2 p g)
      = ∑ d : Fin 1024, l (ix2 p d) * r (ix2 d g) := by
  refine (Ideal.matmul_constant_zero_apply dot_S256x1024_S1024x1024_S256x1024_1_0_0_1_n_n none l r (ix2 p g)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 p g) ((contrEquiv1 dot_S256x1024_S1024x1024_S256x1024_1_0_0_1_n_n 1024 rfl rfl).symm k) = ix2 p k := funext fun a => Fin.ext (by
    match a with
    | ⟨0, _⟩ => exact plain_lhs0 _ _
    | ⟨1, _⟩ => exact (dot_S256x1024_S1024x1024_S256x1024_1_0_0_1_n_n.lhsIdx_val_of_single rfl _ _).trans hk)
  have er : dot_S256x1024_S1024x1024_S256x1024_1_0_0_1_n_n.rhsIdx (ix2 p g) ((contrEquiv1 dot_S256x1024_S1024x1024_S256x1024_1_0_0_1_n_n 1024 rfl rfl).symm k) = ix2 k g := funext fun a => Fin.ext (by
    match a with
    | ⟨0, _⟩ => exact (dot_S256x1024_S1024x1024_S256x1024_1_0_0_1_n_n.rhsIdx_val_of_single rfl _ _).trans hk
    | ⟨1, _⟩ => exact plain_rhs1 _ _)
  rw [el, er]
end Plain

section Cols
/-! [256, 1024] by [256, 1024], contracting axis 0 of both: the left operand transposed against the right. -/

theorem cols_lhs1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
theorem cols_rhs1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

/-- Entry (f, g) of lᵀ · r is ∑ p, l (p, f) · r (p, g). -/
theorem matmul_cols_at {φ₁ φ₂ : FTy} (l : FVec Ideal S256x1024 φ₁) (r : FVec Ideal S256x1024 φ₂) (f g : Fin 1024) :
    matmul (F := Ideal) dot_S256x1024_S256x1024_S1024x1024_0_0_1_1_n_n none l r (constant (F := Ideal) S1024x1024 .f32 0x00000000#32) (ix2 f g)
      = ∑ p : Fin 256, l (ix2 p f) * r (ix2 p g) := by
  refine (Ideal.matmul_constant_zero_apply dot_S256x1024_S256x1024_S1024x1024_0_0_1_1_n_n none l r (ix2 f g)).trans ?_
  rw [← Equiv.sum_comp (contrEquiv1 dot_S256x1024_S256x1024_S1024x1024_0_0_1_1_n_n 256 rfl rfl).symm]
  refine Finset.sum_congr rfl fun k _ => ?_
  have hk := contrEquiv1_symm_val dot_S256x1024_S256x1024_S1024x1024_0_0_1_1_n_n 256 rfl rfl k
  have el : dot_S256x1024_S256x1024_S1024x1024_0_0_1_1_n_n.lhsIdx (ix2 f g) ((contrEquiv1 dot_S256x1024_S256x1024_S1024x1024_0_0_1_1_n_n 256 rfl rfl).symm k) = ix2 k f := funext fun a => Fin.ext (by
    match a with
    | ⟨0, _⟩ => exact (dot_S256x1024_S256x1024_S1024x1024_0_0_1_1_n_n.lhsIdx_val_of_single rfl _ _).trans hk
    | ⟨1, _⟩ => exact cols_lhs1 _ _)
  have er : dot_S256x1024_S256x1024_S1024x1024_0_0_1_1_n_n.rhsIdx (ix2 f g) ((contrEquiv1 dot_S256x1024_S256x1024_S1024x1024_0_0_1_1_n_n 256 rfl rfl).symm k) = ix2 k g := funext fun a => Fin.ext (by
    match a with
    | ⟨0, _⟩ => exact (dot_S256x1024_S256x1024_S1024x1024_0_0_1_1_n_n.rhsIdx_val_of_single rfl _ _).trans hk
    | ⟨1, _⟩ => exact cols_rhs1 _ _)
  rw [el, er]
end Cols

section Rows
/-! [1024, 1024] by [512, 1024], contracting axis 1 of both: the left operand against the right transposed. -/

theorem rows_lhs0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem rows_rhs0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl

/-- Entry (f, s) of l · rᵀ is ∑ g, l (f, g) · r (s, g). -/
theorem matmul_rows_at {φ₁ φ₂ : FTy} (l : FVec Ideal S1024x1024 φ₁) (r : FVec Ideal S512x1024 φ₂) (f : Fin 1024) (s : Fin 512) :
    matmul (F := Ideal) dot_S1024x1024_S512x1024_S1024x512_1_1_0_0_n_n none l r (constant (F := Ideal) S1024x512 .f32 0x00000000#32) (ix2 f s)
      = ∑ g : Fin 1024, l (ix2 f g) * r (ix2 s g) := by
  refine (Ideal.matmul_constant_zero_apply dot_S1024x1024_S512x1024_S1024x512_1_1_0_0_n_n none l r (ix2 f s)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 f s) ((contrEquiv1 dot_S1024x1024_S512x1024_S1024x512_1_1_0_0_n_n 1024 rfl rfl).symm k) = ix2 f k := funext fun a => Fin.ext (by
    match a with
    | ⟨0, _⟩ => exact rows_lhs0 _ _
    | ⟨1, _⟩ => exact (dot_S1024x1024_S512x1024_S1024x512_1_1_0_0_n_n.lhsIdx_val_of_single rfl _ _).trans hk)
  have er : dot_S1024x1024_S512x1024_S1024x512_1_1_0_0_n_n.rhsIdx (ix2 f s) ((contrEquiv1 dot_S1024x1024_S512x1024_S1024x512_1_1_0_0_n_n 1024 rfl rfl).symm k) = ix2 s k := funext fun a => Fin.ext (by
    match a with
    | ⟨0, _⟩ => exact rows_rhs0 _ _
    | ⟨1, _⟩ => exact (dot_S1024x1024_S512x1024_S1024x512_1_1_0_0_n_n.rhsIdx_val_of_single rfl _ _).trans hk)
  rw [el, er]
end Rows

/-! ## The sum over the position axis -/

/-- The sum of a [256, 1024] matrix over its axis 0, from the word for zero, at column f: the sum of the column. -/
theorem colSum_at (src : FVec Ideal S256x1024 .f32) (h : S256x1024.Reduces [0] S1024) (f : Fin 1024) :
    multiReduction (F := Ideal) .add [0] S1024 src 0x00000000#32 h (.inl rfl) rfl (ix1 f)
      = ∑ p : Fin 256, src (ix2 p f) := by
  refine (Ideal.multiReduction_add_single src 0x00000000#32 h (.inl rfl) rfl (ix1 f)).trans ?_
  refine Finset.sum_congr rfl fun p _ => congrArg src ?_
  exact funext fun c => Fin.ext (by match c with | ⟨0, _⟩ => rfl | ⟨1, _⟩ => rfl)

/-! ## The stored values, one entry at a time -/

section Payloads
variable (x : Vec Ideal S1x256x1024 .f32) (wq wk wv : Vec Ideal S1024x1024 .bf16) (am : Vec Ideal S1024x1024 .f32)
  (ar : Vec Ideal S1x1024 .f32)

/-- The tile with its leading unit axis dropped: entry (p, d) is x (0, p, d). -/
theorem xTile_at (p : Fin 256) (d : Fin 1024) : k0_pay7 (F := Ideal) x (ix2 p d) = x (ix3 (0 : Fin 1) p d) := by
  unfold k0_pay7
  exact shapeCast_1ab_ab_apply x _ p d

/-- A projection of the tile: entry (p, g) of x · W is ∑ d, x (0, p, d) · W (d, g). -/
theorem projTile_at (w : Vec Ideal S1024x1024 .bf16) (h : S1024x1024.ShapeCasts S1024x1024) (p : Fin 256) (g : Fin 1024) :
    matmul (F := Ideal) (φ₁ := .bf16) (φ₂ := .bf16) dot_S256x1024_S1024x1024_S256x1024_1_0_0_1_n_n none (k0_pay7 (F := Ideal) x) (shapeCast S1024x1024 w h)
        (constant (F := Ideal) S256x1024 .f32 0x00000000#32) (ix2 p g)
      = ∑ d : Fin 1024, x (ix3 (0 : Fin 1) p d) * w (ix2 d g) := by
  rw [shapeCast_self]
  refine (matmul_plain_at (φ₁ := .bf16) (φ₂ := .bf16) _ _ p g).trans (Finset.sum_congr rfl fun d _ => ?_)
  rw [xTile_at]

/-- The key features of the tile. -/
theorem kTile_at (p : Fin 256) (f : Fin 1024) :
    k0_pay8 (F := Ideal) x wk (ix2 p f) = feat (∑ d : Fin 1024, x (ix3 0 p d) * wk (ix2 d f)) := by
  unfold k0_pay8
  refine Eq.trans ?_ (congrArg feat (projTile_at x wk shapeCasts_S1024x1024_S1024x1024 p f))
  rfl

/-- The query features of the tile, stored under a leading unit axis. -/
theorem qTile_at (p : Fin 256) (g : Fin 1024) :
    k0_pay9 (F := Ideal) x wq (ix3 (0 : Fin 1) p g) = feat (∑ d : Fin 1024, x (ix3 0 p d) * wq (ix2 d g)) := by
  unfold k0_pay9
  refine (shapeCast_ab_1ab_apply _ _ (0 : Fin 1) p g).trans ?_
  refine Eq.trans ?_ (congrArg feat (projTile_at x wq shapeCasts_S1024x1024_S1024x1024 p g))
  rfl

/-- The matrix accumulator after the tile: what it held plus ∑ p, K (p, f) · V (p, g). -/
theorem accM_step_at (f g : Fin 1024) :
    k0_pay1 (F := Ideal) (k0_pay10 x wk wv am) (ix2 f g)
      = am (ix2 f g) + ∑ p : Fin 256, k0_pay8 (F := Ideal) x wk (ix2 p f) * (∑ d : Fin 1024, x (ix3 0 p d) * wv (ix2 d g)) := by
  unfold k0_pay1
  rw [shapeCast_self]
  unfold k0_pay10
  refine (addf_apply _ _ _).trans (congrArg (am (ix2 f g) + ·) ?_)
  refine (matmul_cols_at _ _ f g).trans (Finset.sum_congr rfl fun p _ => ?_)
  refine congrArg (k0_pay8 (F := Ideal) x wk (ix2 p f) * ·) ?_
  exact projTile_at x wv _ p g

/-- The row accumulator after the tile: what it held plus ∑ p, K (p, f). -/
theorem accR_step_at (f : Fin 1024) :
    k0_pay2 (F := Ideal) (k0_pay8 x wk) ar (ix2 (0 : Fin 1) f)
      = ar (ix2 0 f) + ∑ p : Fin 256, k0_pay8 (F := Ideal) x wk (ix2 p f) := by
  unfold k0_pay2
  rw [shapeCast_self]
  refine (addf_apply _ _ _).trans (congrArg (ar (ix2 0 f) + ·) ?_)
  refine (shapeCast_a_1a_apply _ _ (0 : Fin 1) f).trans ?_
  exact colSum_at _ _ f

/-- Both accumulators start from the word for zero, which is 0. -/
theorem zeroM_at (j : S1024x1024.Idx) : k0_pay5 (F := Ideal) j = 0 := by
  unfold k0_pay5
  rw [shapeCast_self]
  exact Ideal.ofBits_zero_f32
theorem zeroR_at (j : S1x1024.Idx) : k0_pay6 (F := Ideal) j = 0 := by
  unfold k0_pay6
  rw [shapeCast_self]
  exact Ideal.ofBits_zero_f32

/-- The accumulators written out under a leading unit axis. -/
theorem numOut_at (f g : Fin 1024) : k0_pay3 (F := Ideal) am (ix3 (0 : Fin 1) f g) = am (ix2 f g) := by
  unfold k0_pay3
  exact shapeCast_ab_1ab_apply am _ (0 : Fin 1) f g
theorem denOut_at (g : Fin 1024) : k0_pay4 (F := Ideal) ar (ix3 (0 : Fin 1) (0 : Fin 1) g) = ar (ix2 0 g) := by
  unfold k0_pay4
  exact shapeCast_ab_1ab_apply ar _ (0 : Fin 1) (0 : Fin 1) g

/-- The second kernel's tile: entry (f, s) is ∑ g, n (f, g) / (dn (g) + ε) · q (s, g), the divisor's one row spread
    over every row f. -/
theorem outTile_at (n : Vec Ideal S1x1024x1024 .f32) (dn : Vec Ideal S1x1x1024 .f32) (q : Vec Ideal S1x512x1024 .bf16)
    (f : Fin 1024) (s : Fin 512) :
    k1_pay1 (F := Ideal) n dn q (ix3 (0 : Fin 1) f s)
      = ∑ g : Fin 1024, Ideal.div (n (ix3 0 f g)) (dn (ix3 0 0 g) + epsW) * q (ix3 0 s g) := by
  unfold k1_pay1
  refine (shapeCast_ab_1ab_apply _ _ (0 : Fin 1) f s).trans ?_
  refine (matmul_rows_at _ _ f s).trans (Finset.sum_congr rfl fun g _ => ?_)
  rw [shapeCast_1ab_ab_apply q _ s g]
  refine congrArg (· * q (ix3 0 s g)) ?_
  refine (divf_apply _ _ _).trans ?_
  rw [shapeCast_1ab_ab_apply n _ f g, broadcastTo_1b_ab_apply _ _ f g]
  refine congrArg (Ideal.div (n (ix3 0 f g))) ?_
  refine (addf_apply _ _ _).trans ?_
  rw [shapeCast_1ab_ab_apply dn _ (0 : Fin 1) g]
  rfl

end Payloads

end Cert.KernelIdeal.Val

end
-- ==== Proof.KI.Closed.lean ====
/-
  What the tile-by-tile accumulation and the two kernels' stored values come to, in terms of the specification.

  The first kernel walks the 16 tiles of 256 sequence positions of one batch entry b.  At tile k it sees the
  rows 256 k + p of x.  Its stored query tile is the specification's query features at those rows.  Its matrix
  accumulator starts from zero and gains, per tile, the sum over the tile's rows of key feature times value; its
  row accumulator gains the sum over the tile's rows of the key feature.  After the last tile the accumulators
  hold the sums over all 4096 positions, which are the specification's numerator and denominator.  The second
  kernel, given that numerator and denominator and a tile of 512 rows of query features, stores the
  specification's result at those rows.

  The only laws of arithmetic used are that addition on the extended reals is commutative and associative with
  unit 0 (the accumulators start from the word for zero, which is 0): the same products are summed, grouped by
  tile.  No product is distributed over a sum and nothing is cancelled, so no finiteness is needed.
-/
import proofs.«176170_j9431748182266_1_alg».proof.Proof.KI.Payloads
import Mathlib.Data.Fintype.BigOperators
import Mathlib.Logic.Equiv.Fin.Basic
import Mathlib.Algebra.BigOperators.Fin

noncomputable section

namespace Cert.KernelIdeal.Val

open Cert.KernelIdeal Cert.KernelIdeal.Gen Cert.LinAttn Idealize.ShloMosaic Idealize.ShloMosaic.ValueIdx

/-! ## Positions of a tile's rows in the whole sequence -/

/-- Row p of tile k, for tiles of 256 rows: position 256 k + p of the 4096. -/
def pos256 (k : Fin 16) (p : Fin 256) : Fin 4096 := ⟨256 * k.val + p.val, by have := k.isLt; have := p.isLt; omega⟩
/-- Row s of tile j, for tiles of 512 rows: position 512 j + s of the 4096. -/
def pos512 (j : Fin 8) (s : Fin 512) : Fin 4096 := ⟨512 * j.val + s.val, by have := j.isLt; have := s.isLt; omega⟩

theorem pos256_val (k : Fin 16) (p : Fin 256) : (pos256 k p).val = 256 * k.val + p.val := rfl
theorem pos512_val (j : Fin 8) (s : Fin 512) : (pos512 j s).val = 512 * j.val + s.val := rfl

/-! ## A sum over the sequence, tile by tile

Only the commutative-monoid laws of addition are used: the 4096 positions are the 16 × 256 pairs (tile, row),
so a sum over the positions is the sum over the tiles of the sums over a tile's rows; and an accumulator that
starts at the first tile's sum and adds one tile's sum per step ends at the sum over all positions. -/

theorem sum_tiles {A : Type*} [AddCommMonoid A] (F : Fin 4096 → A) :
    ∑ s : Fin 4096, F s = ∑ k : Fin 16, ∑ p : Fin 256, F (pos256 k p) := by
  rw [← Equiv.sum_comp (finProdFinEquiv : Fin 16 × Fin 256 ≃ Fin 4096) F, Fintype.sum_prod_type]
  refine Finset.sum_congr rfl fun k _ => Finset.sum_congr rfl fun p _ => congrArg F (Fin.ext ?_)
  show p.val + 256 * k.val = 256 * k.val + p.val
  exact Nat.add_comm _ _

theorem fold_tiles {A : Type*} [AddCommMonoid A] (F : Fin 4096 → A) (a : ℕ → A)
    (h0 : a 0 = ∑ p : Fin 256, F (pos256 0 p))
    (hs : ∀ (k : ℕ) (h : k + 1 < 16), a (k + 1) = a k + ∑ p : Fin 256, F (pos256 ⟨k + 1, h⟩ p)) :
    a 15 = ∑ s : Fin 4096, F s := by
  have key : ∀ (k : ℕ), k < 16 →
      a k = ∑ i ∈ Finset.range (k + 1), (if h : i < 16 then ∑ p : Fin 256, F (pos256 ⟨i, h⟩ p) else 0) := by
    intro k
    induction k with
    | zero =>
      intro _
      rw [Finset.sum_range_one, dif_pos (by decide), h0]
      rfl
    | succ k ih =>
      intro hk
      rw [Finset.sum_range_succ, ← ih (by omega), dif_pos hk, hs k hk]
  rw [key 15 (by decide), sum_tiles, ← Fin.sum_univ_eq_sum_range
    (fun i => if h : i < 16 then ∑ p : Fin 256, F (pos256 ⟨i, h⟩ p) else 0) 16]
  refine Finset.sum_congr rfl fun k _ => ?_
  rw [dif_pos k.isLt]

/-! ## The stored values and the accumulators, in the specification's terms -/

section Closed
variable (x : SX.Idx → EReal) (wq wk wv : SW.Idx → EReal) (b : Fin 8)

/-- The key features of tile k are the specification's key features at the tile's rows. -/
theorem kTile_closed (X : Vec Ideal S1x256x1024 .f32) (k : Fin 16)
    (hX : ∀ p d, X (ix3 (0 : Fin 1) p d) = x (ix3 b (pos256 k p) d)) (p : Fin 256) (f : Fin 1024) :
    k0_pay8 (F := Ideal) X wk (ix2 p f) = kf x wk b (pos256 k p) f := by
  refine (kTile_at X wk p f).trans ?_
  unfold kf proj
  refine congrArg feat (Finset.sum_congr rfl fun d _ => ?_)
  rw [hX]

/-- The value projection of tile k is the specification's values at the tile's rows. -/
theorem vTile_closed (X : Vec Ideal S1x256x1024 .f32) (k : Fin 16)
    (hX : ∀ p d, X (ix3 (0 : Fin 1) p d) = x (ix3 b (pos256 k p) d)) (p : Fin 256) (g : Fin 1024) :
    ∑ d : Fin 1024, X (ix3 (0 : Fin 1) p d) * wv (ix2 d g) = vf x wv b (pos256 k p) g := by
  unfold vf proj
  refine Finset.sum_congr rfl fun d _ => ?_
  rw [hX]

/-- The stored query tile k is the specification's query features at the tile's rows. -/
theorem qTile_closed (X : Vec Ideal S1x256x1024 .f32) (k : Fin 16)
    (hX : ∀ p d, X (ix3 (0 : Fin 1) p d) = x (ix3 b (pos256 k p) d)) (p : Fin 256) (g : Fin 1024) :
    k0_pay9 (F := Ideal) X wq (ix3 (0 : Fin 1) p g) = qf x wq b (pos256 k p) g := by
  refine (qTile_at X wq p g).trans ?_
  unfold qf proj
  refine congrArg feat (Finset.sum_congr rfl fun d _ => ?_)
  rw [hX]

/-- After the sixteenth tile the matrix accumulator holds the specification's numerator. -/
theorem accM_closed (X : ℕ → Vec Ideal S1x256x1024 .f32) (M : ℕ → Vec Ideal S1024x1024 .f32)
    (h0 : M 0 = k0_pay1 (F := Ideal) (k0_pay10 (X 0) wk wv (k0_pay5 (F := Ideal))))
    (hs : ∀ k, k < 15 → M (k + 1) = k0_pay1 (F := Ideal) (k0_pay10 (X (k + 1)) wk wv (M k)))
    (hX : ∀ (k : Fin 16) p d, X k.val (ix3 (0 : Fin 1) p d) = x (ix3 b (pos256 k p) d)) (f g : Fin 1024) :
    M 15 (ix2 f g) = num x wk wv b f g := by
  unfold num
  refine fold_tiles (fun s => kf x wk b s f * vf x wv b s g) (fun k => M k (ix2 f g)) ?_ ?_
  · show M 0 (ix2 f g) = _
    rw [h0, accM_step_at, zeroM_at, zero_add]
    refine Finset.sum_congr rfl fun p _ => ?_
    rw [kTile_closed x wk b (X 0) 0 (hX 0) p f, vTile_closed x wv b (X 0) 0 (hX 0) p g]
  · intro k h
    show M (k + 1) (ix2 f g) = M k (ix2 f g) + _
    rw [hs k (by omega), accM_step_at]
    refine congrArg (M k (ix2 f g) + ·) (Finset.sum_congr rfl fun p _ => ?_)
    rw [kTile_closed x wk b (X (k + 1)) ⟨k + 1, h⟩ (hX ⟨k + 1, h⟩) p f,
      vTile_closed x wv b (X (k + 1)) ⟨k + 1, h⟩ (hX ⟨k + 1, h⟩) p g]

/-- After the sixteenth tile the row accumulator holds the specification's denominator. -/
theorem accR_closed (X : ℕ → Vec Ideal S1x256x1024 .f32) (R : ℕ → Vec Ideal S1x1024 .f32)
    (h0 : R 0 = k0_pay2 (F := Ideal) (k0_pay8 (X 0) wk) (k0_pay6 (F := Ideal)))
    (hs : ∀ k, k < 15 → R (k + 1) = k0_pay2 (F := Ideal) (k0_pay8 (X (k + 1)) wk) (R k))
    (hX : ∀ (k : Fin 16) p d, X k.val (ix3 (0 : Fin 1) p d) = x (ix3 b (pos256 k p) d)) (g : Fin 1024) :
    R 15 (ix2 (0 : Fin 1) g) = den x wk b g := by
  unfold den
  refine fold_tiles (fun s => kf x wk b s g) (fun k => R k (ix2 (0 : Fin 1) g)) ?_ ?_
  · show R 0 (ix2 (0 : Fin 1) g) = _
    rw [h0, accR_step_at, zeroR_at, zero_add]
    refine Finset.sum_congr rfl fun p _ => ?_
    rw [kTile_closed x wk b (X 0) 0 (hX 0) p g]
  · intro k h
    show R (k + 1) (ix2 (0 : Fin 1) g) = R k (ix2 (0 : Fin 1) g) + _
    rw [hs k (by omega), accR_step_at]
    refine congrArg (R k (ix2 (0 : Fin 1) g) + ·) (Finset.sum_congr rfl fun p _ => ?_)
    rw [kTile_closed x wk b (X (k + 1)) ⟨k + 1, h⟩ (hX ⟨k + 1, h⟩) p g]

/-- Given the numerator, the denominator and tile j of the query features, the second kernel's stored tile is
    the specification's result at the tile's rows. -/
theorem out_closed (n : Vec Ideal S1x1024x1024 .f32) (dn : Vec Ideal S1x1x1024 .f32) (q : Vec Ideal S1x512x1024 .bf16)
    (j : Fin 8) (hn : ∀ f g, n (ix3 (0 : Fin 1) f g) = num x wk wv b f g)
    (hd : ∀ g, dn (ix3 (0 : Fin 1) (0 : Fin 1) g) = den x wk b g)
    (hq : ∀ (s : Fin 512) g, q (ix3 (0 : Fin 1) s g) = qf x wq b (pos512 j s) g) (f : Fin 1024) (s : Fin 512) :
    k1_pay1 (F := Ideal) n dn q (ix3 (0 : Fin 1) f s) = out x wq wk wv b f (pos512 j s) := by
  refine (outTile_at n dn q f s).trans ?_
  unfold out ctx
  refine Finset.sum_congr rfl fun g _ => ?_
  rw [hn, hd, hq]

end Closed

end Cert.KernelIdeal.Val

end
-- ==== Proof.KI.StatsQ.lean ====
/-
  The array of queries when the statistics call returns: entry (b, s, g) is the feature-mapped projection of x at (b, s)
  onto feature g, for every position s of every batch entry.

  Point t of the call writes back the tile of 256 positions s = 256·(t % 16) + p of batch entry b = t / 16; what it writes
  at (p, g) is the body's arithmetic of the x tile and of Wq, which is that entry; and every position lies in exactly such a
  tile, so the tiles fill the array.
-/
import proofs.«176170_j9431748182266_1_alg».proof.Proof.KI.StatsHeld
import proofs.«176170_j9431748182266_1_alg».proof.Proof.KI.Closed
import Idealize.ShloMosaic.Lib.Pipeline.Value

set_option maxRecDepth 16384

noncomputable section

namespace Cert.KernelIdeal.Val

open Cert.KernelIdeal Cert.KernelIdeal.Gen Cert.KernelIdeal.Frm Cert.LinAttn
open Idealize.ShloMosaic Idealize.ShloMosaic.ValueIdx Idealize.ShloMosaic.TcCoe
open Idealize.SL Idealize.SL.Sem
open Idealize.ShloMosaic.Pipeline (Dat)

section
variable (V : (c : Dev nD) → (b : Ref sig .tc) → Buf (Elt Ideal) ((c : Thread nD τ).loc b)) (c : Dev nD)

/-- Where the blocks of x, of Wq and of the queries sit at point t: the batch entry t / 16 and the tile t % 16; the weight
    matrix is one block. -/
theorem qIdx : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_4.index t (0 : Fin 3) = t.val / 16 ∧ win0_4.index t (1 : Fin 3) = t.val % 16 ∧ win0_4.index t (2 : Fin 3) = 0 :=
  (by decide +kernel : ∀ t : Fin grid0.N, _)

/-- The x tile at point t, entry (p, d), is x at batch entry t / 16, position 256·(t % 16) + p. -/
theorem xTileRead (t : Fin cfg0.N) (hb : t.val / 16 < 8) (hk : t.val % 16 < 16) (p : Fin 256) (d : Fin 1024) :
    blk0 V c 0 t (ix3 (0 : Fin 1) p d) = V c main_arg0 (ix3 (⟨t.val / 16, hb⟩ : Fin 8) (pos256 ⟨t.val % 16, hk⟩ p) d) := by
  obtain ⟨e0, e1, e2, -⟩ := qIdx t
  show V c main_arg0 (((cfg0.win 0).blk t).view.emb (ix3 (0 : Fin 1) p d)) = _
  refine congrArg _ (funext fun a => Fin.ext ?_)
  match a with
  | ⟨0, _⟩ => show win0_0.index t (0 : Fin 3) * 1 + 1 * 0 = t.val / 16; omega
  | ⟨1, _⟩ => show win0_0.index t (1 : Fin 3) * 256 + 1 * p.val = 256 * (t.val % 16) + p.val; omega
  | ⟨2, _⟩ => show win0_0.index t (2 : Fin 3) * 1024 + 1 * d.val = d.val; omega

/-- The Wq block is the whole matrix. -/
theorem wqRead (t : Fin cfg0.N) (d f : Fin 1024) : blk0 V c 1 t (ix2 d f) = V c main_v0 (ix2 d f) := by
  obtain ⟨-, -, -, e3, e4, -⟩ := qIdx t
  show V c main_v0 (((cfg0.win 1).blk t).view.emb (ix2 d f)) = _
  refine congrArg _ (funext fun a => Fin.ext ?_)
  match a with
  | ⟨0, _⟩ => show win0_1.index t (0 : Fin 2) * 1024 + 1 * d.val = d.val; omega
  | ⟨1, _⟩ => show win0_1.index t (1 : Fin 2) * 1024 + 1 * f.val = f.val; omega

/-- The array of queries as one function of x and Wq. -/
def queries (x : SX.Idx → EReal) (wq : SW.Idx → EReal) : S8x4096x1024.Idx → EReal := fun i => qf x wq (i 0) (i 1) (i 2)

/-- WHAT POINT t WRITES BACK is its tile of that function. -/
theorem qFlushed (x : SX.Idx → EReal) (wq : SW.Idx → EReal) (hx : ∀ i : S8x4096x1024.Idx, V c main_arg0 i = x i)
    (hwq : ∀ i : S1024x1024.Idx, V c main_v0 i = wq i) (t : Fin cfg0.N) :
    (dat0 (F := Ideal) V c).flushed 4 t = ((cfg0.win 4).blk t).view.read (Elt Ideal) (queries x wq) := by
  show (cfg0.win 4).cut (grid0.coords t) ((dat0 V c).after 4 t) = _
  rw [after0_q, heldQ]
  have hN : t.val < 128 := lt_of_lt_of_eq t.isLt (show cfg0.N = 128 from N_0)
  have hb : t.val / 16 < 8 := by omega
  have hk : t.val % 16 < 16 := by omega
  obtain ⟨-, -, -, -, -, e5, e6, e7⟩ := qIdx t
  funext y
  obtain ⟨u, p, g, rfl⟩ : ∃ (u : Fin 1) (p : Fin 256) (g : Fin 1024), y = ix3 u p g := ⟨y 0, y 1, y 2, eq_ix3 y⟩
  obtain rfl : u = 0 := Subsingleton.elim _ _
  have hi : ((cfg0.win 4).blk t).view.emb (ix3 (0 : Fin 1) p g) = ix3 (⟨t.val / 16, hb⟩ : Fin 8) (pos256 ⟨t.val % 16, hk⟩ p) g := by
    funext a; apply Fin.ext
    match a with
    | ⟨0, _⟩ => show win0_4.index t (0 : Fin 3) * 1 + 1 * 0 = t.val / 16; omega
    | ⟨1, _⟩ => show win0_4.index t (1 : Fin 3) * 256 + 1 * p.val = 256 * (t.val % 16) + p.val; omega
    | ⟨2, _⟩ => show win0_4.index t (2 : Fin 3) * 1024 + 1 * g.val = g.val; omega
  show k0_pay9 (F := Ideal) (blk0 V c 0 t) (blk0 V c 1 t) (ix3 (0 : Fin 1) p g) = queries x wq (((cfg0.win 4).blk t).view.emb (ix3 (0 : Fin 1) p g))
  rw [hi]
  refine (qTile_closed x (blk0 V c 1 t) ⟨t.val / 16, hb⟩ (blk0 V c 0 t) ⟨t.val % 16, hk⟩
    (fun p d => (xTileRead V c t hb hk p d).trans (hx _)) p g).trans ?_
  show qf x (blk0 V c 1 t) _ _ g = qf x wq _ _ g
  simp only [qf, proj, wqRead V c t, hwq]

/-- An index of the array is in point t's tile iff each coordinate is in the tile's range on its axis. -/
theorem qMem (t : Fin cfg0.N) (i : S8x4096x1024.Idx) :
    i ∈ ((cfg0.win 4).blk t).view.set ↔ ∀ a : Fin 3, win0_4.index t a * S1x256x1024.size a ≤ (i a).val ∧ (i a).val < win0_4.index t a * S1x256x1024.size a + S1x256x1024.size a := by
  show i ∈ ((View.whole main_v3_0).slice (win0_4.rect t)).set ↔ _
  rw [View.set_slice_whole, Rect.mem_set_unit]
  exact Iff.rfl

/-- Every position lies in a tile that is written back: (b, s, g) in the tile of point 16·b + s / 256. -/
theorem qCover (i : S8x4096x1024.Idx) : ∃ t : Fin cfg0.N, (cfg0.win 4).flush t = true ∧ i ∈ ((cfg0.win 4).blk t).view.set := by
  have h0 : (i 0).val < 8 := (i 0).isLt
  have h1 : (i 1).val < 4096 := (i 1).isLt
  have h2 : (i 2).val < 1024 := (i 2).isLt
  have hn : 16 * (i 0).val + (i 1).val / 256 < cfg0.N := by rw [show cfg0.N = 128 from N_0]; omega
  refine ⟨⟨16 * (i 0).val + (i 1).val / 256, hn⟩, flush0_4 _, ?_⟩
  rw [qMem]
  obtain ⟨-, -, -, -, -, e5, e6, e7⟩ := qIdx ⟨16 * (i 0).val + (i 1).val / 256, hn⟩
  have e5' : win0_4.index ⟨16 * (i 0).val + (i 1).val / 256, hn⟩ (0 : Fin 3) = (16 * (i 0).val + (i 1).val / 256) / 16 := e5
  have e6' : win0_4.index ⟨16 * (i 0).val + (i 1).val / 256, hn⟩ (1 : Fin 3) = (16 * (i 0).val + (i 1).val / 256) % 16 := e6
  intro a
  match a with
  | ⟨0, _⟩ => show win0_4.index ⟨16 * (i 0).val + (i 1).val / 256, hn⟩ (0 : Fin 3) * 1 ≤ (i 0).val ∧ (i 0).val < win0_4.index ⟨16 * (i 0).val + (i 1).val / 256, hn⟩ (0 : Fin 3) * 1 + 1; omega
  | ⟨1, _⟩ => show win0_4.index ⟨16 * (i 0).val + (i 1).val / 256, hn⟩ (1 : Fin 3) * 256 ≤ (i 1).val ∧ (i 1).val < win0_4.index ⟨16 * (i 0).val + (i 1).val / 256, hn⟩ (1 : Fin 3) * 256 + 256; omega
  | ⟨2, _⟩ => show win0_4.index ⟨16 * (i 0).val + (i 1).val / 256, hn⟩ (2 : Fin 3) * 1024 ≤ (i 2).val ∧ (i 2).val < win0_4.index ⟨16 * (i 0).val + (i 1).val / 256, hn⟩ (2 : Fin 3) * 1024 + 1024; omega

/-- THE ARRAY OF QUERIES when the call returns. -/
theorem qArr (x : SX.Idx → EReal) (wq : SW.Idx → EReal) (hx : ∀ i : S8x4096x1024.Idx, V c main_arg0 i = x i)
    (hwq : ∀ i : S1024x1024.Idx, V c main_v0 i = wq i) :
    ∀ i : S8x4096x1024.Idx, (dat0 (F := Ideal) V c).arrAt 4 cfg0.N i = qf x wq (i 0) (i 1) (i 2) := fun i =>
  congrFun ((dat0 (F := Ideal) V c).arrAt_eq_of_cover 4 (queries x wq) (fun t _ => qFlushed V c x wq hx hwq t) (qCover)) i

end

end Cert.KernelIdeal.Val

end
-- ==== Proof.KI.StatsNumDen.lean ====
/-
  The numerator and denominator arrays after the first kernel call.

  The call walks 8 × 16 points, batch entry by batch entry: point t is batch entry t / 16 at tile t % 16.  Its x
  window's block at t is the 256 rows 256 (t % 16) + p of batch entry t / 16; the weight windows' blocks are the
  whole weight matrices at every point.  The numerator and denominator windows' blocks at t are batch entry
  t / 16 of their arrays, and they are written back only at a batch entry's last tile.

  At such a point the staged numerator block is the matrix accumulator under a leading unit axis, and the
  accumulator is the sixteen-step recurrence along the batch entry's tiles, which comes to the specification's
  numerator at that batch entry; likewise the denominator.  Every index of either array lies in the block of its
  batch entry's last point, so the arrays end holding the specification's numerator and denominator everywhere.
-/
import proofs.«176170_j9431748182266_1_alg».proof.Proof.KI.StatsHeld
import proofs.«176170_j9431748182266_1_alg».proof.Proof.KI.Closed
import Idealize.ShloMosaic.Lib.Pipeline.Value

set_option maxRecDepth 16384

noncomputable section

namespace Cert.KernelIdeal.Val

open Cert.KernelIdeal Cert.KernelIdeal.Gen Cert.KernelIdeal.Frm Cert.LinAttn Idealize.ShloMosaic Idealize.ShloMosaic.TcCoe
  Idealize.ShloMosaic.ValueIdx
open Idealize.ShloMosaic.Pipeline (Dat)

/-! ## Where each window's block sits, decided once over the grid -/

theorem idx_facts : ∀ t : Fin cfg0.N,
    win0_0.index t (0 : Fin 3) = t.val / 16 ∧ win0_0.index t (1 : Fin 3) = t.val % 16 ∧ win0_0.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 3) = t.val / 16 ∧ win0_5.index t (1 : Fin 3) = 0 ∧ win0_5.index t (2 : Fin 3) = 0
    ∧ win0_6.index t (0 : Fin 3) = t.val / 16 ∧ win0_6.index t (1 : Fin 3) = 0 ∧ win0_6.index t (2 : Fin 3) = 0 :=
  (by decide +kernel : ∀ t : Fin grid0.N, _)

section
variable (V : (c : Dev nD) → (b : Ref sig .tc) → Buf (Elt Ideal) ((c : Thread nD τ).loc b)) (c : Dev nD)

/-! ## The input blocks, read at coordinates -/

/-- Row p of the x block at tile k of batch entry b is row 256 k + p of that batch entry. -/
theorem xBlock_at (t : Fin cfg0.N) (b : Fin 8) (k : Fin 16) (ht : t.val = 16 * b.val + k.val) (p : Fin 256) (d : Fin 1024) :
    blk0 V c 0 t (ix3 (0 : Fin 1) p d) = V c main_arg0 (ix3 b (pos256 k p) d) := by
  obtain ⟨e0, e1, e2, -⟩ := idx_facts t
  have hb := b.isLt
  have hk := k.isLt
  unfold blk0
  rw [View.read_apply]
  show V c main_arg0 (((cfg0.win 0).blk t).view.emb (ix3 (0 : Fin 1) p d)) = _
  refine congrArg (V c main_arg0) (funext fun a => Fin.ext ?_)
  match a with
  | ⟨0, _⟩ => show win0_0.index t (0 : Fin 3) * 1 + 1 * (0 : Fin 1).val = b.val; rw [e0]; omega
  | ⟨1, _⟩ => show win0_0.index t (1 : Fin 3) * 256 + 1 * p.val = 256 * k.val + p.val; rw [e1]; omega
  | ⟨2, _⟩ => show win0_0.index t (2 : Fin 3) * 1024 + 1 * d.val = d.val; rw [e2]; omega

/-- The key and value weight blocks are the whole matrices at every point. -/
theorem wkBlock_at (t : Fin cfg0.N) (d f : Fin 1024) : blk0 V c 2 t (ix2 d f) = V c main_v1 (ix2 d f) := by
  obtain ⟨-, -, -, e0, e1, -⟩ := idx_facts t
  unfold blk0
  rw [View.read_apply]
  show V c main_v1 (((cfg0.win 2).blk t).view.emb (ix2 d f)) = _
  refine congrArg (V c main_v1) (funext fun a => Fin.ext ?_)
  match a with
  | ⟨0, _⟩ => show win0_2.index t (0 : Fin 2) * 1024 + 1 * d.val = d.val; rw [e0]; omega
  | ⟨1, _⟩ => show win0_2.index t (1 : Fin 2) * 1024 + 1 * f.val = f.val; rw [e1]; omega
theorem wvBlock_at (t : Fin cfg0.N) (d g : Fin 1024) : blk0 V c 3 t (ix2 d g) = V c main_v2 (ix2 d g) := by
  obtain ⟨-, -, -, -, -, e0, e1, -⟩ := idx_facts t
  unfold blk0
  rw [View.read_apply]
  show V c main_v2 (((cfg0.win 3).blk t).view.emb (ix2 d g)) = _
  refine congrArg (V c main_v2) (funext fun a => Fin.ext ?_)
  match a with
  | ⟨0, _⟩ => show win0_3.index t (0 : Fin 2) * 1024 + 1 * d.val = d.val; rw [e0]; omega
  | ⟨1, _⟩ => show win0_3.index t (1 : Fin 2) * 1024 + 1 * g.val = g.val; rw [e1]; omega

/-! ## The accumulators along a batch entry's sixteen tiles -/

theorem heldAfter_congr {n n' : ℕ} (e : n = n') (h : n < cfg0.N) (h' : n' < cfg0.N) :
    heldAfter (F := Ideal) V c n h = heldAfter (F := Ideal) V c n' h' := by
  subst e; rfl

theorem pt_lt (b : Fin 8) (k : ℕ) (hk : k < 16) : 16 * b.val + k < cfg0.N := by
  have hN : cfg0.N = 128 := N_0
  have := b.isLt
  omega

/-- The x blocks and the two accumulators at tile k of batch entry b, as sequences in k (anything past the
    sixteenth tile). -/
def Xseq (b : Fin 8) (k : ℕ) : Vec Ideal S1x256x1024 .f32 :=
  if h : k < 16 then blk0 V c 0 ⟨16 * b.val + k, pt_lt b k h⟩ else fun _ => 0
def Mseq (b : Fin 8) (k : ℕ) : Vec Ideal S1024x1024 .f32 :=
  if h : k < 16 then (heldAfter (F := Ideal) V c (16 * b.val + k) (pt_lt b k h)).2.2.2.1 else fun _ => 0
def Rseq (b : Fin 8) (k : ℕ) : Vec Ideal S1x1024 .f32 :=
  if h : k < 16 then (heldAfter (F := Ideal) V c (16 * b.val + k) (pt_lt b k h)).2.2.2.2 else fun _ => 0

variable (x : SX.Idx → EReal) (wk wv : SW.Idx → EReal)

/-- The weight blocks are the weight arrays. -/
theorem wkBlock_eq (hwk : ∀ i : S1024x1024.Idx, V c main_v1 i = wk i) (t : Fin cfg0.N) :
    @Eq (Vec Ideal S1024x1024 .bf16) (blk0 V c 2 t) wk := by
  funext j
  obtain ⟨d, f, rfl⟩ : ∃ (d f : Fin 1024), j = ix2 d f := ⟨j 0, j 1, eq_ix2 j⟩
  exact (wkBlock_at V c t d f).trans (hwk _)
theorem wvBlock_eq (hwv : ∀ i : S1024x1024.Idx, V c main_v2 i = wv i) (t : Fin cfg0.N) :
    @Eq (Vec Ideal S1024x1024 .bf16) (blk0 V c 3 t) wv := by
  funext j
  obtain ⟨d, g, rfl⟩ : ∃ (d g : Fin 1024), j = ix2 d g := ⟨j 0, j 1, eq_ix2 j⟩
  exact (wvBlock_at V c t d g).trans (hwv _)

theorem Xseq_at (hx : ∀ i : S8x4096x1024.Idx, V c main_arg0 i = x i) (b : Fin 8) (k : Fin 16) (p : Fin 256) (d : Fin 1024) :
    Xseq V c b k.val (ix3 (0 : Fin 1) p d) = x (ix3 b (pos256 k p) d) := by
  unfold Xseq
  rw [dif_pos k.isLt, xBlock_at V c _ b k rfl p d, hx]

/-- One step of each recurrence, with the point before named by its number. -/
theorem heldM_step (t : Fin cfg0.N) (n : ℕ) (hn : n < cfg0.N) (e : t.val = n + 1) (h0 : ¬t.val % 16 = 0) :
    (heldAfter (F := Ideal) V c t.val t.isLt).2.2.2.1
      = k0_pay1 (k0_pay10 (blk0 V c 0 t) (blk0 V c 2 t) (blk0 V c 3 t) (heldAfter (F := Ideal) V c n hn).2.2.2.1) := by
  rw [heldM_next V c t h0, heldAfter_congr V c (show t.val - 1 = n by omega) _ hn]
theorem heldR_step (t : Fin cfg0.N) (n : ℕ) (hn : n < cfg0.N) (e : t.val = n + 1) (h0 : ¬t.val % 16 = 0) :
    (heldAfter (F := Ideal) V c t.val t.isLt).2.2.2.2
      = k0_pay2 (k0_pay8 (blk0 V c 0 t) (blk0 V c 2 t)) (heldAfter (F := Ideal) V c n hn).2.2.2.2 := by
  rw [heldR_next V c t h0, heldAfter_congr V c (show t.val - 1 = n by omega) _ hn]

theorem Mseq_zero (hwk : ∀ i : S1024x1024.Idx, V c main_v1 i = wk i) (hwv : ∀ i : S1024x1024.Idx, V c main_v2 i = wv i) (b : Fin 8) :
    Mseq V c b 0 = k0_pay1 (F := Ideal) (k0_pay10 (Xseq V c b 0) wk wv (k0_pay5 (F := Ideal))) := by
  have h0 : (16 * b.val + 0) % 16 = 0 := by omega
  have e := heldM_first (F := Ideal) V c ⟨16 * b.val + 0, pt_lt b 0 (by decide)⟩ h0
  rw [wkBlock_eq V c wk hwk, wvBlock_eq V c wv hwv] at e
  unfold Mseq Xseq
  rw [dif_pos (by decide : 0 < 16), dif_pos (by decide : 0 < 16)]
  exact e

theorem Mseq_succ (hwk : ∀ i : S1024x1024.Idx, V c main_v1 i = wk i) (hwv : ∀ i : S1024x1024.Idx, V c main_v2 i = wv i) (b : Fin 8)
    (k : ℕ) (hk : k < 15) :
    Mseq V c b (k + 1) = k0_pay1 (F := Ideal) (k0_pay10 (Xseq V c b (k + 1)) wk wv (Mseq V c b k)) := by
  have h0 : ¬(16 * b.val + (k + 1)) % 16 = 0 := by omega
  have e := heldM_step V c ⟨16 * b.val + (k + 1), pt_lt b (k + 1) (by omega)⟩ (16 * b.val + k) (pt_lt b k (by omega))
    (by show 16 * b.val + (k + 1) = 16 * b.val + k + 1; omega) h0
  rw [wkBlock_eq V c wk hwk, wvBlock_eq V c wv hwv] at e
  unfold Mseq Xseq
  rw [dif_pos (by omega : k + 1 < 16), dif_pos (by omega : k + 1 < 16), dif_pos (by omega : k < 16)]
  exact e

theorem Rseq_zero (hwk : ∀ i : S1024x1024.Idx, V c main_v1 i = wk i) (b : Fin 8) :
    Rseq V c b 0 = k0_pay2 (F := Ideal) (k0_pay8 (Xseq V c b 0) wk) (k0_pay6 (F := Ideal)) := by
  have h0 : (16 * b.val + 0) % 16 = 0 := by omega
  have e := heldR_first (F := Ideal) V c ⟨16 * b.val + 0, pt_lt b 0 (by decide)⟩ h0
  rw [wkBlock_eq V c wk hwk] at e
  unfold Rseq Xseq
  rw [dif_pos (by decide : 0 < 16), dif_pos (by decide : 0 < 16)]
  exact e

theorem Rseq_succ (hwk : ∀ i : S1024x1024.Idx, V c main_v1 i = wk i) (b : Fin 8) (k : ℕ) (hk : k < 15) :
    Rseq V c b (k + 1) = k0_pay2 (F := Ideal) (k0_pay8 (Xseq V c b (k + 1)) wk) (Rseq V c b k) := by
  have h0 : ¬(16 * b.val + (k + 1)) % 16 = 0 := by omega
  have e := heldR_step V c ⟨16 * b.val + (k + 1), pt_lt b (k + 1) (by omega)⟩ (16 * b.val + k) (pt_lt b k (by omega))
    (by show 16 * b.val + (k + 1) = 16 * b.val + k + 1; omega) h0
  rw [wkBlock_eq V c wk hwk] at e
  unfold Rseq Xseq
  rw [dif_pos (by omega : k + 1 < 16), dif_pos (by omega : k + 1 < 16), dif_pos (by omega : k < 16)]
  exact e

/-- After a batch entry's last tile the accumulators hold the specification's numerator and denominator there. -/
theorem accM_last (hx : ∀ i : S8x4096x1024.Idx, V c main_arg0 i = x i) (hwk : ∀ i : S1024x1024.Idx, V c main_v1 i = wk i)
    (hwv : ∀ i : S1024x1024.Idx, V c main_v2 i = wv i) (t : Fin cfg0.N) (b : Fin 8) (ht : t.val = 16 * b.val + 15) (f g : Fin 1024) :
    (heldAfter (F := Ideal) V c t.val t.isLt).2.2.2.1 (ix2 f g) = num x wk wv b f g := by
  have key := accM_closed x wk wv b (Xseq V c b) (Mseq V c b) (Mseq_zero V c wk wv hwk hwv b)
    (fun k hk => Mseq_succ V c wk wv hwk hwv b k hk) (fun k p d => Xseq_at V c x hx b k p d) f g
  unfold Mseq at key
  rw [dif_pos (by decide : 15 < 16), heldAfter_congr V c ht.symm _ t.isLt] at key
  exact key
theorem accR_last (hx : ∀ i : S8x4096x1024.Idx, V c main_arg0 i = x i) (hwk : ∀ i : S1024x1024.Idx, V c main_v1 i = wk i)
    (t : Fin cfg0.N) (b : Fin 8) (ht : t.val = 16 * b.val + 15) (g : Fin 1024) :
    (heldAfter (F := Ideal) V c t.val t.isLt).2.2.2.2 (ix2 (0 : Fin 1) g) = den x wk b g := by
  have key := accR_closed x wk b (Xseq V c b) (Rseq V c b) (Rseq_zero V c wk hwk b)
    (fun k hk => Rseq_succ V c wk hwk b k hk) (fun k p d => Xseq_at V c x hx b k p d) g
  unfold Rseq at key
  rw [dif_pos (by decide : 15 < 16), heldAfter_congr V c ht.symm _ t.isLt] at key
  exact key

/-! ## What a last point writes back, and where -/

/-- Entry (u, f, g) of the numerator block at a point of batch entry b sits at (b, f, g) of the array. -/
theorem numBlock_emb (t : Fin cfg0.N) (b : Fin 8) (hb : t.val / 16 = b.val) (u : Fin 1) (f g : Fin 1024) :
    ((cfg0.win 5).blk t).view.emb (ix3 u f g) = (ix3 b f g : S8x1024x1024.Idx) := by
  obtain ⟨-, -, -, -, -, -, -, e0, e1, e2, -⟩ := idx_facts t
  have hu : u.val = 0 := by omega
  refine funext fun a => Fin.ext ?_
  match a with
  | ⟨0, _⟩ => show win0_5.index t (0 : Fin 3) * 1 + 1 * u.val = b.val; rw [e0]; omega
  | ⟨1, _⟩ => show win0_5.index t (1 : Fin 3) * 1024 + 1 * f.val = f.val; rw [e1]; omega
  | ⟨2, _⟩ => show win0_5.index t (2 : Fin 3) * 1024 + 1 * g.val = g.val; rw [e2]; omega
/-- Entry (u, v, g) of the denominator block at a point of batch entry b sits at (b, v, g) of the array. -/
theorem denBlock_emb (t : Fin cfg0.N) (b : Fin 8) (hb : t.val / 16 = b.val) (u v : Fin 1) (g : Fin 1024) :
    ((cfg0.win 6).blk t).view.emb (ix3 u v g) = (ix3 b v g : S8x1x1024.Idx) := by
  obtain ⟨-, -, -, -, -, -, -, -, -, -, e0, e1, e2⟩ := idx_facts t
  have hu : u.val = 0 := by omega
  refine funext fun a => Fin.ext ?_
  match a with
  | ⟨0, _⟩ => show win0_6.index t (0 : Fin 3) * 1 + 1 * u.val = b.val; rw [e0]; omega
  | ⟨1, _⟩ => show win0_6.index t (1 : Fin 3) * 1 + 1 * v.val = v.val; rw [e1]; omega
  | ⟨2, _⟩ => show win0_6.index t (2 : Fin 3) * 1024 + 1 * g.val = g.val; rw [e2]; omega

/-- At a batch entry's last tile the numerator block written back is the specification's numerator at that batch
    entry: the block of the array-wide function. -/
theorem numFlushed (hx : ∀ i : S8x4096x1024.Idx, V c main_arg0 i = x i) (hwk : ∀ i : S1024x1024.Idx, V c main_v1 i = wk i)
    (hwv : ∀ i : S1024x1024.Idx, V c main_v2 i = wv i) (t : Fin cfg0.N) (h15 : t.val % 16 = 15) :
    (dat0 (F := Ideal) V c).flushed 5 t
      = ((cfg0.win 5).blk t).view.read (Elt Ideal) (fun i : S8x1024x1024.Idx => num x wk wv (i 0) (i 1) (i 2)) := by
  have hN : cfg0.N = 128 := N_0
  have hb : t.val / 16 < 8 := by have := t.isLt; omega
  show (cfg0.win 5).cut (grid0.coords t) ((dat0 (F := Ideal) V c).after 5 t) = _
  rw [after0_n, heldN_last V c t h15]
  funext y
  obtain ⟨u, f, g, rfl⟩ : ∃ (u : Fin 1) (f g : Fin 1024), y = ix3 u f g :=
    ⟨y 0, y 1, y 2, eq_ix3 (n0 := 1) (n1 := 1024) (n2 := 1024) y⟩
  obtain rfl : u = 0 := Fin.ext (by omega)
  rw [View.read_apply, numBlock_emb t ⟨t.val / 16, hb⟩ rfl 0 f g]
  show k0_pay3 (F := Ideal) (heldAfter (F := Ideal) V c t.val t.isLt).2.2.2.1 (ix3 (0 : Fin 1) f g) = num x wk wv ⟨t.val / 16, hb⟩ f g
  rw [numOut_at]
  exact accM_last V c x wk wv hx hwk hwv t ⟨t.val / 16, hb⟩ (by show t.val = 16 * (t.val / 16) + 15; omega) f g

theorem denFlushed (hx : ∀ i : S8x4096x1024.Idx, V c main_arg0 i = x i) (hwk : ∀ i : S1024x1024.Idx, V c main_v1 i = wk i)
    (t : Fin cfg0.N) (h15 : t.val % 16 = 15) :
    (dat0 (F := Ideal) V c).flushed 6 t
      = ((cfg0.win 6).blk t).view.read (Elt Ideal) (fun i : S8x1x1024.Idx => den x wk (i 0) (i 2)) := by
  have hN : cfg0.N = 128 := N_0
  have hb : t.val / 16 < 8 := by have := t.isLt; omega
  show (cfg0.win 6).cut (grid0.coords t) ((dat0 (F := Ideal) V c).after 6 t) = _
  rw [after0_d, heldD_last V c t h15]
  funext y
  obtain ⟨u, v, g, rfl⟩ : ∃ (u v : Fin 1) (g : Fin 1024), y = ix3 u v g :=
    ⟨y 0, y 1, y 2, eq_ix3 (n0 := 1) (n1 := 1) (n2 := 1024) y⟩
  obtain rfl : u = 0 := Fin.ext (by omega)
  obtain rfl : v = 0 := Fin.ext (by omega)
  rw [View.read_apply, denBlock_emb t ⟨t.val / 16, hb⟩ rfl 0 0 g]
  show k0_pay4 (F := Ideal) (heldAfter (F := Ideal) V c t.val t.isLt).2.2.2.2 (ix3 (0 : Fin 1) (0 : Fin 1) g) = den x wk ⟨t.val / 16, hb⟩ g
  rw [denOut_at]
  exact accR_last V c x wk hx hwk t ⟨t.val / 16, hb⟩ (by show t.val = 16 * (t.val / 16) + 15; omega) g

/-- An index of the array is in a point's block iff each coordinate is in the block's range on its axis. -/
theorem mem_blk5 (t : Fin cfg0.N) (i : S8x1024x1024.Idx) :
    i ∈ ((cfg0.win 5).blk t).view.set ↔ ∀ a : Fin 3, win0_5.index t a * S1x1024x1024.size a ≤ (i a).val
      ∧ (i a).val < win0_5.index t a * S1x1024x1024.size a + S1x1024x1024.size a := by
  show i ∈ ((View.whole main_v3_1).slice (win0_5.rect t)).set ↔ _
  rw [View.set_slice_whole, Rect.mem_set_unit]
  exact Iff.rfl
theorem mem_blk6 (t : Fin cfg0.N) (i : S8x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v3_2).slice (win0_6.rect t)).set ↔ _
  rw [View.set_slice_whole, Rect.mem_set_unit]
  exact Iff.rfl

/-- Every index of either array is in the block of its batch entry's last point, which is written back. -/
theorem num_cover (i : S8x1024x1024.Idx) :
    ∃ t : Fin cfg0.N, (cfg0.win 5).flush t = true ∧ i ∈ ((cfg0.win 5).blk t).view.set := by
  have hN : cfg0.N = 128 := N_0
  have h0 : (i 0).val < 8 := (i 0).isLt
  have h1 : (i 1).val < 1024 := (i 1).isLt
  have h2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, -, -, -, e0, e1, e2, -⟩ := idx_facts t
  refine ⟨t, (flush0_5 t).mpr (by omega), ?_⟩
  rw [mem_blk5]
  intro a
  match a with
  | ⟨0, _⟩ => show win0_5.index t (0 : Fin 3) * 1 ≤ (i 0).val ∧ (i 0).val < win0_5.index t (0 : Fin 3) * 1 + 1; rw [e0]; omega
  | ⟨1, _⟩ => show win0_5.index t (1 : Fin 3) * 1024 ≤ (i 1).val ∧ (i 1).val < win0_5.index t (1 : Fin 3) * 1024 + 1024; rw [e1]; omega
  | ⟨2, _⟩ => show win0_5.index t (2 : Fin 3) * 1024 ≤ (i 2).val ∧ (i 2).val < win0_5.index t (2 : Fin 3) * 1024 + 1024; rw [e2]; omega
theorem den_cover (i : S8x1x1024.Idx) :
    ∃ t : Fin cfg0.N, (cfg0.win 6).flush t = true ∧ i ∈ ((cfg0.win 6).blk t).view.set := by
  have hN : cfg0.N = 128 := N_0
  have h0 : (i 0).val < 8 := (i 0).isLt
  have h1 : (i 1).val < 1 := (i 1).isLt
  have h2 : (i 2).val < 1024 := (i 2).isLt
  obtain ⟨t, ht⟩ : ∃ t : Fin cfg0.N, t.val = 16 * (i 0).val + 15 := ⟨⟨16 * (i 0).val + 15, by omega⟩, rfl⟩
  obtain ⟨-, -, -, -, -, -, -, -, -, -, e0, e1, e2⟩ := idx_facts t
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; rw [e0]; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 1024 ≤ (i 2).val ∧ (i 2).val < win0_6.index t (2 : Fin 3) * 1024 + 1024; rw [e2]; omega

/-! ## The arrays after the call -/

/-- The numerator array ends holding the specification's numerator at every index. -/
theorem numArr (hx : ∀ i : S8x4096x1024.Idx, V c main_arg0 i = x i) (hwk : ∀ i : S1024x1024.Idx, V c main_v1 i = wk i)
    (hwv : ∀ i : S1024x1024.Idx, V c main_v2 i = wv i) :
    ∀ i : S8x1024x1024.Idx, (dat0 (F := Ideal) V c).arrAt 5 cfg0.N i = num x wk wv (i 0) (i 1) (i 2) := by
  have key := (dat0 (F := Ideal) V c).arrAt_eq_of_cover 5 (fun i : S8x1024x1024.Idx => num x wk wv (i 0) (i 1) (i 2))
    (fun t hf => numFlushed V c x wk wv hx hwk hwv t ((flush0_5 t).mp hf)) num_cover
  intro i
  exact congrFun key i

/-- The denominator array ends holding the specification's denominator at every index. -/
theorem denArr (hx : ∀ i : S8x4096x1024.Idx, V c main_arg0 i = x i) (hwk : ∀ i : S1024x1024.Idx, V c main_v1 i = wk i) :
    ∀ i : S8x1x1024.Idx, (dat0 (F := Ideal) V c).arrAt 6 cfg0.N i = den x wk (i 0) (i 2) := by
  have key := (dat0 (F := Ideal) V c).arrAt_eq_of_cover 6 (fun i : S8x1x1024.Idx => den x wk (i 0) (i 2))
    (fun t hf => denFlushed V c x wk hx hwk t ((flush0_6 t).mp hf)) den_cover
  intro i
  exact congrFun key i

end

end Cert.KernelIdeal.Val

end
-- ==== Proof.KI.OutArray.lean ====
import proofs.«176170_j9431748182266_1_alg».proof.Proof.KI.OutKernel
import proofs.«176170_j9431748182266_1_alg».proof.Proof.KI.Closed
import Idealize.ShloMosaic.Lib.Pipeline.Value

/-!
# The result array as one function of the arguments

The output call walks its 8 × 8 grid batch entry by batch entry: point t works on batch entry b = t / 8 and on
tile j = t % 8 of 512 sequence positions.  There it reads block (b, 0, 0) of the numerators (the whole 1024 × 1024
matrix of entry b), block (b, 0, 0) of the denominators (the one row of entry b), block (b, j, 0) of the query
features (rows 512 j … 512 j + 511 of entry b), and writes back block (b, 0, j) of the result: rows 0 … 1023 and
columns 512 j … 512 j + 511 of entry b.

If the three arrays it reads hold the specification's numerator, denominator and query features, the tile it
writes back at point t is the specification's result at the block's own indices.  The 64 blocks tile the result
array (index (b, f, s) lies in the block of point 8 b + s / 512, and every point writes back), so after the last
point the array is the specification's result everywhere.
-/

noncomputable section

namespace Cert.KernelIdeal.Val

open Cert.KernelIdeal Cert.KernelIdeal.Gen Cert.KernelIdeal.Frm Cert.LinAttn
open Idealize.ShloMosaic Idealize.ShloMosaic.ValueIdx Idealize.ShloMosaic.TcCoe Idealize.SL.Sem
open Idealize.ShloMosaic.Pipeline (Dat)

/-! ## Which block each window selects at a point -/

/-- The four index maps at point t, decided over the 64 points: the result's block is (t / 8, 0, t % 8), the
    numerator's and the denominator's (t / 8, 0, 0), the query features' (t / 8, t % 8, 0). -/
theorem grid_index_facts : ∀ t : Fin cfg1.N,
    win1_3.index t (0 : Fin 3) = t.val / 8 ∧ win1_3.index t (1 : Fin 3) = 0 ∧ win1_3.index t (2 : Fin 3) = t.val % 8
    ∧ win1_0.index t (0 : Fin 3) = t.val / 8 ∧ win1_0.index t (1 : Fin 3) = 0 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

/-- The batch entry and the tile of point t. -/
def entryOf (t : Fin cfg1.N) : Fin 8 := ⟨t.val / 8, by have h : cfg1.N = 64 := N_1; have := t.isLt; omega⟩
def tileOf (t : Fin cfg1.N) : Fin 8 := ⟨t.val % 8, by omega⟩
theorem entryOf_val (t : Fin cfg1.N) : (entryOf t).val = t.val / 8 := rfl
theorem tileOf_val (t : Fin cfg1.N) : (tileOf t).val = t.val % 8 := rfl

section Blocks
variable (V : (c : Dev nD) → (b : Ref sig .tc) → Buf (Elt Ideal) ((c : Thread nD τ).loc b)) (c : Dev nD)

/-! ## The three input blocks, entry by entry

An element of a block sits in its array, on each axis, at the block's index times the block's extent plus its own
coordinate. -/

/-- Entry (f, g) of the numerator block at point t is entry (t / 8, f, g) of the numerator array. -/
theorem numBlock_at (t : Fin cfg1.N) (f g : Fin 1024) :
    (blk1 V c 0 t : Vec Ideal S1x1024x1024 .f32) (ix3 (0 : Fin 1) f g)
      = (V c main_v3_1 : S8x1024x1024.Idx → EReal) (ix3 (entryOf t) f g) := by
  obtain ⟨-, -, -, e0, e1, e2, -⟩ := grid_index_facts t
  unfold blk1
  rw [View.read_apply]
  show V c main_v3_1 _ = V c main_v3_1 _
  refine congrArg (V c main_v3_1) ?_
  funext a; apply Fin.ext
  match a with
  | ⟨0, _⟩ => show win1_0.index t (0 : Fin 3) * 1 + 1 * 0 = t.val / 8; omega
  | ⟨1, _⟩ => show win1_0.index t (1 : Fin 3) * 1024 + 1 * f.val = f.val; omega
  | ⟨2, _⟩ => show win1_0.index t (2 : Fin 3) * 1024 + 1 * g.val = g.val; omega

/-- Entry g of the denominator block at point t is entry (t / 8, 0, g) of the denominator array. -/
theorem denBlock_at (t : Fin cfg1.N) (g : Fin 1024) :
    (blk1 V c 1 t : Vec Ideal S1x1x1024 .f32) (ix3 (0 : Fin 1) (0 : Fin 1) g)
      = (V c main_v3_2 : S8x1x1024.Idx → EReal) (ix3 (entryOf t) (0 : Fin 1) g) := by
  obtain ⟨-, -, -, -, -, -, e0, e1, e2, -⟩ := grid_index_facts t
  unfold blk1
  rw [View.read_apply]
  show V c main_v3_2 _ = V c main_v3_2 _
  refine congrArg (V c main_v3_2) ?_
  funext a; apply Fin.ext
  match a with
  | ⟨0, _⟩ => show win1_1.index t (0 : Fin 3) * 1 + 1 * 0 = t.val / 8; omega
  | ⟨1, _⟩ => show win1_1.index t (1 : Fin 3) * 1 + 1 * 0 = 0; omega
  | ⟨2, _⟩ => show win1_1.index t (2 : Fin 3) * 1024 + 1 * g.val = g.val; omega

/-- Entry (s, g) of the query block at point t is entry (t / 8, 512 (t % 8) + s, g) of the query-feature array. -/
theorem qryBlock_at (t : Fin cfg1.N) (s : Fin 512) (g : Fin 1024) :
    (blk1 V c 2 t : Vec Ideal S1x512x1024 .bf16) (ix3 (0 : Fin 1) s g)
      = (V c main_v3_0 : S8x4096x1024.Idx → EReal) (ix3 (entryOf t) (pos512 (tileOf t) s) g) := by
  obtain ⟨-, -, -, -, -, -, -, -, -, e0, e1, e2⟩ := grid_index_facts t
  unfold blk1
  rw [View.read_apply]
  show V c main_v3_0 _ = V c main_v3_0 _
  refine congrArg (V c main_v3_0) ?_
  funext a; apply Fin.ext
  match a with
  | ⟨0, _⟩ => show win1_2.index t (0 : Fin 3) * 1 + 1 * 0 = t.val / 8; omega
  | ⟨1, _⟩ => show win1_2.index t (1 : Fin 3) * 512 + 1 * s.val = 512 * (t.val % 8) + s.val; omega
  | ⟨2, _⟩ => show win1_2.index t (2 : Fin 3) * 1024 + 1 * g.val = g.val; omega

end Blocks

/-! ## One stored entry is one entry of the specification -/

/-- The tile stored for batch entry b and tile j, at a block index y, is the specification's result at any array
    index i that names the same entry: same batch entry, same feature row, position 512 j + the block's column. -/
theorem tile_entry (x : SX.Idx → EReal) (wq wk wv : SW.Idx → EReal) (b j : Fin 8)
    (n : Vec Ideal S1x1024x1024 .f32) (dn : Vec Ideal S1x1x1024 .f32) (q : Vec Ideal S1x512x1024 .bf16)
    (hn : ∀ f g, n (ix3 (0 : Fin 1) f g) = num x wk wv b f g)
    (hd : ∀ g, dn (ix3 (0 : Fin 1) (0 : Fin 1) g) = den x wk b g)
    (hq : ∀ (s : Fin 512) g, q (ix3 (0 : Fin 1) s g) = qf x wq b (pos512 j s) g)
    (y : S1x1024x512.Idx) (i : SO.Idx)
    (h0 : (i 0).val = b.val) (h1 : (i 1).val = (y 1).val) (h2 : (i 2).val = 512 * j.val + (y 2).val) :
    k1_pay1 (F := Ideal) n dn q y = G x wq wk wv i := by
  obtain ⟨u, f, s, rfl⟩ : ∃ (u : Fin 1) (f : Fin 1024) (s : Fin 512), y = ix3 u f s := ⟨y 0, y 1, y 2, eq_ix3 y⟩
  obtain rfl : u = 0 := Subsingleton.elim _ _
  obtain ⟨b', f', s', rfl⟩ : ∃ (b' : Fin 8) (f' : Fin 1024) (s' : Fin 4096), i = ix3 b' f' s' := ⟨i 0, i 1, i 2, eq_ix3 i⟩
  obtain rfl : b' = b := Fin.ext h0
  obtain rfl : f' = f := Fin.ext h1
  obtain rfl : s' = pos512 j s := Fin.ext h2
  rw [G_apply]
  exact out_closed x wq wk wv b' n dn q j hn hd hq f' s

/-! ## What each point writes back, the cover, and the array -/

section Array
variable (V : (c : Dev nD) → (b : Ref sig .tc) → Buf (Elt Ideal) ((c : Thread nD τ).loc b)) (c : Dev nD)
  (x : SX.Idx → EReal) (wq wk wv : SW.Idx → EReal)
  (hN : ∀ i : S8x1024x1024.Idx, V c main_v3_1 i = num x wk wv (i 0) (i 1) (i 2))
  (hD : ∀ i : S8x1x1024.Idx, V c main_v3_2 i = den x wk (i 0) (i 2))
  (hQ : ∀ i : S8x4096x1024.Idx, V c main_v3_0 i = qf x wq (i 0) (i 1) (i 2))

include hN hD hQ in
/-- What point t writes back is the block of the specification's result that the result window selects at t. -/
theorem written_back (t : Fin cfg1.N) :
    (dat1 (F := Ideal) V c).flushed 3 t = ((cfg1.win 3).blk t).view.read (Elt Ideal) (G x wq wk wv) := by
  show (cfg1.win 3).cut (grid1.coords t) ((dat1 V c).after 3 t) = _
  rw [after1_3, outTile_eq]
  obtain ⟨e0, e1, e2, -⟩ := grid_index_facts t
  funext y
  rw [View.read_apply]
  have hy0 : (y 0).val < 1 := (y 0).isLt
  have hy1 : (y 1).val < 1024 := (y 1).isLt
  have hy2 : (y 2).val < 512 := (y 2).isLt
  exact tile_entry x wq wk wv (entryOf t) (tileOf t) (blk1 V c 0 t) (blk1 V c 1 t) (blk1 V c 2 t)
    (fun f g => (numBlock_at V c t f g).trans (hN (ix3 (entryOf t) f g)))
    (fun g => (denBlock_at V c t g).trans (hD (ix3 (entryOf t) (0 : Fin 1) g)))
    (fun s g => (qryBlock_at V c t s g).trans (hQ (ix3 (entryOf t) (pos512 (tileOf t) s) g)))
    ((cfg1.win 3).xinj (grid1.coords t) y) (((cfg1.win 3).blk t).view.emb y)
    (show win1_3.index t (0 : Fin 3) * 1 + 1 * (y 0).val = t.val / 8 by omega)
    (show win1_3.index t (1 : Fin 3) * 1024 + 1 * (y 1).val = (y 1).val by omega)
    (show win1_3.index t (2 : Fin 3) * 512 + 1 * (y 2).val = 512 * (t.val % 8) + (y 2).val by omega)

/-- An index of the result array is in point t's block iff each coordinate is in the block's range on its axis. -/
theorem mem_outBlock (t : Fin cfg1.N) (i : S8x1024x4096.Idx) :
    i ∈ ((cfg1.win 3).blk t).view.set ↔ ∀ a : Fin 3, win1_3.index t a * S1x1024x512.size a ≤ (i a).val ∧ (i a).val < win1_3.index t a * S1x1024x512.size a + S1x1024x512.size a := by
  show i ∈ ((View.whole main_v4).slice (win1_3.rect t)).set ↔ _
  rw [View.set_slice_whole, Rect.mem_set_unit]
  exact Iff.rfl

/-- Every index (b, f, s) of the result array lies in the block of the point 8 b + s / 512, which writes back. -/
theorem outBlocks_cover (i : S8x1024x4096.Idx) :
    ∃ t : Fin cfg1.N, (cfg1.win 3).flush t = true ∧ i ∈ ((cfg1.win 3).blk t).view.set := by
  have hb : (i 0).val < 8 := (i 0).isLt
  have hf : (i 1).val < 1024 := (i 1).isLt
  have hs : (i 2).val < 4096 := (i 2).isLt
  have hN64 : cfg1.N = 64 := N_1
  obtain ⟨t, ht⟩ : ∃ t : Fin cfg1.N, t.val = 8 * (i 0).val + (i 2).val / 512 :=
    ⟨⟨8 * (i 0).val + (i 2).val / 512, by rw [hN64]; omega⟩, rfl⟩
  obtain ⟨e0, e1, e2, -⟩ := grid_index_facts t
  refine ⟨t, flush1_3 t, ?_⟩
  rw [mem_outBlock]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 512 ≤ (i 2).val ∧ (i 2).val < win1_3.index t (2 : Fin 3) * 512 + 512; omega

include hN hD hQ in
/-- THE RESULT ARRAY after the output call, when its three inputs hold the specification's numerator, denominator
    and query features: the specification's result, everywhere. -/
theorem outArr : (dat1 (F := Ideal) V c).arrAt 3 cfg1.N = G x wq wk wv :=
  (dat1 (F := Ideal) V c).arrAt_eq_of_cover 3 (G x wq wk wv) (fun t _ => written_back V c x wq wk wv hN hD hQ t) outBlocks_cover

end Array

end Cert.KernelIdeal.Val

end
-- ==== Proof.KI.KernelValue.lean ====
/-
  The idealized kernel's result, as one function of its arguments.

  The output call's array ends as the specification of what the call finds in its three inputs, which are the arrays the
  statistics call left; those are the whole-sequence numerator and denominator and the feature-mapped queries of what the
  statistics call found, which is the input as launched and the three weight matrices after a change of format, the identity on
  the extended reals.  So the result array is the specification of the launch arguments.
-/
import proofs.«176170_j9431748182266_1_alg».proof.Proof.KI.Whole
import proofs.«176170_j9431748182266_1_alg».proof.Proof.KI.StatsQ
import proofs.«176170_j9431748182266_1_alg».proof.Proof.KI.StatsNumDen
import proofs.«176170_j9431748182266_1_alg».proof.Proof.KI.OutArray

set_option maxRecDepth 16384

noncomputable section

namespace Cert.KernelIdeal.Val

open Cert.KernelIdeal Cert.KernelIdeal.Gen Cert.KernelIdeal.Frm Cert.LinAttn
open Idealize.ShloMosaic Idealize.ShloMosaic.ValueIdx Idealize.ShloMosaic.TcCoe
open Idealize.SL Idealize.SL.Sem
open Idealize.ShloMosaic.Pipeline (Dat)

section
variable (m : (ℓ : Loc nD τ sig) → Buf (Elt Ideal) ℓ) (ρ : Dev nD → PrngReg)

/-- What the statistics call finds in its input and weight arrays, entry by entry: the launch contents. -/
theorem found_x (c : Dev nD) (i : S8x4096x1024.Idx) : V1 m ρ c main_arg0 i = m ((c : Thread nD τ).loc main_arg0) i :=
  congrFun (V1_x m ρ c) i
theorem found_wq (c : Dev nD) (i : S1024x1024.Idx) : V1 m ρ c main_v0 i = m ((c : Thread nD τ).loc main_arg1) i :=
  (congrFun (V1_wq m ρ c) i).trans (truncf_apply _ _ i)
theorem found_wk (c : Dev nD) (i : S1024x1024.Idx) : V1 m ρ c main_v1 i = m ((c : Thread nD τ).loc main_arg2) i :=
  (congrFun (V1_wk m ρ c) i).trans (truncf_apply _ _ i)
theorem found_wv (c : Dev nD) (i : S1024x1024.Idx) : V1 m ρ c main_v2 i = m ((c : Thread nD τ).loc main_arg3) i :=
  (congrFun (V1_wv m ρ c) i).trans (truncf_apply _ _ i)

/-- THE RESULT ARRAY is the specification of the launch arguments. -/
theorem result_is_G (c : Dev nD) :
    (dat1 (F := Ideal) (V2 m ρ) c).arrAt 3 cfg1.N
      = G (m ((c : Thread nD τ).loc main_arg0)) (m ((c : Thread nD τ).loc main_arg1)) (m ((c : Thread nD τ).loc main_arg2)) (m ((c : Thread nD τ).loc main_arg3)) :=
  outArr (V2 m ρ) c _ _ _ _
    (fun i => (congrFun (V2_num m ρ c) i).trans (numArr (V1 m ρ) c _ _ _ (found_x m ρ c) (found_wk m ρ c) (found_wv m ρ c) i))
    (fun i => (congrFun (V2_den m ρ c) i).trans (denArr (V1 m ρ) c _ _ (found_x m ρ c) (found_wk m ρ c) i))
    (fun i => (congrFun (V2_q m ρ c) i).trans (qArr (V1 m ρ) c _ _ (found_x m ρ c) (found_wq m ρ c) i))

/-- The idealized kernel's run: it terminates with its result array at the specification and its arguments unchanged. -/
theorem kernel_run : θ_run defs (onTc (τ := τ) (main (F := Ideal))) ⟨m, fun _ => 0, ρ⟩ (fun r => ∀ c : Dev nD,
      r.2.mem ((c.tc : Thread nD τ).loc main_v4)
        = G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_is_G m ρ c), (h c).2⟩) (run_result m ρ)

end

end Cert.KernelIdeal.Val

end
-- ==== Proof.RefSide.lean ====
/-
  The reference program computes the specification.

  The reference is a chain of array operations: three projections x · W, the feature map (positive part, plus
  one) on two of them, a contraction of keys against values over the sequence, a sum of the keys over the
  sequence, a division by that sum plus ε spread along the middle axis, and a contraction of the quotient
  against the queries.  Read at one index, each operation depends on a few entries of its operands, or on a sum
  over one axis of them.  Below, each stage is read at an index built from literal coordinates and identified
  with the corresponding function of the specification; the stages then compose to the whole result.

  Nothing here needs a law of arithmetic beyond 0 + a = a (the sum over the sequence starts from the word for
  zero): both sides are the same sums of the same products in the same order.
-/
import proofs.«176170_j9431748182266_1_alg».proof.Proof.Gen.ReferenceIdeal.Read
import proofs.«176170_j9431748182266_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.LinAttn

/-- The sequence array and a projection matrix, as the reference program types them. -/
abbrev XArr : Type := (⟨S8x4096x1024, .f32⟩ : BufTy).Contents (Elt Ideal)
abbrev WArr : Type := (⟨S1024x1024, .f32⟩ : BufTy).Contents (Elt Ideal)

/-! ## Where each contraction reads its operands

A projection's entry (b, s, g) reads x at (b, s, d) and W at (d, g) for each d; the three projections share one
pair of index maps up to their names. -/

theorem lidx_v0 (b : Fin 8) (s : Fin 4096) (g d : Fin 1024) : lidx_main_v0 (ix3 b s g) d = ix3 b s d :=
  funext fun a => Fin.ext (by match a with | ⟨0, _⟩ => rfl | ⟨1, _⟩ => rfl | ⟨2, _⟩ => rfl)
theorem ridx_v0 (b : Fin 8) (s : Fin 4096) (g d : Fin 1024) : ridx_main_v0 (ix3 b s g) d = ix2 d g :=
  funext fun a => Fin.ext (by match a with | ⟨0, _⟩ => rfl | ⟨1, _⟩ => rfl)
theorem lidx_v1 (b : Fin 8) (s : Fin 4096) (g d : Fin 1024) : lidx_main_v1 (ix3 b s g) d = ix3 b s d :=
  funext fun a => Fin.ext (by match a with | ⟨0, _⟩ => rfl | ⟨1, _⟩ => rfl | ⟨2, _⟩ => rfl)
theorem ridx_v1 (b : Fin 8) (s : Fin 4096) (g d : Fin 1024) : ridx_main_v1 (ix3 b s g) d = ix2 d g :=
  funext fun a => Fin.ext (by match a with | ⟨0, _⟩ => rfl | ⟨1, _⟩ => rfl)
theorem lidx_v2 (b : Fin 8) (s : Fin 4096) (g d : Fin 1024) : lidx_main_v2 (ix3 b s g) d = ix3 b s d :=
  funext fun a => Fin.ext (by match a with | ⟨0, _⟩ => rfl | ⟨1, _⟩ => rfl | ⟨2, _⟩ => rfl)
theorem ridx_v2 (b : Fin 8) (s : Fin 4096) (g d : Fin 1024) : ridx_main_v2 (ix3 b s g) d = ix2 d g :=
  funext fun a => Fin.ext (by match a with | ⟨0, _⟩ => rfl | ⟨1, _⟩ => rfl)

/-- The numerator's entry (b, f, g) reads the keys at (b, s, f) and the values at (b, s, g) for each s. -/
theorem lidx_v9 (b : Fin 8) (f g : Fin 1024) (s : Fin 4096) : lidx_main_v9 (ix3 b f g) s = ix3 b s f :=
  funext fun a => Fin.ext (by match a with | ⟨0, _⟩ => rfl | ⟨1, _⟩ => rfl | ⟨2, _⟩ => rfl)
theorem ridx_v9 (b : Fin 8) (f g : Fin 1024) (s : Fin 4096) : ridx_main_v9 (ix3 b f g) s = ix3 b s g :=
  funext fun a => Fin.ext (by match a with | ⟨0, _⟩ => rfl | ⟨1, _⟩ => rfl | ⟨2, _⟩ => rfl)

/-- The denominator's entry (b, g) sums the keys at (b, s, g) over s. -/
theorem idx_v10 (b : Fin 8) (g : Fin 1024) (s : Fin 4096) : idx_main_v10 (ix2 b g) s = ix3 b s g :=
  funext fun a => Fin.ext (by match a with | ⟨0, _⟩ => rfl | ⟨1, _⟩ => rfl | ⟨2, _⟩ => rfl)

/-- Spread along the middle axis, the [B, 1, F] denominator is read at the FIRST and LAST coordinates of the
    numerator's index: entry (b, f, g) divides by the denominator at (b, g). -/
theorem idx_v11_v14 (b : Fin 8) (f g : Fin 1024) : idx_main_v11 (idx_main_v14 (ix3 b f g)) = ix2 b g :=
  funext fun a => Fin.ext (by match a with | ⟨0, _⟩ => rfl | ⟨1, _⟩ => rfl)

/-- The result's entry (b, f, s) reads the context at (b, f, g) and the queries at (b, s, g) for each g. -/
theorem lidx_v16 (b : Fin 8) (f : Fin 1024) (s : Fin 4096) (g : Fin 1024) : lidx_main_v16 (ix3 b f s) g = ix3 b f g :=
  funext fun a => Fin.ext (by match a with | ⟨0, _⟩ => rfl | ⟨1, _⟩ => rfl | ⟨2, _⟩ => rfl)
theorem ridx_v16 (b : Fin 8) (f : Fin 1024) (s : Fin 4096) (g : Fin 1024) : ridx_main_v16 (ix3 b f s) g = ix3 b s g :=
  funext fun a => Fin.ext (by match a with | ⟨0, _⟩ => rfl | ⟨1, _⟩ => rfl | ⟨2, _⟩ => rfl)

/-! ## The stages, one entry at a time -/

/-- The three projections: entry (b, s, g) of x · W is ∑ d, x (b, s, d) · W (d, g). -/
theorem proj_v0 (x : XArr) (w : WArr) (b : Fin 8) (s : Fin 4096) (g : Fin 1024) :
    val_main_v0 (F := Ideal) x w (ix3 b s g) = proj x w b s g := by
  rw [val_main_v0_apply]
  unfold proj
  refine Finset.sum_congr rfl fun d _ => ?_
  rw [lidx_v0, ridx_v0]
theorem proj_v1 (x : XArr) (w : WArr) (b : Fin 8) (s : Fin 4096) (g : Fin 1024) :
    val_main_v1 (F := Ideal) x w (ix3 b s g) = proj x w b s g := by
  rw [val_main_v1_apply]
  unfold proj
  refine Finset.sum_congr rfl fun d _ => ?_
  rw [lidx_v1, ridx_v1]
theorem proj_v2 (x : XArr) (w : WArr) (b : Fin 8) (s : Fin 4096) (g : Fin 1024) :
    val_main_v2 (F := Ideal) x w (ix3 b s g) = proj x w b s g := by
  rw [val_main_v2_apply]
  unfold proj
  refine Finset.sum_congr rfl fun d _ => ?_
  rw [lidx_v2, ridx_v2]

/-- The queries: the feature map of the first projection.  The positive part is the maximum with the word for
    zero and the shift adds the word for one, each spread over the whole array from a single scalar. -/
theorem qf_v5 (x : XArr) (wq : WArr) (b : Fin 8) (s : Fin 4096) (g : Fin 1024) :
    val_main_v5 (F := Ideal) x wq (ix3 b s g) = qf x wq b s g := by
  rw [val_main_v5_apply, val_main_v3_apply, val_main_v4_apply, val_main_cst_apply, val_main_call0_v0_apply,
    val_main_call0_cst_apply, proj_v0]
  rfl

/-- The keys: the feature map of the second projection. -/
theorem kf_v8 (x : XArr) (wk : WArr) (b : Fin 8) (s : Fin 4096) (f : Fin 1024) :
    val_main_v8 (F := Ideal) x wk (ix3 b s f) = kf x wk b s f := by
  rw [val_main_v8_apply, val_main_v6_apply, val_main_v7_apply, val_main_cst_0_apply, val_main_call1_v0_apply,
    val_main_call1_cst_apply, proj_v1]
  rfl

/-- The values: the third projection as it is. -/
theorem vf_v2 (x : XArr) (wv : WArr) (b : Fin 8) (s : Fin 4096) (g : Fin 1024) :
    val_main_v2 (F := Ideal) x wv (ix3 b s g) = vf x wv b s g := proj_v2 x wv b s g

/-- The numerator: keys against values, contracted over the sequence. -/
theorem num_v9 (x : XArr) (wk wv : WArr) (b : Fin 8) (f g : Fin 1024) :
    val_main_v9 (F := Ideal) x wk wv (ix3 b f g) = num x wk wv b f g := by
  rw [val_main_v9_apply]
  unfold num
  refine Finset.sum_congr rfl fun s _ => ?_
  rw [lidx_v9, ridx_v9, kf_v8, vf_v2]

/-- The denominator: the keys summed over the sequence; the sum starts from the word for zero, which is 0. -/
theorem den_v10 (x : XArr) (wk : WArr) (b : Fin 8) (g : Fin 1024) :
    val_main_v10 (F := Ideal) x wk (ix2 b g) = den x wk b g := by
  rw [val_main_v10_apply, val_main_cst_1_apply, Ideal.ofBits_def, Ideal.ofBits_zero_f32, zero_add]
  unfold den
  refine Finset.sum_congr rfl fun s _ => ?_
  rw [idx_v10, kf_v8]

/-- The context: the numerator at (b, f, g) over the denominator at (b, g) plus ε. -/
theorem ctx_v15 (x : XArr) (wk wv : WArr) (b : Fin 8) (f g : Fin 1024) :
    val_main_v15 (F := Ideal) x wk wv (ix3 b f g) = ctx x wk wv b f g := by
  rw [val_main_v15_apply, val_main_v14_apply, val_main_v13_apply, val_main_v11_apply, val_main_v12_apply,
    val_main_cst_2_apply, idx_v11_v14, num_v9, den_v10]
  rfl

/-- One entry of the result: the context row against the query, contracted over the features. -/
theorem out_v16 (x : XArr) (wq wk wv : WArr) (b : Fin 8) (f : Fin 1024) (s : Fin 4096) :
    val_main_v16 (F := Ideal) x wq wk wv (ix3 b f s) = out x wq wk wv b f s := by
  rw [val_main_v16_apply]
  unfold out
  refine Finset.sum_congr rfl fun g _ => ?_
  rw [lidx_v16, ridx_v16, ctx_v15, qf_v5]

/-! ## The whole result -/

/-- The reference's last stage is the specification, as arrays. -/
theorem ref_is_G (x : (⟨S8x4096x1024, .f32⟩ : BufTy).Contents (Elt Ideal))
    (wq wk wv : (⟨S1024x1024, .f32⟩ : BufTy).Contents (Elt Ideal)) :
    Cert.ReferenceIdeal.Read.val_main_v16 (F := Ideal) x wq wk wv = Cert.LinAttn.G x wq wk wv := by
  funext i
  obtain ⟨b, f, s, rfl⟩ : ∃ (b : Fin 8) (f : Fin 1024) (s : Fin 4096), i = ix3 b f s := ⟨i 0, i 1, i 2, eq_ix3 i⟩
  rw [G_apply, out_v16]

/-- The same fact with the left side spelt as the composed term of the reference's operations (the form in which
    the reference's run states its result). -/
theorem composed_is_G (x : (⟨S8x4096x1024, .f32⟩ : BufTy).Contents (Elt Ideal))
    (wq wk wv : (⟨S1024x1024, .f32⟩ : BufTy).Contents (Elt Ideal)) :
    Host.dotGeneral (F := Ideal) (φ₁ := .f32) (φ₂ := .f32) dot_S8x1024x1024_S8x4096x1024_S8x1024x4096_2_2_1_1_0_0 none (Host.divf (F := Ideal) (Host.dotGeneral (F := Ideal) (φ₁ := .f32) (φ₂ := .f32) dot_S8x4096x1024_S8x4096x1024_S8x1024x1024_1_1_2_2_0_0 none (addf (F := Ideal) (maximumf (F := Ideal) (Host.dotGeneral (F := Ideal) (φ₁ := .f32) (φ₂ := .f32) dot_S8x4096x1024_S1024x1024_S8x4096x1024_2_0_01_1_n_n none x wk) (broadcastInDim S8x4096x1024 ![] bcast_S_S8x4096x1024 (constant (F := Ideal) S_ .f32 0x00000000#32))) (broadcastInDim S8x4096x1024 ![] bcast_S_S8x4096x1024 (constant (F := Ideal) S_ .f32 0x3F800000#32))) (Host.dotGeneral (F := Ideal) (φ₁ := .f32) (φ₂ := .f32) dot_S8x4096x1024_S1024x1024_S8x4096x1024_2_0_01_1_n_n none x wv)) (broadcastInDim S8x1024x1024 ![0, 1, 2] bcast_S8x1x1024_S8x1024x1024_0_1_2 (addf (F := Ideal) (broadcastInDim S8x1x1024 ![0, 2] bcast_S8x1024_S8x1x1024_0_2 (Host.reduceAdd (F := Ideal) (addf (F := Ideal) (maximumf (F := Ideal) (Host.dotGeneral (F := Ideal) (φ₁ := .f32) (φ₂ := .f32) dot_S8x4096x1024_S1024x1024_S8x4096x1024_2_0_01_1_n_n none x wk) (broadcastInDim S8x4096x1024 ![] bcast_S_S8x4096x1024 (constant (F := Ideal) S_ .f32 0x00000000#32))) (broadcastInDim S8x4096x1024 ![] bcast_S_S8x4096x1024 (constant (F := Ideal) S_ .f32 0x3F800000#32))) (constant (F := Ideal) S_ .f32 0x00000000#32) reducesTo_S8x4096x1024_S8x1024_d1 h_S_)) (broadcastInDim S8x1x1024 ![] bcast_S_S8x1x1024 (constant (F := Ideal) S_ .f32 0x358637BD#32))))) (addf (F := Ideal) (maximumf (F := Ideal) (Host.dotGeneral (F := Ideal) (φ₁ := .f32) (φ₂ := .f32) dot_S8x4096x1024_S1024x1024_S8x4096x1024_2_0_01_1_n_n none x wq) (broadcastInDim S8x4096x1024 ![] bcast_S_S8x4096x1024 (constant (F := Ideal) S_ .f32 0x00000000#32))) (broadcastInDim S8x4096x1024 ![] bcast_S_S8x4096x1024 (constant (F := Ideal) S_ .f32 0x3F800000#32)))
      = Cert.LinAttn.G x wq wk wv :=
  (val_main_v16_eq (F := Ideal) x wq wk wv).trans (ref_is_G x wq wk wv)

/-- The reference's run: every weakly fair execution ends with the specification of the arguments' launch
    contents in the result buffer, and the arguments as they were. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = Cert.LinAttn.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans (composed_is_G _ _ _ _), (h c).2⟩)
    (Cert.ReferenceIdeal.Value.run (F := Ideal) m ρ)

end Cert.ReferenceIdeal.RefValue

end
-- ==== Proof.lean ====
/-
  Linear attention with the feature map  z ↦ max z 0 + 1:  a two-call kernel against its reference, on the extended reals.

  Both programs compute, for a batch entry b, a feature f and a sequence position s,
      out b f s = ∑ g, (num b f g / (den b g + ε)) · Q b s g,
  with  Q = feat (x·Wq),  K = feat (x·Wk),  V = x·Wv,  num b f g = ∑ s, K b s f · V b s g,  den b g = ∑ s, K b s g
  (Proof/Spec.lean; the denominator is indexed by the numerator's LAST index in both programs).  They differ only in how the sums
  over the 4096 positions are grouped: the reference sums them at once; the kernel's first call walks each batch entry's sixteen
  tiles of 256 positions, adding each tile's contribution to two accumulators it clears at the first tile and copies out
  after the last, and its second call divides and contracts against the queries tile by tile.  Regrouping a sum needs only that
  addition on the extended reals is commutative and associative with neutral element 0, so the precondition is never opened.

  The frames: neither kernel program's frame is generated, so each is proved over the library's launch theorem for a program
  of several kernel calls, from each call's body run by the symbolic executor: the first call in its three control cases with
  the accumulators carried in the invariant from point to point, the second as a plain load-compute-store body (Proof/K/ for the
  word-level program, Proof/KI/ for its reading on the extended reals: the same text, the ideal pass having rewritten
  nothing, which is also why the idealization claim is trivially true).  The reference's frame is its generated run.

  The values: the kernel's run names its result array as the second call's write-backs folded over its grid; that array is the
  specification of what the call finds (Proof/KI/OutArray.lean), which is what the first call's write-backs left: the queries
  (Proof/KI/StatsQ.lean) and, by induction along a batch entry's tiles, the whole-sequence numerator and denominator
  (Proof/KI/StatsNumDen.lean over Proof/KI/Closed.lean), of the launch arguments (Proof/KI/KernelValue.lean).  The reference's
  generated run ends at the same specification, read one operation at a time (Proof/RefSide.lean).
-/
import proofs.«176170_j9431748182266_1_alg».proof.Defs
import proofs.«176170_j9431748182266_1_alg».proof.Proof.Gen.Kernel
import proofs.«176170_j9431748182266_1_alg».proof.Proof.Gen.KernelIdeal
import proofs.«176170_j9431748182266_1_alg».proof.Proof.Gen.ReferenceIdeal
import proofs.«176170_j9431748182266_1_alg».proof.Proof.Gen.Pre_finite_inputs
import proofs.«176170_j9431748182266_1_alg».proof.Proof.K.Whole
import proofs.«176170_j9431748182266_1_alg».proof.Proof.KI.KernelValue
import proofs.«176170_j9431748182266_1_alg».proof.Proof.RefSide
import Idealize.ShloMosaic.Adequacy
import Idealize.ShloMosaic.Init

noncomputable section

namespace Cert.Proof

open Idealize.ShloMosaic Idealize.SL.Sem

/-- The word-level kernel terminates, faults nowhere and leaves its four argument arrays as launched. -/
theorem frame_kernel : Cert.frame_Kernel := fun m ρ _ => Cert.Kernel.Frm.frame m ρ

/-- So does its reading on the extended reals. -/
theorem frame_kernelIdeal : Cert.frame_KernelIdeal := fun m ρ _ => Cert.KernelIdeal.Frm.frame m ρ

/-- The reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation, so there is nothing to restate. -/
theorem preserves : Cert.preserves_Kernel_KernelIdeal := trivial

/-- From memories that agree on the four arguments both programs end with the specification of those arguments in their
    result arrays, and with the arguments unchanged. -/
theorem algebraic : Cert.algebraic_KernelIdeal_ReferenceIdeal := by
  intro m ρ m' ρ' _ hagree
  refine ⟨fun c => Cert.LinAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.kernel_run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
